-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v55)) (v3 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_v60) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x20x128x128 : Shape := ⟨4, ![128, 20, 128, 128]⟩
abbrev S128x2x128x128 : Shape := ⟨4, ![128, 2, 128, 128]⟩
abbrev S128x128x2 : Shape := ⟨3, ![128, 128, 2]⟩
abbrev S128x128 : Shape := ⟨2, ![128, 128]⟩
abbrev S_ : Shape := ⟨0, ![]⟩

class Facts : Prop where
  bcast_S_S128x20x128x128 : S_.BroadcastsInDim S128x20x128x128 (![] : Fin 0 → Fin S128x20x128x128.rank)
  reducesTo_S128x20x128x128_S_d0_1_2_3 : S128x20x128x128.ReducesTo [0, 1, 2, 3] S_
  h_S_ : 0 < S_.numel
  bcast_S_S128x2x128x128 : S_.BroadcastsInDim S128x2x128x128 (![] : Fin 0 → Fin S128x2x128x128.rank)
  reducesTo_S128x2x128x128_S_d0_1_2_3 : S128x2x128x128.ReducesTo [0, 1, 2, 3] S_
  bcast_S_S128x128x2 : S_.BroadcastsInDim S128x128x2 (![] : Fin 0 → Fin S128x128x2.rank)
  reducesTo_S128x128x2_S_d0_1_2 : S128x128x2.ReducesTo [0, 1, 2] S_

variable [Facts]

def fn_part1 {F : FTy → Type} [FloatOps F] (main_arg1 : FVec F S128x20x128x128 .f32) (main_arg4 : FVec F S128x2x128x128 .f32) (main_arg5 : FVec F S128x128x2 .f32) (main_v13 : IVec S_ 1) (main_v16 : IVec S128x128x2 1) : IVec S_ 1 :=
  let main_c_5 : IVec S_ 1 := constantI S_ 1 1#1
  let main_v17 : IVec S_ 1 := (fun x v => Host.reduce IntOp.andi x v reducesTo_S128x128x2_S_d0_1_2 h_S_) main_v16 main_c_5
  let main_v18 : IVec S_ 1 := andi main_v13 main_v17
  let main_v19 : FVec F S128x2x128x128 .f32 := Host.absf main_arg4
  let main_cst_6 : FVec F S_ .f32 := constant S_ .f32 0x7F800000#32
  let main_v20 : FVec F S128x2x128x128 .f32 := broadcastInDim S128x2x128x128 ![] bcast_S_S128x2x128x128 main_cst_6
  let main_v21 : IVec S128x2x128x128 1 := cmpf .olt main_v19 main_v20
  let main_c_7 : IVec S_ 1 := constantI S_ 1 1#1
  let main_v22 : IVec S_ 1 := (fun x v => Host.reduce IntOp.andi x v reducesTo_S128x2x128x128_S_d0_1_2_3 h_S_) main_v21 main_c_7
  let main_v23 : IVec S_ 1 := andi main_v18 main_v22
  let main_v24 : FVec F S128x128x2 .f32 := Host.absf main_arg5
  let main_cst_8 : FVec F S_ .f32 := constant S_ .f32 0x7F800000#32
  let main_v25 : FVec F S128x128x2 .f32 := broadcastInDim S128x128x2 ![] bcast_S_S128x128x2 main_cst_8
  let main_v26 : IVec S128x128x2 1 := cmpf .olt main_v24 main_v25
  let main_c_9 : IVec S_ 1 := constantI S_ 1 1#1
  let main_v27 : IVec S_ 1 := (fun x v => Host.reduce IntOp.andi x v reducesTo_S128x128x2_S_d0_1_2 h_S_) main_v26 main_c_9
  let main_v28 : IVec S_ 1 := andi main_v23 main_v27
  let main_cst_10 : FVec F S_ .f32 := constant S_ .f32 0x3F800000#32
  let main_v29 : FVec F S128x20x128x128 .f32 := broadcastInDim S128x20x128x128 ![] bcast_S_S128x20x128x128 main_cst_10
  let main_v30 : IVec S128x20x128x128 1 := cmpf .ole main_arg1 main_v29
  let main_c_11 : IVec S_ 1 := constantI S_ 1 1#1
  let main_v31 : IVec S_ 1 := (fun x v => Host.reduce IntOp.andi x v reducesTo_S128x20x128x128_S_d0_1_2_3 h_S_) main_v30 main_c_11
  let main_v32 : IVec S_ 1 := andi main_v28 main_v31
  main_v32

def fn {F : FTy → Type} [FloatOps F] (main_arg0 : FVec F S128x20x128x128 .f32) (main_arg1 : FVec F S128x20x128x128 .f32) (main_arg2 : FVec F S128x2x128x128 .f32) (main_arg3 : FVec F S128x128x2 .f32) (main_arg4 : FVec F S128x2x128x128 .f32) (main_arg5 : FVec F S128x128x2 .f32) (main_arg6 : IVec S128x128 32) (main_arg7 : IVec S128x128 32) : IVec S_ 1 :=
  let main_v0 : FVec F S128x20x128x128 .f32 := Host.absf main_arg0
  let main_cst : FVec F S_ .f32 := constant S_ .f32 0x7F800000#32
  let main_v1 : FVec F S128x20x128x128 .f32 := broadcastInDim S128x20x128x128 ![] bcast_S_S128x20x128x128 main_cst
  let main_v2 : IVec S128x20x128x128 1 := cmpf .olt main_v0 main_v1
  let main_c : IVec S_ 1 := constantI S_ 1 1#1
  let main_v3 : IVec S_ 1 := (fun x v => Host.reduce IntOp.andi x v reducesTo_S128x20x128x128_S_d0_1_2_3 h_S_) main_v2 main_c
  let main_v4 : FVec F S128x20x128x128 .f32 := Host.absf main_arg1
  let main_cst_0 : FVec F S_ .f32 := constant S_ .f32 0x7F800000#32
  let main_v5 : FVec F S128x20x128x128 .f32 := broadcastInDim S128x20x128x128 ![] bcast_S_S128x20x128x128 main_cst_0
  let main_v6 : IVec S128x20x128x128 1 := cmpf .olt main_v4 main_v5
  let main_c_1 : IVec S_ 1 := constantI S_ 1 1#1
  let main_v7 : IVec S_ 1 := (fun x v => Host.reduce IntOp.andi x v reducesTo_S128x20x128x128_S_d0_1_2_3 h_S_) main_v6 main_c_1
  let main_v8 : IVec S_ 1 := andi main_v3 main_v7
  let main_v9 : FVec F S128x2x128x128 .f32 := Host.absf main_arg2
  let main_cst_2 : FVec F S_ .f32 := constant S_ .f32 0x7F800000#32
  let main_v10 : FVec F S128x2x128x128 .f32 := broadcastInDim S128x2x128x128 ![] bcast_S_S128x2x128x128 main_cst_2
  let main_v11 : IVec S128x2x128x128 1 := cmpf .olt main_v9 main_v10
  let main_c_3 : IVec S_ 1 := constantI S_ 1 1#1
  let main_v12 : IVec S_ 1 := (fun x v => Host.reduce IntOp.andi x v reducesTo_S128x2x128x128_S_d0_1_2_3 h_S_) main_v11 main_c_3
  let main_v13 : IVec S_ 1 := andi main_v8 main_v12
  let main_v14 : FVec F S128x128x2 .f32 := Host.absf main_arg3
  let main_cst_4 : FVec F S_ .f32 := constant S_ .f32 0x7F800000#32
  let main_v15 : FVec F S128x128x2 .f32 := broadcastInDim S128x128x2 ![] bcast_S_S128x128x2 main_cst_4
  let main_v16 : IVec S128x128x2 1 := cmpf .olt main_v14 main_v15
  fn_part1 (F := F) main_arg1 main_arg4 main_arg5 main_v13 main_v16
-- ==== Kernel.lean ====
abbrev S128x20x128x128 : Shape := ⟨4, ![128, 20, 128, 128]⟩
abbrev S128x2x128x128 : Shape := ⟨4, ![128, 2, 128, 128]⟩
abbrev S128x128x2 : Shape := ⟨3, ![128, 128, 2]⟩
abbrev S128x128 : Shape := ⟨2, ![128, 128]⟩
abbrev S1x1x1x1 : Shape := ⟨4, ![1, 1, 1, 1]⟩
abbrev S2x20x128x128 : Shape := ⟨4, ![2, 20, 128, 128]⟩
abbrev S2x20x128 : Shape := ⟨3, ![2, 20, 128]⟩
abbrev S2x20x128x1 : Shape := ⟨4, ![2, 20, 128, 1]⟩
abbrev S2x20x1 : Shape := ⟨3, ![2, 20, 1]⟩
abbrev S2x20x1x1 : Shape := ⟨4, ![2, 20, 1, 1]⟩
abbrev S2x1x1 : Shape := ⟨3, ![2, 1, 1]⟩
abbrev S2x1x1x1 : Shape := ⟨4, ![2, 1, 1, 1]⟩
abbrev S1x1x1 : Shape := ⟨3, ![1, 1, 1]⟩
abbrev S_ : Shape := ⟨0, ![]⟩
abbrev S128x128x128x2 : Shape := ⟨4, ![128, 128, 128, 2]⟩
abbrev S128x16384x2 : Shape := ⟨3, ![128, 16384, 2]⟩
abbrev S128x128x1 : Shape := ⟨3, ![128, 128, 1]⟩
abbrev S128x128x2x1 : Shape := ⟨4, ![128, 128, 2, 1]⟩
abbrev S1 : Shape := ⟨1, ![1]⟩

abbrev nBuf : Space → Nat
  | .hbm => 130
  | .vmem => 7
  | .smem => 0
  | _ => 0

abbrev hbmTy0_0 (i : Nat) : BufTy := match i % 128 with
  | 0 => ⟨S128x20x128x128, .f32⟩
  | 1 => ⟨S128x20x128x128, .f32⟩
  | 2 => ⟨S128x2x128x128, .f32⟩
  | 3 => ⟨S128x128x2, .f32⟩
  | 4 => ⟨S128x2x128x128, .f32⟩
  | 5 => ⟨S128x128x2, .f32⟩
  | 6 => ⟨S128x128, .i32⟩
  | 7 => ⟨S128x128, .i32⟩
  | 8 => ⟨S1x1x1x1, .f32⟩
  | 9 => ⟨S1x1x1x1, .f32⟩
  | 10 => ⟨S1x1x1x1, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .i1⟩
  | 18 => ⟨S_, .f32⟩
  | 19 => ⟨S_, .f32⟩
  | 20 => ⟨S128x128x128x2, .f32⟩
  | 21 => ⟨S128x16384x2, .f32⟩
  | 22 => ⟨S128x128x1, .i32⟩
  | 23 => ⟨S128x128x2, .i32⟩
  | 24 => ⟨S_, .i32⟩
  | 25 => ⟨S128x128x2, .i32⟩
  | 26 => ⟨S128x128x2, .i1⟩
  | 27 => ⟨S_, .i32⟩
  | 28 => ⟨S128x128x2, .i32⟩
  | 29 => ⟨S128x128x2, .i32⟩
  | 30 => ⟨S128x128x2, .i32⟩
  | 31 => ⟨S128x128x2x1, .i32⟩
  | 32 => ⟨S1, .i32⟩
  | 33 => ⟨S_, .i32⟩
  | 34 => ⟨S128x128x2x1, .i32⟩
  | 35 => ⟨S128x128x2x1, .i1⟩
  | 36 => ⟨S1x1x1x1, .i32⟩
  | 37 => ⟨S128x128x2x1, .i32⟩
  | 38 => ⟨S128x128x2x1, .i1⟩
  | 39 => ⟨S128x128x2x1, .i1⟩
  | 40 => ⟨S_, .i1⟩
  | 41 => ⟨S128x128x2, .i1⟩
  | 42 => ⟨S128x128x2, .f32⟩
  | 43 => ⟨S_, .f32⟩
  | 44 => ⟨S128x128x2, .f32⟩
  | 45 => ⟨S128x128x2, .f32⟩
  | 46 => ⟨S128x128x1, .i32⟩
  | 47 => ⟨S128x128x1, .f32⟩
  | 48 => ⟨S128x128x2, .f32⟩
  | 49 => ⟨S128x128x2, .f32⟩
  | 50 => ⟨S128x128x2, .f32⟩
  | 51 => ⟨S128x128x2, .f32⟩
  | 52 => ⟨S128x128x2, .f32⟩
  | 53 => ⟨S_, .f32⟩
  | 54 => ⟨S128x128x2, .f32⟩
  | 55 => ⟨S128x128x2, .i1⟩
  | 56 => ⟨S_, .f32⟩
  | 57 => ⟨S128x128x2, .f32⟩
  | 58 => ⟨S128x128x2, .f32⟩
  | 59 => ⟨S128x128x2, .f32⟩
  | 60 => ⟨S_, .f32⟩
  | 61 => ⟨S128x128x2, .f32⟩
  | 62 => ⟨S128x128x2, .f32⟩
  | 63 => ⟨S128x128x2, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S128x128x128x2, .f32⟩
  | 72 => ⟨S128x16384x2, .f32⟩
  | 73 => ⟨S128x128x1, .i32⟩
  | 74 => ⟨S128x128x2, .i32⟩
  | 75 => ⟨S_, .i32⟩
  | 76 => ⟨S128x128x2, .i32⟩
  | 77 => ⟨S128x128x2, .i1⟩
  | 78 => ⟨S_, .i32⟩
  | 79 => ⟨S128x128x2, .i32⟩
  | 80 => ⟨S128x128x2, .i32⟩
  | 81 => ⟨S128x128x2, .i32⟩
  | 82 => ⟨S128x128x2x1, .i32⟩
  | 83 => ⟨S1, .i32⟩
  | 84 => ⟨S_, .i32⟩
  | 85 => ⟨S128x128x2x1, .i32⟩
  | 86 => ⟨S128x128x2x1, .i1⟩
  | 87 => ⟨S1x1x1x1, .i32⟩
  | 88 => ⟨S128x128x2x1, .i32⟩
  | 89 => ⟨S128x128x2x1, .i1⟩
  | 90 => ⟨S128x128x2x1, .i1⟩
  | 91 => ⟨S_, .i1⟩
  | 92 => ⟨S128x128x2, .i1⟩
  | 93 => ⟨S128x128x2, .f32⟩
  | 94 => ⟨S_, .f32⟩
  | 95 => ⟨S128x128x2, .f32⟩
  | 96 => ⟨S128x128x2, .f32⟩
  | 97 => ⟨S128x128x1, .i32⟩
  | 98 => ⟨S128x128x1, .f32⟩
  | 99 => ⟨S128x128x2, .f32⟩
  | 100 => ⟨S128x128x2, .f32⟩
  | 101 => ⟨S128x128x2, .f32⟩
  | 102 => ⟨S128x128x2, .f32⟩
  | 103 => ⟨S128x128x2, .f32⟩
  | 104 => ⟨S_, .f32⟩
  | 105 => ⟨S128x128x2, .f32⟩
  | 106 => ⟨S128x128x2, .i1⟩
  | 107 => ⟨S_, .f32⟩
  | 108 => ⟨S128x128x2, .f32⟩
  | 109 => ⟨S128x128x2, .f32⟩
  | 110 => ⟨S128x128x2, .f32⟩
  | 111 => ⟨S_, .f32⟩
  | 112 => ⟨S128x128x2, .f32⟩
  | 113 => ⟨S128x128x2, .f32⟩
  | 114 => ⟨S128x128x2, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S128x20x128x128, .f32⟩

abbrev hbmTy0_1 (i : Nat) : BufTy := match i % 128 with
  | 0 => ⟨S_, .f32⟩
  | 1 => ⟨S_, .f32⟩
  | _ => ⟨S128x20x128x128, .f32⟩

abbrev hbmTy (i : Nat) : BufTy := match i / 128 with
  | 0 => hbmTy0_0 i
  | 1 => hbmTy0_1 i
  | _ => ⟨S128x20x128x128, .f32⟩

abbrev bufTy : (tb : Table) → Fin (tcTables nBuf tb) → BufTy
  | .hbm, ⟨i, _⟩ => hbmTy i
  | .local _ .vmem, ⟨0, _⟩ => ⟨S2x20x128x128, .f32⟩
  | .local _ .vmem, ⟨1, _⟩ => ⟨S2x20x128x128, .f32⟩
  | .local _ .vmem, ⟨2, _⟩ => ⟨S2x20x128x128, .f32⟩
  | .local _ .vmem, ⟨3, _⟩ => ⟨S2x20x128x128, .f32⟩
  | .local _ .vmem, ⟨4, _⟩ => ⟨S1x1x1x1, .f32⟩
  | .local _ .vmem, ⟨5, _⟩ => ⟨S1x1x1x1, .f32⟩
  | .local _ .vmem, ⟨6, _⟩ => ⟨S1x1x1x1, .f32⟩
  | _, _ => ⟨S128x20x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_3 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_4 : Ref sig .tc := ⟨.hbm, 64, rfl⟩
abbrev main_v28 : Ref sig .tc := ⟨.hbm, 65, rfl⟩
abbrev main_cst_5 : Ref sig .tc := ⟨.hbm, 66, rfl⟩
abbrev main_v29 : Ref sig .tc := ⟨.hbm, 67, rfl⟩
abbrev main_cst_6 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_cst : Ref sig .tc := ⟨.hbm, 94, rfl⟩
abbrev main_call3_v14 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_7 : Ref sig .tc := ⟨.hbm, 104, rfl⟩
abbrev main_v44 : Ref sig .tc := ⟨.hbm, 105, rfl⟩
abbrev main_v45 : Ref sig .tc := ⟨.hbm, 106, rfl⟩
abbrev main_cst_8 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_9 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_cst_10 : Ref sig .tc := ⟨.hbm, 115, rfl⟩
abbrev main_v52 : Ref sig .tc := ⟨.hbm, 116, rfl⟩
abbrev main_cst_11 : Ref sig .tc := ⟨.hbm, 117, rfl⟩
abbrev main_v53 : Ref sig .tc := ⟨.hbm, 118, rfl⟩
abbrev main_cst_12 : Ref sig .tc := ⟨.hbm, 119, rfl⟩
abbrev main_v54 : Ref sig .tc := ⟨.hbm, 120, rfl⟩
abbrev main_v55 : Ref sig .tc := ⟨.hbm, 121, rfl⟩
abbrev main_cst_13 : Ref sig .tc := ⟨.hbm, 122, rfl⟩
abbrev main_v56 : Ref sig .tc := ⟨.hbm, 123, rfl⟩
abbrev main_cst_14 : Ref sig .tc := ⟨.hbm, 124, rfl⟩
abbrev main_v57 : Ref sig .tc := ⟨.hbm, 125, rfl⟩
abbrev main_v58 : Ref sig .tc := ⟨.hbm, 126, rfl⟩
abbrev main_cst_15 : Ref sig .tc := ⟨.hbm, 127, rfl⟩
abbrev main_v59 : Ref sig .tc := ⟨.hbm, 128, rfl⟩
abbrev main_v60 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x20x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x20x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1x1x1_S1x1x1x1_0_0_0_0 : ∀ a, (![0, 0, 0, 0] : Fin 4 → Nat) a + S1x1x1x1.size a ≤ S1x1x1x1.size a
  h_S1x1x1x1 : 0 < S1x1x1x1.numel
  inb_S2x20x128x128_S2x20x128x128_0_0_0_0 : ∀ a, (![0, 0, 0, 0] : Fin 4 → Nat) a + S2x20x128x128.size a ≤ S2x20x128x128.size a
  h_S2x20x128x128 : 0 < S2x20x128x128.numel
  natLt_1_32 : 1 < 32
  shapeCasts_S1x1x1x1_S1x1x1x1 : S1x1x1x1.ShapeCasts S1x1x1x1
  reduces_S2x20x128x128_S2x20x128 : S2x20x128x128.Reduces [3] S2x20x128
  shapeCasts_S2x20x128_S2x20x128x1 : S2x20x128.ShapeCasts S2x20x128x1
  reduces_S2x20x128x1_S2x20x1 : S2x20x128x1.Reduces [2] S2x20x1
  shapeCasts_S2x20x1_S2x20x1x1 : S2x20x1.ShapeCasts S2x20x1x1
  reduces_S2x20x1x1_S2x1x1 : S2x20x1x1.Reduces [1] S2x1x1
  shapeCasts_S2x1x1_S2x1x1x1 : S2x1x1.ShapeCasts S2x1x1x1
  reduces_S2x1x1x1_S1x1x1 : S2x1x1x1.Reduces [0] S1x1x1
  shapeCasts_S1x1x1_S1x1x1x1 : S1x1x1.ShapeCasts S1x1x1x1
  shapeCasts_S1x1x1x1_S_ : S1x1x1x1.ShapeCasts S_
  transposes_S128x2x128x128_S128x128x128x2_0_2_3_1 : S128x2x128x128.Transposes [0, 2, 3, 1] S128x128x128x2
  shapeCasts_S128x128x128x2_S128x16384x2 : S128x128x128x2.ShapeCasts S128x16384x2
  bcast_S128x128_S128x128x1_0_1 : S128x128.BroadcastsInDim S128x128x1 (![0, 1] : Fin 2 → Fin S128x128x1.rank)
  bcast_S128x128x1_S128x128x2_0_1_2 : S128x128x1.BroadcastsInDim S128x128x2 (![0, 1, 2] : Fin 3 → Fin S128x128x2.rank)
  bcast_S_S128x128x2 : S_.BroadcastsInDim S128x128x2 (![] : Fin 0 → Fin S128x128x2.rank)
  shapeCasts_S128x128x2_S128x128x2x1 : S128x128x2.ShapeCasts S128x128x2x1
  bcast_S_S128x128x2x1 : S_.BroadcastsInDim S128x128x2x1 (![] : Fin 0 → Fin S128x128x2x1.rank)
  bcast_S1_S1x1x1x1_3 : S1.BroadcastsInDim S1x1x1x1 (![3] : Fin 1 → Fin S1x1x1x1.rank)
  bcast_S1x1x1x1_S128x128x2x1_0_1_2_3 : S1x1x1x1.BroadcastsInDim S128x128x2x1 (![0, 1, 2, 3] : Fin 4 → Fin S128x128x2x1.rank)
  reducesTo_S128x128x2x1_S128x128x2_d3 : S128x128x2x1.ReducesTo [3] S128x128x2
  h_S_ : 0 < S_.numel
  reducesTo_S128x128x2_S_d0_1_2 : S128x128x2.ReducesTo [0, 1, 2] S_
  gather_S128x16384x2_S128x128x2x1_S128x128x2_n_1_02_02_1_3_111_wf : GatherDims.WF S128x16384x2 S128x128x2x1 S128x128x2 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x20x128x128.size a ≤ S128x20x128x128.size a
  hwx0_0 : ∀ i : grid0.Coords, EltTy.bits .f32 = 32 ∨ (Rect.block (s := S128x20x128x128) S2x20x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x20x128x128.size a ≤ S128x20x128x128.size a
  hwx0_1 : ∀ i : grid0.Coords, EltTy.bits .f32 = 32 ∨ (Rect.block (s := S128x20x128x128) S2x20x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1x1.size a ≤ S1x1x1x1.size a
  hwx0_2 : ∀ i : grid0.Coords, EltTy.bits .f32 = 32 ∨ (Rect.block (s := S1x1x1x1) S1x1x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x1x1.size a ≤ S1x1x1x1.size a
  hwx0_3 : ∀ i : grid0.Coords, EltTy.bits .f32 = 32 ∨ (Rect.block (s := S1x1x1x1) S1x1x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x1x1.size a ≤ S1x1x1x1.size a
  hwx0_4 : ∀ i : grid0.Coords, EltTy.bits .f32 = 32 ∨ (Rect.block (s := S1x1x1x1) S1x1x1x1.size (cc0_transform_4 i) (hinb0_4 i)).WholeWords (EltTy.packing .f32)

variable [Facts₀]

def gather_S128x16384x2_S128x128x2x1_S128x128x2_n_1_02_02_1_3_111 : GatherDims S128x16384x2 S128x128x2x1 S128x128x2 where
  offsetDims := []
  collapsedSliceDims := [1]
  operandBatchingDims := [0, 2]
  startIndicesBatchingDims := [0, 2]
  startIndexMap := [1]
  indexVectorDim := 3
  sliceSizes := ![1, 1, 1]
  wf := gather_S128x16384x2_S128x128x2x1_S128x128x2_n_1_02_02_1_3_111_wf

abbrev win0_0 : Pipeline.Window sig grid0 :=
  Pipeline.Window.ofSpec (Memref.whole main_arg0) S2x20x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x20x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x20x128x128 : Shape := ⟨4, ![128, 20, 128, 128]⟩
abbrev S128x2x128x128 : Shape := ⟨4, ![128, 2, 128, 128]⟩
abbrev S128x128x2 : Shape := ⟨3, ![128, 128, 2]⟩
abbrev S128x128 : Shape := ⟨2, ![128, 128]⟩
abbrev S_ : Shape := ⟨0, ![]⟩
abbrev S128x128x128x2 : Shape := ⟨4, ![128, 128, 128, 2]⟩
abbrev S128x16384x2 : Shape := ⟨3, ![128, 16384, 2]⟩
abbrev S128x128x1 : Shape := ⟨3, ![128, 128, 1]⟩
abbrev S128x128x2x1 : Shape := ⟨4, ![128, 128, 2, 1]⟩
abbrev S1 : Shape := ⟨1, ![1]⟩
abbrev S1x1x1x1 : Shape := ⟨4, ![1, 1, 1, 1]⟩

abbrev nBuf : Space → Nat
  | .hbm => 189
  | .vmem => 0
  | .smem => 0
  | _ => 0

abbrev hbmTy0_0 (i : Nat) : BufTy := match i % 128 with
  | 0 => ⟨S128x20x128x128, .f32⟩
  | 1 => ⟨S128x20x128x128, .f32⟩
  | 2 => ⟨S128x2x128x128, .f32⟩
  | 3 => ⟨S128x128x2, .f32⟩
  | 4 => ⟨S128x2x128x128, .f32⟩
  | 5 => ⟨S128x128x2, .f32⟩
  | 6 => ⟨S128x128, .i32⟩
  | 7 => ⟨S128x128, .i32⟩
  | 8 => ⟨S128x20x128x128, .f32⟩
  | 9 => ⟨S128x20x128x128, .f32⟩
  | 10 => ⟨S_, .f32⟩
  | 11 => ⟨S128x20x128x128, .f32⟩
  | 12 => ⟨S128x20x128x128, .f32⟩
  | 13 => ⟨S_, .f32⟩
  | 14 => ⟨S128x20x128x128, .f32⟩
  | 15 => ⟨S128x20x128x128, .f32⟩
  | 16 => ⟨S_, .f32⟩
  | 17 => ⟨S_, .f32⟩
  | 18 => ⟨S_, .f32⟩
  | 19 => ⟨S128x20x128x128, .f32⟩
  | 20 => ⟨S128x20x128x128, .f32⟩
  | 21 => ⟨S_, .f32⟩
  | 22 => ⟨S128x20x128x128, .f32⟩
  | 23 => ⟨S128x20x128x128, .f32⟩
  | 24 => ⟨S_, .f32⟩
  | 25 => ⟨S128x20x128x128, .f32⟩
  | 26 => ⟨S128x20x128x128, .i1⟩
  | 27 => ⟨S128x20x128x128, .f32⟩
  | 28 => ⟨S_, .f32⟩
  | 29 => ⟨S128x20x128x128, .f32⟩
  | 30 => ⟨S128x20x128x128, .i1⟩
  | 31 => ⟨S128x20x128x128, .f32⟩
  | 32 => ⟨S_, .f32⟩
  | 33 => ⟨S128x20x128x128, .f32⟩
  | 34 => ⟨S128x20x128x128, .f32⟩
  | 35 => ⟨S_, .f32⟩
  | 36 => ⟨S128x20x128x128, .f32⟩
  | 37 => ⟨S128x20x128x128, .f32⟩
  | 38 => ⟨S128x20x128x128, .f32⟩
  | 39 => ⟨S128x20x128x128, .f32⟩
  | 40 => ⟨S128x20x128x128, .f32⟩
  | 41 => ⟨S_, .f32⟩
  | 42 => ⟨S128x20x128x128, .f32⟩
  | 43 => ⟨S128x20x128x128, .f32⟩
  | 44 => ⟨S_, .f32⟩
  | 45 => ⟨S128x20x128x128, .f32⟩
  | 46 => ⟨S128x20x128x128, .f32⟩
  | 47 => ⟨S128x20x128x128, .f32⟩
  | 48 => ⟨S128x20x128x128, .f32⟩
  | 49 => ⟨S128x20x128x128, .f32⟩
  | 50 => ⟨S128x20x128x128, .f32⟩
  | 51 => ⟨S_, .f32⟩
  | 52 => ⟨S128x20x128x128, .f32⟩
  | 53 => ⟨S128x20x128x128, .f32⟩
  | 54 => ⟨S_, .f32⟩
  | 55 => ⟨S128x20x128x128, .f32⟩
  | 56 => ⟨S128x20x128x128, .f32⟩
  | 57 => ⟨S128x20x128x128, .f32⟩
  | 58 => ⟨S128x20x128x128, .f32⟩
  | 59 => ⟨S128x20x128x128, .f32⟩
  | 60 => ⟨S128x20x128x128, .f32⟩
  | 61 => ⟨S128x20x128x128, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S128x20x128x128, .f32⟩
  | 69 => ⟨S128x20x128x128, .i1⟩
  | 70 => ⟨S128x20x128x128, .f32⟩
  | 71 => ⟨S_, .f32⟩
  | 72 => ⟨S_, .f32⟩
  | 73 => ⟨S_, .f32⟩
  | 74 => ⟨S_, .f32⟩
  | 75 => ⟨S_, .f32⟩
  | 76 => ⟨S_, .i1⟩
  | 77 => ⟨S_, .f32⟩
  | 78 => ⟨S_, .f32⟩
  | 79 => ⟨S128x128x128x2, .f32⟩
  | 80 => ⟨S128x16384x2, .f32⟩
  | 81 => ⟨S128x128x1, .i32⟩
  | 82 => ⟨S128x128x2, .i32⟩
  | 83 => ⟨S_, .i32⟩
  | 84 => ⟨S128x128x2, .i32⟩
  | 85 => ⟨S128x128x2, .i1⟩
  | 86 => ⟨S_, .i32⟩
  | 87 => ⟨S128x128x2, .i32⟩
  | 88 => ⟨S128x128x2, .i32⟩
  | 89 => ⟨S128x128x2, .i32⟩
  | 90 => ⟨S128x128x2x1, .i32⟩
  | 91 => ⟨S1, .i32⟩
  | 92 => ⟨S_, .i32⟩
  | 93 => ⟨S128x128x2x1, .i32⟩
  | 94 => ⟨S128x128x2x1, .i1⟩
  | 95 => ⟨S1x1x1x1, .i32⟩
  | 96 => ⟨S128x128x2x1, .i32⟩
  | 97 => ⟨S128x128x2x1, .i1⟩
  | 98 => ⟨S128x128x2x1, .i1⟩
  | 99 => ⟨S_, .i1⟩
  | 100 => ⟨S128x128x2, .i1⟩
  | 101 => ⟨S128x128x2, .f32⟩
  | 102 => ⟨S_, .f32⟩
  | 103 => ⟨S128x128x2, .f32⟩
  | 104 => ⟨S128x128x2, .f32⟩
  | 105 => ⟨S128x128x1, .i32⟩
  | 106 => ⟨S128x128x1, .f32⟩
  | 107 => ⟨S128x128x2, .f32⟩
  | 108 => ⟨S128x128x2, .f32⟩
  | 109 => ⟨S128x128x2, .f32⟩
  | 110 => ⟨S128x128x2, .f32⟩
  | 111 => ⟨S128x128x2, .f32⟩
  | 112 => ⟨S_, .f32⟩
  | 113 => ⟨S128x128x2, .f32⟩
  | 114 => ⟨S128x128x2, .i1⟩
  | 115 => ⟨S_, .f32⟩
  | 116 => ⟨S128x128x2, .f32⟩
  | 117 => ⟨S128x128x2, .f32⟩
  | 118 => ⟨S128x128x2, .f32⟩
  | 119 => ⟨S_, .f32⟩
  | 120 => ⟨S128x128x2, .f32⟩
  | 121 => ⟨S128x128x2, .f32⟩
  | 122 => ⟨S128x128x2, .f32⟩
  | 123 => ⟨S_, .f32⟩
  | 124 => ⟨S_, .f32⟩
  | 125 => ⟨S_, .f32⟩
  | 126 => ⟨S_, .f32⟩
  | 127 => ⟨S_, .f32⟩
  | _ => ⟨S128x20x128x128, .f32⟩

abbrev hbmTy0_1 (i : Nat) : BufTy := match i % 128 with
  | 0 => ⟨S_, .f32⟩
  | 1 => ⟨S_, .f32⟩
  | 2 => ⟨S128x128x128x2, .f32⟩
  | 3 => ⟨S128x16384x2, .f32⟩
  | 4 => ⟨S128x128x1, .i32⟩
  | 5 => ⟨S128x128x2, .i32⟩
  | 6 => ⟨S_, .i32⟩
  | 7 => ⟨S128x128x2, .i32⟩
  | 8 => ⟨S128x128x2, .i1⟩
  | 9 => ⟨S_, .i32⟩
  | 10 => ⟨S128x128x2, .i32⟩
  | 11 => ⟨S128x128x2, .i32⟩
  | 12 => ⟨S128x128x2, .i32⟩
  | 13 => ⟨S128x128x2x1, .i32⟩
  | 14 => ⟨S1, .i32⟩
  | 15 => ⟨S_, .i32⟩
  | 16 => ⟨S128x128x2x1, .i32⟩
  | 17 => ⟨S128x128x2x1, .i1⟩
  | 18 => ⟨S1x1x1x1, .i32⟩
  | 19 => ⟨S128x128x2x1, .i32⟩
  | 20 => ⟨S128x128x2x1, .i1⟩
  | 21 => ⟨S128x128x2x1, .i1⟩
  | 22 => ⟨S_, .i1⟩
  | 23 => ⟨S128x128x2, .i1⟩
  | 24 => ⟨S128x128x2, .f32⟩
  | 25 => ⟨S_, .f32⟩
  | 26 => ⟨S128x128x2, .f32⟩
  | 27 => ⟨S128x128x2, .f32⟩
  | 28 => ⟨S128x128x1, .i32⟩
  | 29 => ⟨S128x128x1, .f32⟩
  | 30 => ⟨S128x128x2, .f32⟩
  | 31 => ⟨S128x128x2, .f32⟩
  | 32 => ⟨S128x128x2, .f32⟩
  | 33 => ⟨S128x128x2, .f32⟩
  | 34 => ⟨S128x128x2, .f32⟩
  | 35 => ⟨S_, .f32⟩
  | 36 => ⟨S128x128x2, .f32⟩
  | 37 => ⟨S128x128x2, .i1⟩
  | 38 => ⟨S_, .f32⟩
  | 39 => ⟨S128x128x2, .f32⟩
  | 40 => ⟨S128x128x2, .f32⟩
  | 41 => ⟨S128x128x2, .f32⟩
  | 42 => ⟨S_, .f32⟩
  | 43 => ⟨S128x128x2, .f32⟩
  | 44 => ⟨S128x128x2, .f32⟩
  | 45 => ⟨S128x128x2, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | _ => ⟨S128x20x128x128, .f32⟩

abbrev hbmTy (i : Nat) : BufTy := match i / 128 with
  | 0 => hbmTy0_0 i
  | 1 => hbmTy0_1 i
  | _ => ⟨S128x20x128x128, .f32⟩

abbrev bufTy : (tb : Table) → Fin (tcTables nBuf tb) → BufTy
  | .hbm, ⟨i, _⟩ => hbmTy i
  | _, _ => ⟨S128x20x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_cst_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_11 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_cst : Ref sig .tc := ⟨.hbm, 102, rfl⟩
abbrev main_call2_v14 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_17 : Ref sig .tc := ⟨.hbm, 112, rfl⟩
abbrev main_v60 : Ref sig .tc := ⟨.hbm, 113, rfl⟩
abbrev main_v61 : Ref sig .tc := ⟨.hbm, 114, rfl⟩
abbrev main_cst_18 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_19 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_20 : Ref sig .tc := ⟨.hbm, 123, rfl⟩
abbrev main_v68 : Ref sig .tc := ⟨.hbm, 124, rfl⟩
abbrev main_cst_21 : Ref sig .tc := ⟨.hbm, 125, rfl⟩
abbrev main_v69 : Ref sig .tc := ⟨.hbm, 126, rfl⟩
abbrev main_cst_22 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_call4_c : Ref sig .tc := ⟨.hbm, 134, rfl⟩
abbrev main_call4_v0 : Ref sig .tc := ⟨.hbm, 135, rfl⟩
abbrev main_call4_v1 : Ref sig .tc := ⟨.hbm, 136, rfl⟩
abbrev main_call4_c_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_c_1 : Ref sig .tc := ⟨.hbm, 142, rfl⟩
abbrev main_call4_c_2 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_c_3 : Ref sig .tc := ⟨.hbm, 150, rfl⟩
abbrev main_call4_v12 : Ref sig .tc := ⟨.hbm, 151, rfl⟩
abbrev main_call4_v13 : Ref sig .tc := ⟨.hbm, 152, rfl⟩
abbrev main_call4_cst : Ref sig .tc := ⟨.hbm, 153, rfl⟩
abbrev main_call4_v14 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_23 : Ref sig .tc := ⟨.hbm, 163, rfl⟩
abbrev main_v84 : Ref sig .tc := ⟨.hbm, 164, rfl⟩
abbrev main_v85 : Ref sig .tc := ⟨.hbm, 165, rfl⟩
abbrev main_cst_24 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_25 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_26 : Ref sig .tc := ⟨.hbm, 174, rfl⟩
abbrev main_v92 : Ref sig .tc := ⟨.hbm, 175, rfl⟩
abbrev main_cst_27 : Ref sig .tc := ⟨.hbm, 176, rfl⟩
abbrev main_v93 : Ref sig .tc := ⟨.hbm, 177, rfl⟩
abbrev main_cst_28 : Ref sig .tc := ⟨.hbm, 178, rfl⟩
abbrev main_v94 : Ref sig .tc := ⟨.hbm, 179, rfl⟩
abbrev main_v95 : Ref sig .tc := ⟨.hbm, 180, rfl⟩
abbrev main_cst_29 : Ref sig .tc := ⟨.hbm, 181, rfl⟩
abbrev main_v96 : Ref sig .tc := ⟨.hbm, 182, rfl⟩
abbrev main_cst_30 : Ref sig .tc := ⟨.hbm, 183, rfl⟩
abbrev main_v97 : Ref sig .tc := ⟨.hbm, 184, rfl⟩
abbrev main_v98 : Ref sig .tc := ⟨.hbm, 185, rfl⟩
abbrev main_cst_31 : Ref sig .tc := ⟨.hbm, 186, rfl⟩
abbrev main_v99 : Ref sig .tc := ⟨.hbm, 187, rfl⟩
abbrev main_v100 : Ref sig .tc := ⟨.hbm, 188, rfl⟩

abbrev nD : Nat := 1
abbrev τ : Topo := Topo.v7x

variable {F : FTy → Type} [FloatOps F]

class Facts₀ : Prop where
  bcast_S_S128x20x128x128 : S_.BroadcastsInDim S128x20x128x128 (![] : Fin 0 → Fin S128x20x128x128.rank)
  reducesTo_S128x20x128x128_S_d0_1_2_3 : S128x20x128x128.ReducesTo [0, 1, 2, 3] S_
  h_S_ : 0 < S_.numel
  transposes_S128x2x128x128_S128x128x128x2_0_2_3_1 : S128x2x128x128.Transposes [0, 2, 3, 1] S128x128x128x2
  shapeCasts_S128x128x128x2_S128x16384x2 : S128x128x128x2.ShapeCasts S128x16384x2
  bcast_S128x128_S128x128x1_0_1 : S128x128.BroadcastsInDim S128x128x1 (![0, 1] : Fin 2 → Fin S128x128x1.rank)
  bcast_S128x128x1_S128x128x2_0_1_2 : S128x128x1.BroadcastsInDim S128x128x2 (![0, 1, 2] : Fin 3 → Fin S128x128x2.rank)
  bcast_S_S128x128x2 : S_.BroadcastsInDim S128x128x2 (![] : Fin 0 → Fin S128x128x2.rank)
  shapeCasts_S128x128x2_S128x128x2x1 : S128x128x2.ShapeCasts S128x128x2x1
  bcast_S_S128x128x2x1 : S_.BroadcastsInDim S128x128x2x1 (![] : Fin 0 → Fin S128x128x2x1.rank)
  bcast_S1_S1x1x1x1_3 : S1.BroadcastsInDim S1x1x1x1 (![3] : Fin 1 → Fin S1x1x1x1.rank)
  bcast_S1x1x1x1_S128x128x2x1_0_1_2_3 : S1x1x1x1.BroadcastsInDim S128x128x2x1 (![0, 1, 2, 3] : Fin 4 → Fin S128x128x2x1.rank)
  reducesTo_S128x128x2x1_S128x128x2_d3 : S128x128x2x1.ReducesTo [3] S128x128x2
  reducesTo_S128x128x2_S_d0_1_2 : S128x128x2.ReducesTo [0, 1, 2] S_
  gather_S128x16384x2_S128x128x2x1_S128x128x2_n_1_02_02_1_3_111_wf : GatherDims.WF S128x16384x2 S128x128x2x1 S128x128x2 [] [1] [0, 2] [1] [0, 2] 3 ![1, 1, 1]

variable [Facts₀]

def gather_S128x16384x2_S128x128x2x1_S128x128x2_n_1_02_02_1_3_111 : GatherDims S128x16384x2 S128x128x2x1 S128x128x2 where
  offsetDims := []
  collapsedSliceDims := [1]
  operandBatchingDims := [0, 2]
  startIndicesBatchingDims := [0, 2]
  startIndexMap := [1]
  indexVectorDim := 3
  sliceSizes := ![1, 1, 1]
  wf := gather_S128x16384x2_S128x128x2x1_S128x128x2_n_1_02_02_1_3_111_wf

class Facts : Prop extends Facts₀ where

variable [Facts]
-- ==== Proof.BitsRuns.lean ====
/-
  The kernel's @main, as printed, is one pipelined region over 64 grid points followed by 119 host operations in eleven
  stretches.  This module fixes what every later module is stated over: the buffers as the region finds them (the
  region is @main's first line, so they are the launch contents), that the later lines write none of the eight
  argument arrays and none of the three arrays the region produces (each line writes only its own result buffer,
  and those 119 buffers are listed once), @main as "the region, then the later lines", the block of each input array
  at a grid point, the condition of the body's one branch decided over the grid (it holds at the first point only),
  and how the frame claim's post is read off a run whose post names every array.
-/
import proofs.«165979_j56504589746323_1_alg».proof.Proof.Gen.Kernel.Launch
import proofs.«165979_j56504589746323_1_alg».proof.Proof.Gen.Kernel.Skeleton
import proofs.«165979_j56504589746323_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The eleven stretches of host operations that follow the region, in order. -/
abbrev tailOps : List (List (HloOp τ sig (Elt F))) := [hostOps1, hostOps1_1, hostOps1_2, hostOps1_3, hostOps1_4, hostOps1_5, hostOps1_6, hostOps1_7, hostOps1_8, hostOps1_9, hostOps1_10]

/-- The result buffer of each of the 119 later lines, in program order. -/
abbrev tailW : List (Ref sig .tc) :=
  [main_v1, main_v2, main_v3, main_cst, main_v4, main_cst_0, main_v5, main_v6, main_v7, main_v8, main_v9, main_v10, main_v11, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v12, main_v13, main_v14, main_v15, main_v16, main_v17, main_v18, main_v19, main_cst_1, main_v20, main_v21, main_cst_2, main_v22, main_v23, main_v24, main_cst_3, main_v25, main_v26, main_v27, main_cst_4, main_v28, main_cst_5, main_v29, main_cst_6, main_v30, main_v31, main_v32, main_v33, main_v34, main_v35, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v36, main_v37, main_v38, main_v39, main_v40, main_v41, main_v42, main_v43, main_cst_7, main_v44, main_v45, main_cst_8, main_v46, main_v47, main_v48, main_cst_9, main_v49, main_v50, main_v51, main_cst_10, main_v52, main_cst_11, main_v53, main_cst_12, main_v54, main_v55, main_cst_13, main_v56, main_cst_14, main_v57, main_v58, main_cst_15, main_v59, main_v60]

/-- The same buffers as device buffers. -/
abbrev tailWF : Finset (DevRef τ sig) := (tailW.map (Proc.devRef (τ := τ) .tc)).toFinset

/-- An operation whose only written buffer is `y`, one of the listed buffers, writes within the list. -/
theorem writes_sub_of_eq {op : HloOp τ sig (Elt F)} (y : Ref sig .tc)
    (h : op.writes = {Proc.devRef .tc y}) (hy : y ∈ tailW) : op.writes ⊆ tailWF := by
  rw [h, Finset.singleton_subset_iff, List.mem_toFinset]
  exact List.mem_map_of_mem hy

theorem hostOps1_writes : (hostOps1 : List (HloOp τ sig (Elt F))).Forall fun op => op.writes ⊆ tailWF :=
  ⟨writes_sub_of_eq main_v1 rfl (by decide),
    writes_sub_of_eq main_v2 rfl (by decide),
    writes_sub_of_eq main_v3 rfl (by decide),
    writes_sub_of_eq main_cst rfl (by decide),
    writes_sub_of_eq main_v4 rfl (by decide),
    writes_sub_of_eq main_cst_0 rfl (by decide),
    writes_sub_of_eq main_v5 rfl (by decide)⟩

theorem hostOps1_1_writes : (hostOps1_1 : List (HloOp τ sig (Elt F))).Forall fun op => op.writes ⊆ tailWF :=
  writes_sub_of_eq main_v6 rfl (by decide)

theorem hostOps1_2_writes : (hostOps1_2 : List (HloOp τ sig (Elt F))).Forall fun op => op.writes ⊆ tailWF :=
  ⟨writes_sub_of_eq main_v7 rfl (by decide),
    writes_sub_of_eq main_v8 rfl (by decide),
    writes_sub_of_eq main_v9 rfl (by decide),
    writes_sub_of_eq main_v10 rfl (by decide),
    writes_sub_of_eq main_v11 rfl (by decide)⟩

theorem hostOps1_3_writes : (hostOps1_3 : List (HloOp τ sig (Elt F))).Forall fun op => op.writes ⊆ tailWF :=
  ⟨writes_sub_of_eq main_call1_c rfl (by decide),
    writes_sub_of_eq main_call1_v0 rfl (by decide),
    writes_sub_of_eq main_call1_v1 rfl (by decide),
    writes_sub_of_eq main_call1_c_0 rfl (by decide),
    writes_sub_of_eq main_call1_v2 rfl (by decide),
    writes_sub_of_eq main_call1_v3 rfl (by decide),
    writes_sub_of_eq main_call1_v4 rfl (by decide),
    writes_sub_of_eq main_call1_v5 rfl (by decide),
    writes_sub_of_eq main_call1_c_1 rfl (by decide),
    writes_sub_of_eq main_call1_c_2 rfl (by decide),
    writes_sub_of_eq main_call1_v6 rfl (by decide),
    writes_sub_of_eq main_call1_v7 rfl (by decide),
    writes_sub_of_eq main_call1_v8 rfl (by decide),
    writes_sub_of_eq main_call1_v9 rfl (by decide),
    writes_sub_of_eq main_call1_v10 rfl (by decide),
    writes_sub_of_eq main_call1_v11 rfl (by decide),
    writes_sub_of_eq main_call1_c_3 rfl (by decide),
    writes_sub_of_eq main_call1_v12 rfl (by decide),
    writes_sub_of_eq main_call1_v13 rfl (by decide),
    writes_sub_of_eq main_call1_cst rfl (by decide),
    writes_sub_of_eq main_call1_v14 rfl (by decide),
    writes_sub_of_eq main_v12 rfl (by decide)⟩

theorem hostOps1_4_writes : (hostOps1_4 : List (HloOp τ sig (Elt F))).Forall fun op => op.writes ⊆ tailWF :=
  ⟨writes_sub_of_eq main_v13 rfl (by decide),
    writes_sub_of_eq main_v14 rfl (by decide),
    writes_sub_of_eq main_v15 rfl (by decide),
    writes_sub_of_eq main_v16 rfl (by decide),
    writes_sub_of_eq main_v17 rfl (by decide),
    writes_sub_of_eq main_v18 rfl (by decide),
    writes_sub_of_eq main_v19 rfl (by decide),
    writes_sub_of_eq main_cst_1 rfl (by decide),
    writes_sub_of_eq main_v20 rfl (by decide),
    writes_sub_of_eq main_v21 rfl (by decide),
    writes_sub_of_eq main_cst_2 rfl (by decide),
    writes_sub_of_eq main_v22 rfl (by decide),
    writes_sub_of_eq main_v23 rfl (by decide),
    writes_sub_of_eq main_v24 rfl (by decide),
    writes_sub_of_eq main_cst_3 rfl (by decide),
    writes_sub_of_eq main_v25 rfl (by decide),
    writes_sub_of_eq main_v26 rfl (by decide)⟩

theorem hostOps1_5_writes : (hostOps1_5 : List (HloOp τ sig (Elt F))).Forall fun op => op.writes ⊆ tailWF :=
  writes_sub_of_eq main_v27 rfl (by decide)

theorem hostOps1_6_writes : (hostOps1_6 : List (HloOp τ sig (Elt F))).Forall fun op => op.writes ⊆ tailWF :=
  ⟨writes_sub_of_eq main_cst_4 rfl (by decide),
    writes_sub_of_eq main_v28 rfl (by decide),
    writes_sub_of_eq main_cst_5 rfl (by decide),
    writes_sub_of_eq main_v29 rfl (by decide),
    writes_sub_of_eq main_cst_6 rfl (by decide),
    writes_sub_of_eq main_v30 rfl (by decide),
    writes_sub_of_eq main_v31 rfl (by decide),
    writes_sub_of_eq main_v32 rfl (by decide),
    writes_sub_of_eq main_v33 rfl (by decide),
    writes_sub_of_eq main_v34 rfl (by decide),
    writes_sub_of_eq main_v35 rfl (by decide)⟩

theorem hostOps1_7_writes : (hostOps1_7 : List (HloOp τ sig (Elt F))).Forall fun op => op.writes ⊆ tailWF :=
  ⟨writes_sub_of_eq main_call3_c rfl (by decide),
    writes_sub_of_eq main_call3_v0 rfl (by decide),
    writes_sub_of_eq main_call3_v1 rfl (by decide),
    writes_sub_of_eq main_call3_c_0 rfl (by decide),
    writes_sub_of_eq main_call3_v2 rfl (by decide),
    writes_sub_of_eq main_call3_v3 rfl (by decide),
    writes_sub_of_eq main_call3_v4 rfl (by decide),
    writes_sub_of_eq main_call3_v5 rfl (by decide),
    writes_sub_of_eq main_call3_c_1 rfl (by decide),
    writes_sub_of_eq main_call3_c_2 rfl (by decide),
    writes_sub_of_eq main_call3_v6 rfl (by decide),
    writes_sub_of_eq main_call3_v7 rfl (by decide),
    writes_sub_of_eq main_call3_v8 rfl (by decide),
    writes_sub_of_eq main_call3_v9 rfl (by decide),
    writes_sub_of_eq main_call3_v10 rfl (by decide),
    writes_sub_of_eq main_call3_v11 rfl (by decide),
    writes_sub_of_eq main_call3_c_3 rfl (by decide),
    writes_sub_of_eq main_call3_v12 rfl (by decide),
    writes_sub_of_eq main_call3_v13 rfl (by decide),
    writes_sub_of_eq main_call3_cst rfl (by decide),
    writes_sub_of_eq main_call3_v14 rfl (by decide),
    writes_sub_of_eq main_v36 rfl (by decide)⟩

theorem hostOps1_8_writes : (hostOps1_8 : List (HloOp τ sig (Elt F))).Forall fun op => op.writes ⊆ tailWF :=
  ⟨writes_sub_of_eq main_v37 rfl (by decide),
    writes_sub_of_eq main_v38 rfl (by decide),
    writes_sub_of_eq main_v39 rfl (by decide),
    writes_sub_of_eq main_v40 rfl (by decide),
    writes_sub_of_eq main_v41 rfl (by decide),
    writes_sub_of_eq main_v42 rfl (by decide),
    writes_sub_of_eq main_v43 rfl (by decide),
    writes_sub_of_eq main_cst_7 rfl (by decide),
    writes_sub_of_eq main_v44 rfl (by decide),
    writes_sub_of_eq main_v45 rfl (by decide),
    writes_sub_of_eq main_cst_8 rfl (by decide),
    writes_sub_of_eq main_v46 rfl (by decide),
    writes_sub_of_eq main_v47 rfl (by decide),
    writes_sub_of_eq main_v48 rfl (by decide),
    writes_sub_of_eq main_cst_9 rfl (by decide),
    writes_sub_of_eq main_v49 rfl (by decide),
    writes_sub_of_eq main_v50 rfl (by decide)⟩

theorem hostOps1_9_writes : (hostOps1_9 : List (HloOp τ sig (Elt F))).Forall fun op => op.writes ⊆ tailWF :=
  writes_sub_of_eq main_v51 rfl (by decide)

theorem hostOps1_10_writes : (hostOps1_10 : List (HloOp τ sig (Elt F))).Forall fun op => op.writes ⊆ tailWF :=
  ⟨writes_sub_of_eq main_cst_10 rfl (by decide),
    writes_sub_of_eq main_v52 rfl (by decide),
    writes_sub_of_eq main_cst_11 rfl (by decide),
    writes_sub_of_eq main_v53 rfl (by decide),
    writes_sub_of_eq main_cst_12 rfl (by decide),
    writes_sub_of_eq main_v54 rfl (by decide),
    writes_sub_of_eq main_v55 rfl (by decide),
    writes_sub_of_eq main_cst_13 rfl (by decide),
    writes_sub_of_eq main_v56 rfl (by decide),
    writes_sub_of_eq main_cst_14 rfl (by decide),
    writes_sub_of_eq main_v57 rfl (by decide),
    writes_sub_of_eq main_v58 rfl (by decide),
    writes_sub_of_eq main_cst_15 rfl (by decide),
    writes_sub_of_eq main_v59 rfl (by decide),
    writes_sub_of_eq main_v60 rfl (by decide)⟩

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- Every later line writes within the listed buffers. -/
theorem tail_writes : (tailOps (F := F)).flatten.Forall fun op => op.writes ⊆ tailWF := by
  rw [List.forall_iff_forall_mem]
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop
  · exact (List.forall_iff_forall_mem.mp hostOps1_6_writes) op hop
  · exact (List.forall_iff_forall_mem.mp hostOps1_7_writes) op hop
  · exact (List.forall_iff_forall_mem.mp hostOps1_8_writes) op hop
  · exact (List.forall_iff_forall_mem.mp hostOps1_9_writes) op hop
  · exact (List.forall_iff_forall_mem.mp hostOps1_10_writes) op hop

/-- The eight argument arrays and the three arrays the region produces are not among them. -/
theorem protected_not_written : ∀ r ∈ ([main_arg0, main_arg1, main_arg2, main_arg3, main_arg4, main_arg5, main_arg6, main_arg7, main_v0_0, main_v0_1, main_v0_2] : List (Ref sig .tc)), r ∉ tailW := by
  decide

/-- Core `c`'s TensorCore buffer contents when the region is entered, as a valuation: the launch contents (no host
    operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10]) :=
  Pipeline.hmain_around cfgs 0 defs₀ 𝒱₀ m main [] tailOps (by simp only [List.Forall])
    (by simp only [List.Forall]) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- A reference outside the listed buffers is written by no later line. -/
theorem tail_keeps_ref (r : Ref sig .tc) (hr : r ∉ tailW) :
    ∀ ops ∈ (tailOps : List (List (HloOp τ sig (Elt F)))), ∀ op ∈ ops, Proc.devRef (τ := τ) .tc r ∉ op.writes := by
  intro ops hops op hop hw
  have hsub := (List.forall_iff_forall_mem.mp (tail_writes (F := F))) op (List.mem_flatten.mpr ⟨ops, hops, hop⟩) hw
  obtain ⟨y, hy, he⟩ := List.mem_map.mp (List.mem_toFinset.mp hsub)
  exact hr (Proc.devRef_injective _ he ▸ hy)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  refine tail_keeps_ref (F := F) _ ?_ ops hops op hop
  fin_cases w
  · exact protected_not_written main_arg0 (by decide)
  · exact protected_not_written main_arg1 (by decide)
  · exact protected_not_written main_v0_0 (by decide)
  · exact protected_not_written main_v0_1 (by decide)
  · exact protected_not_written main_v0_2 (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What a later line leaves of a buffer it does not write -/

/-- After the later lines, a buffer that bypasses the region and that no later line writes holds its launch contents. -/
theorem afterTail_kept (dats : (p : Fin 1) → (c : Dev nD) → Dat τ (Elt F) Unit ℕ (UR sig nD τ) ℕ (cfgs p) c)
    (c : Dev nD) (b : Ref sig .tc) (hb : b ∉ tailW) (harr : ∀ w, Pipeline.arrRef spec0 w ≠ b) :
    Pipeline.afterTail₀ cfgs dats 0 (V0 m) tailOps c b = m ((c : Thread nD τ).loc b) := by
  unfold Pipeline.afterTail₀
  rw [StableHlo.after_of_writes_sub _ _ (tail_writes (F := F)) hb]
  exact Pipeline.withArrays_of_ne _ c (V0 m c) _ b harr

/-! ## The frame claim's post from the frame run's -/

/-- The frame claim's post, at any `F`, from a run whose post names every array of the pipeline and every bypassing
    buffer: a staged input is unchanged by the pipeline, a bypassing argument is written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (afterTail_kept m dats c main_arg2 (protected_not_written _ (by decide)) (by decide)),
      ((h c).2 main_arg3 (by decide : main_arg3 ∈ Pipeline.restRefs sig spec0)).trans (afterTail_kept m dats c main_arg3 (protected_not_written _ (by decide)) (by decide)),
      ((h c).2 main_arg4 (by decide : main_arg4 ∈ Pipeline.restRefs sig spec0)).trans (afterTail_kept m dats c main_arg4 (protected_not_written _ (by decide)) (by decide)),
      ((h c).2 main_arg5 (by decide : main_arg5 ∈ Pipeline.restRefs sig spec0)).trans (afterTail_kept m dats c main_arg5 (protected_not_written _ (by decide)) (by decide)),
      ((h c).2 main_arg6 (by decide : main_arg6 ∈ Pipeline.restRefs sig spec0)).trans (afterTail_kept m dats c main_arg6 (protected_not_written _ (by decide)) (by decide)),
      ((h c).2 main_arg7 (by decide : main_arg7 ∈ Pipeline.restRefs sig spec0)).trans (afterTail_kept m dats c main_arg7 (protected_not_written _ (by decide)) (by decide))⟩) h

/-! ## The body's branch condition -/

/-- The condition of the body's one branch, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs -/

/-- One staging buffer of each output window, through which its contents are stated. -/
abbrev VO0_2 : View sig .tc .vmem S1x1x1x1 .f32 := (Memref.whole cc0_stg2_0 : Memref sig .tc .vmem S1x1x1x1 .f32).view
abbrev VO0_3 : View sig .tc .vmem S1x1x1x1 .f32 := (Memref.whole cc0_stg3_0 : Memref sig .tc .vmem S1x1x1x1 .f32).view
abbrev VO0_4 : View sig .tc .vmem S1x1x1x1 .f32 := (Memref.whole cc0_stg4_0 : Memref sig .tc .vmem S1x1x1x1 .f32).view
/-- Each window's current staging memref at point `t`, as the pipeline passes it, and its wholeness. -/
abbrev ms0_0 (t : Fin cfg0.N) : Memref sig .tc .vmem S2x20x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x20x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x1 .f32 := win0_4.stage (cfg0.slots t 4)
abbrev hs0_4 (t : Fin cfg0.N) : (ms0_4 t).IsWhole := hstage0_4 ((cfg0.slots t 4).cast nbuf0_4)

end Cert.Kernel.Hand

end
-- ==== Proof.BitsRunFirst.lean ====
/-
  The kernel body at the grid's first point.  There the branch is taken: each of the three one-element accumulators is
  first stored a zero, and then the body proceeds as at every point — it loads the two input blocks, loads each
  accumulator back, and stores accumulator + this block's contribution.  The run below holds the two input
  buffers at given contents and the three accumulator buffers at anything, and ends with the inputs as they were and
  each accumulator buffer overwritten by a list of stored pieces, which the symbolic execution finds.
-/
import proofs.«165979_j56504589746323_1_alg».proof.Proof.BitsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is taken (the first grid point): the pieces each accumulator's buffer ends with, and the
    proof that the body runs to any continuation that takes the inputs back unchanged and the accumulators so written. -/
noncomputable def kernelRun0_A (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) :
    Σ' (L2 : List (View.Piece (Elt F) S1x1x1x1 .f32)) (L3 : List (View.Piece (Elt F) S1x1x1x1 .f32)), { L4 : List (View.Piece (Elt F) S1x1x1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__hm_loss_kernel i arg1 harg1 arg2 harg2 arg3 harg3 arg4 harg4 arg5 harg5) K } := by
  refine ⟨?_, ?_, ?_, fun E K => ?run⟩
  case run =>
    simp only [cc0__hm_loss_kernel_eq_skeleton]; unfold cc0__hm_loss_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.Kernel.Hand

end
-- ==== Proof.BitsRunLater.lean ====
/-
  The kernel body at every grid point after the first.  There the branch is not taken: the body loads the two input
  blocks, loads each of the three one-element accumulators — which hold what the point before left, since their
  buffers are written back only after the last point — and stores accumulator + this block's contribution.  The run
  below holds the inputs at given contents and the accumulators at given running contents.
-/
import proofs.«165979_j56504589746323_1_alg».proof.Proof.BitsRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is not taken (every later grid point): the pieces each accumulator's buffer ends with,
    over the running contents it is handed, and the proof that the body runs. -/
noncomputable def kernelRun0_B (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) :
    Σ' (L2 : List (View.Piece (Elt F) S1x1x1x1 .f32)) (L3 : List (View.Piece (Elt F) S1x1x1x1 .f32)), { L4 : List (View.Piece (Elt F) S1x1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__hm_loss_kernel i arg1 harg1 arg2 harg2 arg3 harg3 arg4 harg4 arg5 harg5) K } := by
  refine ⟨?_, ?_, ?_, fun E K => ?run⟩
  case run =>
    simp only [cc0__hm_loss_kernel_eq_skeleton]; unfold cc0__hm_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.Kernel.Hand

end
-- ==== Proof.BitsFrame.lean ====
/-
  The frame of the kernel's program as printed, and what its three accumulators hold after every grid point.
  The three output windows are one-element arrays with a constant index map: their staging buffers are written back
  after the last of the 64 points only, so between points each holds what the point before left.  The first point
  overwrites each accumulator (zero, then zero + its block's contribution); every later point reads the running value
  and adds its block's contribution.  `outsAt0` is that recursion; the proof data names it as what the body leaves;
  the body obligation is the first-point run or the later-point run according to the point; and the launch theorem for
  a region followed by host lines gives the run of the whole program, with every array of the pipeline named.
-/
import proofs.«165979_j56504589746323_1_alg».proof.Proof.BitsRunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the stores into accumulator 0 cover its one element. -/
theorem cover0_A_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) (y : S1x1x1x1.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S1x1x1x1.size (by sl_kernel_rfl) y

/-- What the first point leaves in accumulator 0's staging buffer: its stored pieces read back. -/
def out0_A_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) : Vec F S1x1x1x1 .f32 :=
  VO0_2.read (Elt F) (VO0_2.writes (Elt F) VO0_2.junk (kernelRun0_A c i arg1 harg1 arg2 harg2 arg3 harg3 arg4 harg4 arg5 harg5 hc0 x0 x1).1)

/-- At the first point the stores into accumulator 1 cover its one element. -/
theorem cover0_A_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) (y : S1x1x1x1.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1x1x1x1.size (by sl_kernel_rfl) y

/-- What the first point leaves in accumulator 1's staging buffer: its stored pieces read back. -/
def out0_A_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) : Vec F S1x1x1x1 .f32 :=
  VO0_3.read (Elt F) (VO0_3.writes (Elt F) VO0_3.junk (kernelRun0_A c i arg1 harg1 arg2 harg2 arg3 harg3 arg4 harg4 arg5 harg5 hc0 x0 x1).2.1)

/-- At the first point the stores into accumulator 2 cover its one element. -/
theorem cover0_A_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) (y : S1x1x1x1.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S1x1x1x1.size (by sl_kernel_rfl) y

/-- What the first point leaves in accumulator 2's staging buffer: its stored pieces read back. -/
def out0_A_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) : Vec F S1x1x1x1 .f32 :=
  VO0_4.read (Elt F) (VO0_4.writes (Elt F) VO0_4.junk (kernelRun0_A c i arg1 harg1 arg2 harg2 arg3 harg3 arg4 harg4 arg5 harg5 hc0 x0 x1).2.2.1)

/-- At a later point the stores into accumulator 0 cover its one element. -/
theorem cover0_B_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) (y : S1x1x1x1.Idx) :
    ∃ pc ∈ (kernelRun0_B c i arg1 harg1 arg2 harg2 arg3 harg3 arg4 harg4 arg5 harg5 hc0 x0 x1 xo2 xo3 xo4).1, y ∈ pc.1.set :=
  View.cover_of_tiledL (kernelRun0_B c i arg1 harg1 arg2 harg2 arg3 harg3 arg4 harg4 arg5 harg5 hc0 x0 x1 xo2 xo3 xo4).1 S1x1x1x1.size (by sl_kernel_rfl) y

/-- What a later point leaves in accumulator 0's staging buffer: its stored pieces read back. -/
def out0_B_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) : Vec F S1x1x1x1 .f32 :=
  VO0_2.read (Elt F) (VO0_2.writes (Elt F) VO0_2.junk (kernelRun0_B c i arg1 harg1 arg2 harg2 arg3 harg3 arg4 harg4 arg5 harg5 hc0 x0 x1 xo2 xo3 xo4).1)

/-- At a later point the stores into accumulator 1 cover its one element. -/
theorem cover0_B_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) (y : S1x1x1x1.Idx) :
    ∃ pc ∈ (kernelRun0_B c i arg1 harg1 arg2 harg2 arg3 harg3 arg4 harg4 arg5 harg5 hc0 x0 x1 xo2 xo3 xo4).2.1, y ∈ pc.1.set :=
  View.cover_of_tiledL (kernelRun0_B c i arg1 harg1 arg2 harg2 arg3 harg3 arg4 harg4 arg5 harg5 hc0 x0 x1 xo2 xo3 xo4).2.1 S1x1x1x1.size (by sl_kernel_rfl) y

/-- What a later point leaves in accumulator 1's staging buffer: its stored pieces read back. -/
def out0_B_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) : Vec F S1x1x1x1 .f32 :=
  VO0_3.read (Elt F) (VO0_3.writes (Elt F) VO0_3.junk (kernelRun0_B c i arg1 harg1 arg2 harg2 arg3 harg3 arg4 harg4 arg5 harg5 hc0 x0 x1 xo2 xo3 xo4).2.1)

/-- At a later point the stores into accumulator 2 cover its one element. -/
theorem cover0_B_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) (y : S1x1x1x1.Idx) :
    ∃ pc ∈ (kernelRun0_B c i arg1 harg1 arg2 harg2 arg3 harg3 arg4 harg4 arg5 harg5 hc0 x0 x1 xo2 xo3 xo4).2.2.1, y ∈ pc.1.set :=
  View.cover_of_tiledL (kernelRun0_B c i arg1 harg1 arg2 harg2 arg3 harg3 arg4 harg4 arg5 harg5 hc0 x0 x1 xo2 xo3 xo4).2.2.1 S1x1x1x1.size (by sl_kernel_rfl) y

/-- What a later point leaves in accumulator 2's staging buffer: its stored pieces read back. -/
def out0_B_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) : Vec F S1x1x1x1 .f32 :=
  VO0_4.read (Elt F) (VO0_4.writes (Elt F) VO0_4.junk (kernelRun0_B c i arg1 harg1 arg2 harg2 arg3 harg3 arg4 harg4 arg5 harg5 hc0 x0 x1 xo2 xo3 xo4).2.2.1)

/-! ## What the accumulators hold after each point -/

/-- The accumulation: what the three accumulators' staging buffers hold after the body at position `n`. -/
def outsAt0 (c : Dev nD) : (n : ℕ) → n < cfg0.N → Vec F S1x1x1x1 .f32 × Vec F S1x1x1x1 .f32 × Vec F S1x1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at the first point. -/
theorem outsAt0_A (c : Dev nD) (t : Fin cfg0.N) (h0 : t.val % 64 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a later point: that point's contribution over what the point before left. -/
theorem outsAt0_B (c : Dev nD) (t : Fin cfg0.N) (h0 : ¬t.val % 64 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and each accumulator's at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point accumulator 0's staging buffer holds what the body left at the point before: the buffer is
    written back after the last point only. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later point accumulator 1's staging buffer holds what the body left at the point before: the buffer is
    written back after the last point only. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later point accumulator 2's staging buffer holds what the body left at the point before: the buffer is
    written back after the last point only. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; at the first point the first-point run applies with the
    accumulators at anything, at a later point the later-point run with the accumulators at what the point before left;
    the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    unfold out0_A_2 out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end, faults nowhere, and leaves its eight argument arrays unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.IdealRuns.lean ====
/-
  The idealized kernel's @main is one pipelined region over 64 grid points followed by 119 host operations in eleven
  stretches.  This module fixes what every later module is stated over: the buffers as the region finds them (the
  region is @main's first line, so they are the launch contents), that the later lines write none of the eight
  argument arrays and none of the three arrays the region produces (each line writes only its own result buffer,
  and those 119 buffers are listed once), @main as "the region, then the later lines", the block of each input array
  at a grid point, the condition of the body's one branch decided over the grid (it holds at the first point only),
  and how the frame claim's post is read off a run whose post names every array.
-/
import proofs.«165979_j56504589746323_1_alg».proof.Proof.Gen.KernelIdeal.Launch
import proofs.«165979_j56504589746323_1_alg».proof.Proof.Gen.KernelIdeal.Skeleton
import proofs.«165979_j56504589746323_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The eleven stretches of host operations that follow the region, in order. -/
abbrev tailOps : List (List (HloOp τ sig (Elt F))) := [hostOps1, hostOps1_1, hostOps1_2, hostOps1_3, hostOps1_4, hostOps1_5, hostOps1_6, hostOps1_7, hostOps1_8, hostOps1_9, hostOps1_10]

/-- The result buffer of each of the 119 later lines, in program order. -/
abbrev tailW : List (Ref sig .tc) :=
  [main_v1, main_v2, main_v3, main_cst, main_v4, main_cst_0, main_v5, main_v6, main_v7, main_v8, main_v9, main_v10, main_v11, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v12, main_v13, main_v14, main_v15, main_v16, main_v17, main_v18, main_v19, main_cst_1, main_v20, main_v21, main_cst_2, main_v22, main_v23, main_v24, main_cst_3, main_v25, main_v26, main_v27, main_cst_4, main_v28, main_cst_5, main_v29, main_cst_6, main_v30, main_v31, main_v32, main_v33, main_v34, main_v35, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v36, main_v37, main_v38, main_v39, main_v40, main_v41, main_v42, main_v43, main_cst_7, main_v44, main_v45, main_cst_8, main_v46, main_v47, main_v48, main_cst_9, main_v49, main_v50, main_v51, main_cst_10, main_v52, main_cst_11, main_v53, main_cst_12, main_v54, main_v55, main_cst_13, main_v56, main_cst_14, main_v57, main_v58, main_cst_15, main_v59, main_v60]

/-- The same buffers as device buffers. -/
abbrev tailWF : Finset (DevRef τ sig) := (tailW.map (Proc.devRef (τ := τ) .tc)).toFinset

/-- An operation whose only written buffer is `y`, one of the listed buffers, writes within the list. -/
theorem writes_sub_of_eq {op : HloOp τ sig (Elt F)} (y : Ref sig .tc)
    (h : op.writes = {Proc.devRef .tc y}) (hy : y ∈ tailW) : op.writes ⊆ tailWF := by
  rw [h, Finset.singleton_subset_iff, List.mem_toFinset]
  exact List.mem_map_of_mem hy

theorem hostOps1_writes : (hostOps1 : List (HloOp τ sig (Elt F))).Forall fun op => op.writes ⊆ tailWF :=
  ⟨writes_sub_of_eq main_v1 rfl (by decide),
    writes_sub_of_eq main_v2 rfl (by decide),
    writes_sub_of_eq main_v3 rfl (by decide),
    writes_sub_of_eq main_cst rfl (by decide),
    writes_sub_of_eq main_v4 rfl (by decide),
    writes_sub_of_eq main_cst_0 rfl (by decide),
    writes_sub_of_eq main_v5 rfl (by decide)⟩

theorem hostOps1_1_writes : (hostOps1_1 : List (HloOp τ sig (Elt F))).Forall fun op => op.writes ⊆ tailWF :=
  writes_sub_of_eq main_v6 rfl (by decide)

theorem hostOps1_2_writes : (hostOps1_2 : List (HloOp τ sig (Elt F))).Forall fun op => op.writes ⊆ tailWF :=
  ⟨writes_sub_of_eq main_v7 rfl (by decide),
    writes_sub_of_eq main_v8 rfl (by decide),
    writes_sub_of_eq main_v9 rfl (by decide),
    writes_sub_of_eq main_v10 rfl (by decide),
    writes_sub_of_eq main_v11 rfl (by decide)⟩

theorem hostOps1_3_writes : (hostOps1_3 : List (HloOp τ sig (Elt F))).Forall fun op => op.writes ⊆ tailWF :=
  ⟨writes_sub_of_eq main_call1_c rfl (by decide),
    writes_sub_of_eq main_call1_v0 rfl (by decide),
    writes_sub_of_eq main_call1_v1 rfl (by decide),
    writes_sub_of_eq main_call1_c_0 rfl (by decide),
    writes_sub_of_eq main_call1_v2 rfl (by decide),
    writes_sub_of_eq main_call1_v3 rfl (by decide),
    writes_sub_of_eq main_call1_v4 rfl (by decide),
    writes_sub_of_eq main_call1_v5 rfl (by decide),
    writes_sub_of_eq main_call1_c_1 rfl (by decide),
    writes_sub_of_eq main_call1_c_2 rfl (by decide),
    writes_sub_of_eq main_call1_v6 rfl (by decide),
    writes_sub_of_eq main_call1_v7 rfl (by decide),
    writes_sub_of_eq main_call1_v8 rfl (by decide),
    writes_sub_of_eq main_call1_v9 rfl (by decide),
    writes_sub_of_eq main_call1_v10 rfl (by decide),
    writes_sub_of_eq main_call1_v11 rfl (by decide),
    writes_sub_of_eq main_call1_c_3 rfl (by decide),
    writes_sub_of_eq main_call1_v12 rfl (by decide),
    writes_sub_of_eq main_call1_v13 rfl (by decide),
    writes_sub_of_eq main_call1_cst rfl (by decide),
    writes_sub_of_eq main_call1_v14 rfl (by decide),
    writes_sub_of_eq main_v12 rfl (by decide)⟩

theorem hostOps1_4_writes : (hostOps1_4 : List (HloOp τ sig (Elt F))).Forall fun op => op.writes ⊆ tailWF :=
  ⟨writes_sub_of_eq main_v13 rfl (by decide),
    writes_sub_of_eq main_v14 rfl (by decide),
    writes_sub_of_eq main_v15 rfl (by decide),
    writes_sub_of_eq main_v16 rfl (by decide),
    writes_sub_of_eq main_v17 rfl (by decide),
    writes_sub_of_eq main_v18 rfl (by decide),
    writes_sub_of_eq main_v19 rfl (by decide),
    writes_sub_of_eq main_cst_1 rfl (by decide),
    writes_sub_of_eq main_v20 rfl (by decide),
    writes_sub_of_eq main_v21 rfl (by decide),
    writes_sub_of_eq main_cst_2 rfl (by decide),
    writes_sub_of_eq main_v22 rfl (by decide),
    writes_sub_of_eq main_v23 rfl (by decide),
    writes_sub_of_eq main_v24 rfl (by decide),
    writes_sub_of_eq main_cst_3 rfl (by decide),
    writes_sub_of_eq main_v25 rfl (by decide),
    writes_sub_of_eq main_v26 rfl (by decide)⟩

theorem hostOps1_5_writes : (hostOps1_5 : List (HloOp τ sig (Elt F))).Forall fun op => op.writes ⊆ tailWF :=
  writes_sub_of_eq main_v27 rfl (by decide)

theorem hostOps1_6_writes : (hostOps1_6 : List (HloOp τ sig (Elt F))).Forall fun op => op.writes ⊆ tailWF :=
  ⟨writes_sub_of_eq main_cst_4 rfl (by decide),
    writes_sub_of_eq main_v28 rfl (by decide),
    writes_sub_of_eq main_cst_5 rfl (by decide),
    writes_sub_of_eq main_v29 rfl (by decide),
    writes_sub_of_eq main_cst_6 rfl (by decide),
    writes_sub_of_eq main_v30 rfl (by decide),
    writes_sub_of_eq main_v31 rfl (by decide),
    writes_sub_of_eq main_v32 rfl (by decide),
    writes_sub_of_eq main_v33 rfl (by decide),
    writes_sub_of_eq main_v34 rfl (by decide),
    writes_sub_of_eq main_v35 rfl (by decide)⟩

theorem hostOps1_7_writes : (hostOps1_7 : List (HloOp τ sig (Elt F))).Forall fun op => op.writes ⊆ tailWF :=
  ⟨writes_sub_of_eq main_call3_c rfl (by decide),
    writes_sub_of_eq main_call3_v0 rfl (by decide),
    writes_sub_of_eq main_call3_v1 rfl (by decide),
    writes_sub_of_eq main_call3_c_0 rfl (by decide),
    writes_sub_of_eq main_call3_v2 rfl (by decide),
    writes_sub_of_eq main_call3_v3 rfl (by decide),
    writes_sub_of_eq main_call3_v4 rfl (by decide),
    writes_sub_of_eq main_call3_v5 rfl (by decide),
    writes_sub_of_eq main_call3_c_1 rfl (by decide),
    writes_sub_of_eq main_call3_c_2 rfl (by decide),
    writes_sub_of_eq main_call3_v6 rfl (by decide),
    writes_sub_of_eq main_call3_v7 rfl (by decide),
    writes_sub_of_eq main_call3_v8 rfl (by decide),
    writes_sub_of_eq main_call3_v9 rfl (by decide),
    writes_sub_of_eq main_call3_v10 rfl (by decide),
    writes_sub_of_eq main_call3_v11 rfl (by decide),
    writes_sub_of_eq main_call3_c_3 rfl (by decide),
    writes_sub_of_eq main_call3_v12 rfl (by decide),
    writes_sub_of_eq main_call3_v13 rfl (by decide),
    writes_sub_of_eq main_call3_cst rfl (by decide),
    writes_sub_of_eq main_call3_v14 rfl (by decide),
    writes_sub_of_eq main_v36 rfl (by decide)⟩

theorem hostOps1_8_writes : (hostOps1_8 : List (HloOp τ sig (Elt F))).Forall fun op => op.writes ⊆ tailWF :=
  ⟨writes_sub_of_eq main_v37 rfl (by decide),
    writes_sub_of_eq main_v38 rfl (by decide),
    writes_sub_of_eq main_v39 rfl (by decide),
    writes_sub_of_eq main_v40 rfl (by decide),
    writes_sub_of_eq main_v41 rfl (by decide),
    writes_sub_of_eq main_v42 rfl (by decide),
    writes_sub_of_eq main_v43 rfl (by decide),
    writes_sub_of_eq main_cst_7 rfl (by decide),
    writes_sub_of_eq main_v44 rfl (by decide),
    writes_sub_of_eq main_v45 rfl (by decide),
    writes_sub_of_eq main_cst_8 rfl (by decide),
    writes_sub_of_eq main_v46 rfl (by decide),
    writes_sub_of_eq main_v47 rfl (by decide),
    writes_sub_of_eq main_v48 rfl (by decide),
    writes_sub_of_eq main_cst_9 rfl (by decide),
    writes_sub_of_eq main_v49 rfl (by decide),
    writes_sub_of_eq main_v50 rfl (by decide)⟩

theorem hostOps1_9_writes : (hostOps1_9 : List (HloOp τ sig (Elt F))).Forall fun op => op.writes ⊆ tailWF :=
  writes_sub_of_eq main_v51 rfl (by decide)

theorem hostOps1_10_writes : (hostOps1_10 : List (HloOp τ sig (Elt F))).Forall fun op => op.writes ⊆ tailWF :=
  ⟨writes_sub_of_eq main_cst_10 rfl (by decide),
    writes_sub_of_eq main_v52 rfl (by decide),
    writes_sub_of_eq main_cst_11 rfl (by decide),
    writes_sub_of_eq main_v53 rfl (by decide),
    writes_sub_of_eq main_cst_12 rfl (by decide),
    writes_sub_of_eq main_v54 rfl (by decide),
    writes_sub_of_eq main_v55 rfl (by decide),
    writes_sub_of_eq main_cst_13 rfl (by decide),
    writes_sub_of_eq main_v56 rfl (by decide),
    writes_sub_of_eq main_cst_14 rfl (by decide),
    writes_sub_of_eq main_v57 rfl (by decide),
    writes_sub_of_eq main_v58 rfl (by decide),
    writes_sub_of_eq main_cst_15 rfl (by decide),
    writes_sub_of_eq main_v59 rfl (by decide),
    writes_sub_of_eq main_v60 rfl (by decide)⟩

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- Every later line writes within the listed buffers. -/
theorem tail_writes : (tailOps (F := F)).flatten.Forall fun op => op.writes ⊆ tailWF := by
  rw [List.forall_iff_forall_mem]
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop
  · exact (List.forall_iff_forall_mem.mp hostOps1_6_writes) op hop
  · exact (List.forall_iff_forall_mem.mp hostOps1_7_writes) op hop
  · exact (List.forall_iff_forall_mem.mp hostOps1_8_writes) op hop
  · exact (List.forall_iff_forall_mem.mp hostOps1_9_writes) op hop
  · exact (List.forall_iff_forall_mem.mp hostOps1_10_writes) op hop

/-- The eight argument arrays and the three arrays the region produces are not among them. -/
theorem protected_not_written : ∀ r ∈ ([main_arg0, main_arg1, main_arg2, main_arg3, main_arg4, main_arg5, main_arg6, main_arg7, main_v0_0, main_v0_1, main_v0_2] : List (Ref sig .tc)), r ∉ tailW := by
  decide

/-- Core `c`'s TensorCore buffer contents when the region is entered, as a valuation: the launch contents (no host
    operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10]) :=
  Pipeline.hmain_around cfgs 0 defs₀ 𝒱₀ m main [] tailOps (by simp only [List.Forall])
    (by simp only [List.Forall]) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- A reference outside the listed buffers is written by no later line. -/
theorem tail_keeps_ref (r : Ref sig .tc) (hr : r ∉ tailW) :
    ∀ ops ∈ (tailOps : List (List (HloOp τ sig (Elt F)))), ∀ op ∈ ops, Proc.devRef (τ := τ) .tc r ∉ op.writes := by
  intro ops hops op hop hw
  have hsub := (List.forall_iff_forall_mem.mp (tail_writes (F := F))) op (List.mem_flatten.mpr ⟨ops, hops, hop⟩) hw
  obtain ⟨y, hy, he⟩ := List.mem_map.mp (List.mem_toFinset.mp hsub)
  exact hr (Proc.devRef_injective _ he ▸ hy)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  refine tail_keeps_ref (F := F) _ ?_ ops hops op hop
  fin_cases w
  · exact protected_not_written main_arg0 (by decide)
  · exact protected_not_written main_arg1 (by decide)
  · exact protected_not_written main_v0_0 (by decide)
  · exact protected_not_written main_v0_1 (by decide)
  · exact protected_not_written main_v0_2 (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What a later line leaves of a buffer it does not write -/

/-- After the later lines, a buffer that bypasses the region and that no later line writes holds its launch contents. -/
theorem afterTail_kept (dats : (p : Fin 1) → (c : Dev nD) → Dat τ (Elt F) Unit ℕ (UR sig nD τ) ℕ (cfgs p) c)
    (c : Dev nD) (b : Ref sig .tc) (hb : b ∉ tailW) (harr : ∀ w, Pipeline.arrRef spec0 w ≠ b) :
    Pipeline.afterTail₀ cfgs dats 0 (V0 m) tailOps c b = m ((c : Thread nD τ).loc b) := by
  unfold Pipeline.afterTail₀
  rw [StableHlo.after_of_writes_sub _ _ (tail_writes (F := F)) hb]
  exact Pipeline.withArrays_of_ne _ c (V0 m c) _ b harr

/-! ## The frame claim's post from the frame run's -/

/-- The frame claim's post, at any `F`, from a run whose post names every array of the pipeline and every bypassing
    buffer: a staged input is unchanged by the pipeline, a bypassing argument is written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (afterTail_kept m dats c main_arg2 (protected_not_written _ (by decide)) (by decide)),
      ((h c).2 main_arg3 (by decide : main_arg3 ∈ Pipeline.restRefs sig spec0)).trans (afterTail_kept m dats c main_arg3 (protected_not_written _ (by decide)) (by decide)),
      ((h c).2 main_arg4 (by decide : main_arg4 ∈ Pipeline.restRefs sig spec0)).trans (afterTail_kept m dats c main_arg4 (protected_not_written _ (by decide)) (by decide)),
      ((h c).2 main_arg5 (by decide : main_arg5 ∈ Pipeline.restRefs sig spec0)).trans (afterTail_kept m dats c main_arg5 (protected_not_written _ (by decide)) (by decide)),
      ((h c).2 main_arg6 (by decide : main_arg6 ∈ Pipeline.restRefs sig spec0)).trans (afterTail_kept m dats c main_arg6 (protected_not_written _ (by decide)) (by decide)),
      ((h c).2 main_arg7 (by decide : main_arg7 ∈ Pipeline.restRefs sig spec0)).trans (afterTail_kept m dats c main_arg7 (protected_not_written _ (by decide)) (by decide))⟩) h

/-! ## The body's branch condition -/

/-- The condition of the body's one branch, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs -/

/-- One staging buffer of each output window, through which its contents are stated. -/
abbrev VO0_2 : View sig .tc .vmem S1x1x1x1 .f32 := (Memref.whole cc0_stg2_0 : Memref sig .tc .vmem S1x1x1x1 .f32).view
abbrev VO0_3 : View sig .tc .vmem S1x1x1x1 .f32 := (Memref.whole cc0_stg3_0 : Memref sig .tc .vmem S1x1x1x1 .f32).view
abbrev VO0_4 : View sig .tc .vmem S1x1x1x1 .f32 := (Memref.whole cc0_stg4_0 : Memref sig .tc .vmem S1x1x1x1 .f32).view
/-- Each window's current staging memref at point `t`, as the pipeline passes it, and its wholeness. -/
abbrev ms0_0 (t : Fin cfg0.N) : Memref sig .tc .vmem S2x20x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x20x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x1 .f32 := win0_4.stage (cfg0.slots t 4)
abbrev hs0_4 (t : Fin cfg0.N) : (ms0_4 t).IsWhole := hstage0_4 ((cfg0.slots t 4).cast nbuf0_4)

end Cert.KernelIdeal.Hand

end
-- ==== Proof.IdealRunFirst.lean ====
/-
  The kernel body at the grid's first point.  There the branch is taken: each of the three one-element accumulators is
  first stored a zero, and then the body proceeds as at every point — it loads the two input blocks, loads each
  accumulator back, and stores accumulator + this block's contribution.  The run below holds the two input
  buffers at given contents and the three accumulator buffers at anything, and ends with the inputs as they were and
  each accumulator buffer overwritten by a list of stored pieces, which the symbolic execution finds.
-/
import proofs.«165979_j56504589746323_1_alg».proof.Proof.IdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is taken (the first grid point): the pieces each accumulator's buffer ends with, and the
    proof that the body runs to any continuation that takes the inputs back unchanged and the accumulators so written. -/
noncomputable def kernelRun0_A (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) :
    Σ' (L2 : List (View.Piece (Elt F) S1x1x1x1 .f32)) (L3 : List (View.Piece (Elt F) S1x1x1x1 .f32)), { L4 : List (View.Piece (Elt F) S1x1x1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__hm_loss_kernel i arg1 harg1 arg2 harg2 arg3 harg3 arg4 harg4 arg5 harg5) K } := by
  refine ⟨?_, ?_, ?_, fun E K => ?run⟩
  case run =>
    simp only [cc0__hm_loss_kernel_eq_skeleton]; unfold cc0__hm_loss_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.KernelIdeal.Hand

end
-- ==== Proof.IdealRunLater.lean ====
/-
  The kernel body at every grid point after the first.  There the branch is not taken: the body loads the two input
  blocks, loads each of the three one-element accumulators — which hold what the point before left, since their
  buffers are written back only after the last point — and stores accumulator + this block's contribution.  The run
  below holds the inputs at given contents and the accumulators at given running contents.
-/
import proofs.«165979_j56504589746323_1_alg».proof.Proof.IdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is not taken (every later grid point): the pieces each accumulator's buffer ends with,
    over the running contents it is handed, and the proof that the body runs. -/
noncomputable def kernelRun0_B (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) :
    Σ' (L2 : List (View.Piece (Elt F) S1x1x1x1 .f32)) (L3 : List (View.Piece (Elt F) S1x1x1x1 .f32)), { L4 : List (View.Piece (Elt F) S1x1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__hm_loss_kernel i arg1 harg1 arg2 harg2 arg3 harg3 arg4 harg4 arg5 harg5) K } := by
  refine ⟨?_, ?_, ?_, fun E K => ?run⟩
  case run =>
    simp only [cc0__hm_loss_kernel_eq_skeleton]; unfold cc0__hm_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.KernelIdeal.Hand

end
-- ==== Proof.IdealFrame.lean ====
/-
  The frame of the idealized kernel's program, and what its three accumulators hold after every grid point.
  The three output windows are one-element arrays with a constant index map: their staging buffers are written back
  after the last of the 64 points only, so between points each holds what the point before left.  The first point
  overwrites each accumulator (zero, then zero + its block's contribution); every later point reads the running value
  and adds its block's contribution.  `outsAt0` is that recursion; the proof data names it as what the body leaves;
  the body obligation is the first-point run or the later-point run according to the point; and the launch theorem for
  a region followed by host lines gives the run of the whole program, with every array of the pipeline named.
-/
import proofs.«165979_j56504589746323_1_alg».proof.Proof.IdealRunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the stores into accumulator 0 cover its one element. -/
theorem cover0_A_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) (y : S1x1x1x1.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S1x1x1x1.size (by sl_kernel_rfl) y

/-- What the first point leaves in accumulator 0's staging buffer: its stored pieces read back. -/
def out0_A_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) : Vec F S1x1x1x1 .f32 :=
  VO0_2.read (Elt F) (VO0_2.writes (Elt F) VO0_2.junk (kernelRun0_A c i arg1 harg1 arg2 harg2 arg3 harg3 arg4 harg4 arg5 harg5 hc0 x0 x1).1)

/-- At the first point the stores into accumulator 1 cover its one element. -/
theorem cover0_A_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) (y : S1x1x1x1.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1x1x1x1.size (by sl_kernel_rfl) y

/-- What the first point leaves in accumulator 1's staging buffer: its stored pieces read back. -/
def out0_A_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) : Vec F S1x1x1x1 .f32 :=
  VO0_3.read (Elt F) (VO0_3.writes (Elt F) VO0_3.junk (kernelRun0_A c i arg1 harg1 arg2 harg2 arg3 harg3 arg4 harg4 arg5 harg5 hc0 x0 x1).2.1)

/-- At the first point the stores into accumulator 2 cover its one element. -/
theorem cover0_A_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) (y : S1x1x1x1.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S1x1x1x1.size (by sl_kernel_rfl) y

/-- What the first point leaves in accumulator 2's staging buffer: its stored pieces read back. -/
def out0_A_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) : Vec F S1x1x1x1 .f32 :=
  VO0_4.read (Elt F) (VO0_4.writes (Elt F) VO0_4.junk (kernelRun0_A c i arg1 harg1 arg2 harg2 arg3 harg3 arg4 harg4 arg5 harg5 hc0 x0 x1).2.2.1)

/-- At a later point the stores into accumulator 0 cover its one element. -/
theorem cover0_B_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) (y : S1x1x1x1.Idx) :
    ∃ pc ∈ (kernelRun0_B c i arg1 harg1 arg2 harg2 arg3 harg3 arg4 harg4 arg5 harg5 hc0 x0 x1 xo2 xo3 xo4).1, y ∈ pc.1.set :=
  View.cover_of_tiledL (kernelRun0_B c i arg1 harg1 arg2 harg2 arg3 harg3 arg4 harg4 arg5 harg5 hc0 x0 x1 xo2 xo3 xo4).1 S1x1x1x1.size (by sl_kernel_rfl) y

/-- What a later point leaves in accumulator 0's staging buffer: its stored pieces read back. -/
def out0_B_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) : Vec F S1x1x1x1 .f32 :=
  VO0_2.read (Elt F) (VO0_2.writes (Elt F) VO0_2.junk (kernelRun0_B c i arg1 harg1 arg2 harg2 arg3 harg3 arg4 harg4 arg5 harg5 hc0 x0 x1 xo2 xo3 xo4).1)

/-- At a later point the stores into accumulator 1 cover its one element. -/
theorem cover0_B_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) (y : S1x1x1x1.Idx) :
    ∃ pc ∈ (kernelRun0_B c i arg1 harg1 arg2 harg2 arg3 harg3 arg4 harg4 arg5 harg5 hc0 x0 x1 xo2 xo3 xo4).2.1, y ∈ pc.1.set :=
  View.cover_of_tiledL (kernelRun0_B c i arg1 harg1 arg2 harg2 arg3 harg3 arg4 harg4 arg5 harg5 hc0 x0 x1 xo2 xo3 xo4).2.1 S1x1x1x1.size (by sl_kernel_rfl) y

/-- What a later point leaves in accumulator 1's staging buffer: its stored pieces read back. -/
def out0_B_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) : Vec F S1x1x1x1 .f32 :=
  VO0_3.read (Elt F) (VO0_3.writes (Elt F) VO0_3.junk (kernelRun0_B c i arg1 harg1 arg2 harg2 arg3 harg3 arg4 harg4 arg5 harg5 hc0 x0 x1 xo2 xo3 xo4).2.1)

/-- At a later point the stores into accumulator 2 cover its one element. -/
theorem cover0_B_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) (y : S1x1x1x1.Idx) :
    ∃ pc ∈ (kernelRun0_B c i arg1 harg1 arg2 harg2 arg3 harg3 arg4 harg4 arg5 harg5 hc0 x0 x1 xo2 xo3 xo4).2.2.1, y ∈ pc.1.set :=
  View.cover_of_tiledL (kernelRun0_B c i arg1 harg1 arg2 harg2 arg3 harg3 arg4 harg4 arg5 harg5 hc0 x0 x1 xo2 xo3 xo4).2.2.1 S1x1x1x1.size (by sl_kernel_rfl) y

/-- What a later point leaves in accumulator 2's staging buffer: its stored pieces read back. -/
def out0_B_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) : Vec F S1x1x1x1 .f32 :=
  VO0_4.read (Elt F) (VO0_4.writes (Elt F) VO0_4.junk (kernelRun0_B c i arg1 harg1 arg2 harg2 arg3 harg3 arg4 harg4 arg5 harg5 hc0 x0 x1 xo2 xo3 xo4).2.2.1)

/-! ## What the accumulators hold after each point -/

/-- The accumulation: what the three accumulators' staging buffers hold after the body at position `n`. -/
def outsAt0 (c : Dev nD) : (n : ℕ) → n < cfg0.N → Vec F S1x1x1x1 .f32 × Vec F S1x1x1x1 .f32 × Vec F S1x1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at the first point. -/
theorem outsAt0_A (c : Dev nD) (t : Fin cfg0.N) (h0 : t.val % 64 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a later point: that point's contribution over what the point before left. -/
theorem outsAt0_B (c : Dev nD) (t : Fin cfg0.N) (h0 : ¬t.val % 64 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and each accumulator's at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point accumulator 0's staging buffer holds what the body left at the point before: the buffer is
    written back after the last point only. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later point accumulator 1's staging buffer holds what the body left at the point before: the buffer is
    written back after the last point only. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later point accumulator 2's staging buffer holds what the body left at the point before: the buffer is
    written back after the last point only. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; at the first point the first-point run applies with the
    accumulators at anything, at a later point the later-point run with the accumulators at what the point before left;
    the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    unfold out0_A_2 out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end, faults nowhere, and leaves its eight argument arrays unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.ValueRun.lean ====
/-
  The run of the idealized kernel's program with its four results named: each result buffer ends holding what the
  later host lines compute from the arrays the region leaves; the eight argument arrays end unchanged.
-/
import proofs.«165979_j56504589746323_1_alg».proof.Proof.IdealFrame

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Every weakly fair execution terminates with the four results at the later lines' values and the arguments unchanged. -/
theorem value_run : θ_run defs (onTc (τ := τ) (main (F := F))) ⟨m, fun _ => 0, ρ⟩ (fun r => ∀ c : Dev nD,
      r.2.mem ((c.tc : Thread nD τ).loc main_v7) = Pipeline.afterTail₀ cfgs (dats m) 0 (V0 m) tailOps c main_v7
      ∧ r.2.mem ((c.tc : Thread nD τ).loc main_v31) = Pipeline.afterTail₀ cfgs (dats m) 0 (V0 m) tailOps c main_v31
      ∧ r.2.mem ((c.tc : Thread nD τ).loc main_v55) = Pipeline.afterTail₀ cfgs (dats m) 0 (V0 m) tailOps c main_v55
      ∧ r.2.mem ((c.tc : Thread nD τ).loc main_v60) = Pipeline.afterTail₀ cfgs (dats m) 0 (V0 m) tailOps c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v7 (by decide : main_v7 ∈ Pipeline.restRefs sig spec0),
      (h c).2 main_v31 (by decide : main_v31 ∈ Pipeline.restRefs sig spec0),
      (h c).2 main_v55 (by decide : main_v55 ∈ Pipeline.restRefs sig spec0),
      (h c).2 main_v60 (by decide : main_v60 ∈ Pipeline.restRefs sig spec0),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (by decide : main_arg2 ∈ Pipeline.restRefs sig spec0)).trans (afterTail_kept m (dats m) c main_arg2 (protected_not_written _ (by decide)) (by decide)),
      ((h c).2 main_arg3 (by decide : main_arg3 ∈ Pipeline.restRefs sig spec0)).trans (afterTail_kept m (dats m) c main_arg3 (protected_not_written _ (by decide)) (by decide)),
      ((h c).2 main_arg4 (by decide : main_arg4 ∈ Pipeline.restRefs sig spec0)).trans (afterTail_kept m (dats m) c main_arg4 (protected_not_written _ (by decide)) (by decide)),
      ((h c).2 main_arg5 (by decide : main_arg5 ∈ Pipeline.restRefs sig spec0)).trans (afterTail_kept m (dats m) c main_arg5 (protected_not_written _ (by decide)) (by decide)),
      ((h c).2 main_arg6 (by decide : main_arg6 ∈ Pipeline.restRefs sig spec0)).trans (afterTail_kept m (dats m) c main_arg6 (protected_not_written _ (by decide)) (by decide)),
      ((h c).2 main_arg7 (by decide : main_arg7 ∈ Pipeline.restRefs sig spec0)).trans (afterTail_kept m (dats m) c main_arg7 (protected_not_written _ (by decide)) (by decide))⟩)
    (run_main m ρ)

end Cert.KernelIdeal.Hand

end
-- ==== Proof.IdealFinal.lean ====
/-
  What the three one-element result arrays of the region hold when it ends.  Each accumulator's window is the whole
  one-element array, with a constant index map, written back after the last of the 64 points only; so the array ends
  holding what the body left in the staging buffer at point 63, and the one block of that write-back covers the array.
-/
import proofs.«165979_j56504589746323_1_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The grid has 64 points; 63 is one of them. -/
theorem lastLt : 63 < cfg0.N := by rw [show cfg0.N = 64 from N_0]; decide

/-- The last grid point. -/
abbrev tLast : Fin cfg0.N := ⟨63, lastLt⟩

/-- What the last point leaves in the three accumulators, as contents of the three result arrays. -/
abbrev acc0 (c : Dev nD) : Buf (Elt F) ((c : Thread nD τ).loc main_v0_0) := (dats m 0 c).after 2 tLast
abbrev acc1 (c : Dev nD) : Buf (Elt F) ((c : Thread nD τ).loc main_v0_1) := (dats m 0 c).after 3 tLast
abbrev acc2 (c : Dev nD) : Buf (Elt F) ((c : Thread nD τ).loc main_v0_2) := (dats m 0 c).after 4 tLast

/-- They are the three components of the accumulation after position 63. -/
theorem acc0_outs (c : Dev nD) : acc0 m c = (outsAt0 m c tLast.val tLast.isLt).1 := after0_2 m c tLast
theorem acc1_outs (c : Dev nD) : acc1 m c = (outsAt0 m c tLast.val tLast.isLt).2.1 := after0_3 m c tLast
theorem acc2_outs (c : Dev nD) : acc2 m c = (outsAt0 m c tLast.val tLast.isLt).2.2 := after0_4 m c tLast

/-- At the last point, window 2's block at zero offsets is its whole one-element array, whatever the buffer holds. -/
theorem cut_last_2 (c : Dev nD) (X : Buf (Elt F) ((c : Thread nD τ).loc main_v0_0)) :
    (cfg0.win 2).cut (grid0.coords tLast) X = ((cfg0.win 2).blk tLast).view.read (Elt F) X := by
  have hz' : (fun a => win0_2.index tLast a * main_v0_0.ty.shape.size a) = fun _ => 0 := funext fun a => by fin_cases a <;> decide +kernel
  exact (Memref.read_access_unit_zero (Elt F) main_v0_0 hz' (fun a => by rw [congrFun hz' a]; simp) X).symm

/-- The one write-back of window 2, at point 63, writes what that point left. -/
theorem flushed_eq_2 (c : Dev nD) (t : Fin cfg0.N) (hf : (cfg0.win 2).flush t = true) :
    (dats m 0 c).flushed 2 t = ((cfg0.win 2).blk t).view.read (Elt F) (acc0 m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  exact cut_last_2 c _

/-- At the last point, window 3's block at zero offsets is its whole one-element array, whatever the buffer holds. -/
theorem cut_last_3 (c : Dev nD) (X : Buf (Elt F) ((c : Thread nD τ).loc main_v0_1)) :
    (cfg0.win 3).cut (grid0.coords tLast) X = ((cfg0.win 3).blk tLast).view.read (Elt F) X := by
  have hz' : (fun a => win0_3.index tLast a * main_v0_1.ty.shape.size a) = fun _ => 0 := funext fun a => by fin_cases a <;> decide +kernel
  exact (Memref.read_access_unit_zero (Elt F) main_v0_1 hz' (fun a => by rw [congrFun hz' a]; simp) X).symm

/-- The one write-back of window 3, at point 63, writes what that point left. -/
theorem flushed_eq_3 (c : Dev nD) (t : Fin cfg0.N) (hf : (cfg0.win 3).flush t = true) :
    (dats m 0 c).flushed 3 t = ((cfg0.win 3).blk t).view.read (Elt F) (acc1 m c) := by
  have hN : cfg0.N = 64 := N_0
  have h63 : t.val = 63 := by have := (flush0_3 t).mp hf; have := t.isLt; omega
  obtain rfl : t = tLast := Fin.ext h63
  show (cfg0.win 3).cut (grid0.coords tLast) ((dats m 0 c).after 3 tLast) = _
  exact cut_last_3 c _

/-- At the last point, window 4's block at zero offsets is its whole one-element array, whatever the buffer holds. -/
theorem cut_last_4 (c : Dev nD) (X : Buf (Elt F) ((c : Thread nD τ).loc main_v0_2)) :
    (cfg0.win 4).cut (grid0.coords tLast) X = ((cfg0.win 4).blk tLast).view.read (Elt F) X := by
  have hz' : (fun a => win0_4.index tLast a * main_v0_2.ty.shape.size a) = fun _ => 0 := funext fun a => by fin_cases a <;> decide +kernel
  exact (Memref.read_access_unit_zero (Elt F) main_v0_2 hz' (fun a => by rw [congrFun hz' a]; simp) X).symm

/-- The one write-back of window 4, at point 63, writes what that point left. -/
theorem flushed_eq_4 (c : Dev nD) (t : Fin cfg0.N) (hf : (cfg0.win 4).flush t = true) :
    (dats m 0 c).flushed 4 t = ((cfg0.win 4).blk t).view.read (Elt F) (acc2 m c) := by
  have hN : cfg0.N = 64 := N_0
  have h63 : t.val = 63 := by have := (flush0_4 t).mp hf; have := t.isLt; omega
  obtain rfl : t = tLast := Fin.ext h63
  show (cfg0.win 4).cut (grid0.coords tLast) ((dats m 0 c).after 4 tLast) = _
  exact cut_last_4 c _

/-- Accumulator 0's array ends holding what point 63 left: that point's block is the whole one-element array. -/
theorem final_2 (c : Dev nD) : (dats m 0 c).arrAt 2 cfg0.N = acc0 m c :=
  (dats m 0 c).arrAt_eq_of_cover 2 (acc0 m c) (flushed_eq_2 m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      have h3 : (i 3 : Nat) < 1 := (i 3).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega
      | ⟨2, _⟩ => show win0_2.index tLast 2 * win0_2.size 2 ≤ (i 2 : Nat) ∧ (i 2 : Nat) < win0_2.index tLast 2 * win0_2.size 2 + win0_2.xsize (grid0.coords tLast) 2
                  rw [show win0_2.index tLast 2 * win0_2.size 2 = 0 from by decide +kernel, show win0_2.xsize (grid0.coords tLast) 2 = 1 from by decide +kernel]; omega
      | ⟨3, _⟩ => show win0_2.index tLast 3 * win0_2.size 3 ≤ (i 3 : Nat) ∧ (i 3 : Nat) < win0_2.index tLast 3 * win0_2.size 3 + win0_2.xsize (grid0.coords tLast) 3
                  rw [show win0_2.index tLast 3 * win0_2.size 3 = 0 from by decide +kernel, show win0_2.xsize (grid0.coords tLast) 3 = 1 from by decide +kernel]; omega⟩

theorem final_3 (c : Dev nD) : (dats m 0 c).arrAt 3 cfg0.N = acc1 m c :=
  (dats m 0 c).arrAt_eq_of_cover 3 (acc1 m c) (flushed_eq_3 m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      have h3 : (i 3 : Nat) < 1 := (i 3).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega
      | ⟨2, _⟩ => show win0_3.index tLast 2 * win0_3.size 2 ≤ (i 2 : Nat) ∧ (i 2 : Nat) < win0_3.index tLast 2 * win0_3.size 2 + win0_3.xsize (grid0.coords tLast) 2
                  rw [show win0_3.index tLast 2 * win0_3.size 2 = 0 from by decide +kernel, show win0_3.xsize (grid0.coords tLast) 2 = 1 from by decide +kernel]; omega
      | ⟨3, _⟩ => show win0_3.index tLast 3 * win0_3.size 3 ≤ (i 3 : Nat) ∧ (i 3 : Nat) < win0_3.index tLast 3 * win0_3.size 3 + win0_3.xsize (grid0.coords tLast) 3
                  rw [show win0_3.index tLast 3 * win0_3.size 3 = 0 from by decide +kernel, show win0_3.xsize (grid0.coords tLast) 3 = 1 from by decide +kernel]; omega⟩

theorem final_4 (c : Dev nD) : (dats m 0 c).arrAt 4 cfg0.N = acc2 m c :=
  (dats m 0 c).arrAt_eq_of_cover 4 (acc2 m c) (flushed_eq_4 m c) fun i =>
    ⟨tLast, (flush0_4 tLast).mpr rfl, by
      show i ∈ ((View.whole main_v0_2).slice (win0_4.rect tLast)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      have h3 : (i 3 : Nat) < 1 := (i 3).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega
      | ⟨2, _⟩ => show win0_4.index tLast 2 * win0_4.size 2 ≤ (i 2 : Nat) ∧ (i 2 : Nat) < win0_4.index tLast 2 * win0_4.size 2 + win0_4.xsize (grid0.coords tLast) 2
                  rw [show win0_4.index tLast 2 * win0_4.size 2 = 0 from by decide +kernel, show win0_4.xsize (grid0.coords tLast) 2 = 1 from by decide +kernel]; omega
      | ⟨3, _⟩ => show win0_4.index tLast 3 * win0_4.size 3 ≤ (i 3 : Nat) ∧ (i 3 : Nat) < win0_4.index tLast 3 * win0_4.size 3 + win0_4.xsize (grid0.coords tLast) 3
                  rw [show win0_4.index tLast 3 * win0_4.size 3 = 0 from by decide +kernel, show win0_4.xsize (grid0.coords tLast) 3 = 1 from by decide +kernel]; omega⟩

end Cert.KernelIdeal.Hand

end
-- ==== Proof.TailHm.lean ====
/-
  The heatmap loss after the region, from the three one-element arrays the region leaves: the loss sum divided by the
  number of positives, or, when there are none, by the larger of the count above the threshold and one.
-/
import proofs.«165979_j56504589746323_1_alg».proof.Proof.IdealFinal
import proofs.«165979_j56504589746323_1_alg».proof.Proof.RefRead
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ)

/-- The heatmap loss as a function of the three accumulators' arrays. -/
def hmOf (c : Dev nD) (a0 : Buf (Elt F) ((c : Thread nD τ).loc main_v0_0)) (a1 : Buf (Elt F) ((c : Thread nD τ).loc main_v0_1))
    (a2 : Buf (Elt F) ((c : Thread nD τ).loc main_v0_2)) : Buf (Elt F) ((c.tc : Thread nD τ).loc main_v7) :=
  Host.divf (fun i => shapeCast S_ a0 shapeCasts_S1x1x1x1_S_ i)
    (select (cmpf .oeq (fun i => shapeCast S_ a1 shapeCasts_S1x1x1x1_S_ i) (constant S_ .f32 0x00000000#32))
      (maximumf (fun i => shapeCast S_ a2 shapeCasts_S1x1x1x1_S_ i) (constant S_ .f32 0x3F800000#32))
      (fun i => shapeCast S_ a1 shapeCasts_S1x1x1x1_S_ i))

set_option maxHeartbeats 4000000 in
/-- The first result is that function of what the last grid point left in the three accumulators. -/
theorem tail_hm (c : Dev nD) :
    Pipeline.afterTail₀ cfgs (dats m) 0 (V0 m) tailOps c main_v7 = hmOf c (acc0 m c) (acc1 m c) (acc2 m c) := by
  unfold Pipeline.afterTail₀
  simp only [tailOps, hostOps1, hostOps1_1, hostOps1_2, hostOps1_3, hostOps1_4, hostOps1_5, hostOps1_6, hostOps1_7, hostOps1_8, hostOps1_9, hostOps1_10,
    List.flatten_cons, List.flatten_nil, List.append_nil, List.cons_append, List.nil_append]
  after_results_simp
  have h2 := (Pipeline.withArrays_arr (cfgs 0).spec launch0.win.arr_inj c (V0 m c) (fun w => (dats m 0 c).arrAt w (cfgs 0).N) 2).trans (final_2 m c)
  have h3 := (Pipeline.withArrays_arr (cfgs 0).spec launch0.win.arr_inj c (V0 m c) (fun w => (dats m 0 c).arrAt w (cfgs 0).N) 3).trans (final_3 m c)
  have h4 := (Pipeline.withArrays_arr (cfgs 0).spec launch0.win.arr_inj c (V0 m c) (fun w => (dats m 0 c).arrAt w (cfgs 0).N) 4).trans (final_4 m c)
  rw [show Pipeline.withArrays (cfgs 0).spec c (V0 m c) (fun w => (dats m 0 c).arrAt w (cfgs 0).N) (Proc.tc.devRef main_v0_0) = acc0 m c from h2,
    show Pipeline.withArrays (cfgs 0).spec c (V0 m c) (fun w => (dats m 0 c).arrAt w (cfgs 0).N) (Proc.tc.devRef main_v0_1) = acc1 m c from h3,
    show Pipeline.withArrays (cfgs 0).spec c (V0 m c) (fun w => (dats m 0 c).arrAt w (cfgs 0).N) (Proc.tc.devRef main_v0_2) = acc2 m c from h4]
  rfl

end Cert.KernelIdeal.Hand

end
-- ==== Proof.IdealPieces.lean ====
/-
  What each grid point leaves in each of the three accumulators, as a value: the payload of the point's covering store
  applied to the two input blocks and to the accumulator's previous contents (at the first point: to the zero just
  stored).  These are read off the pieces the symbolic execution of the body found.
-/
import proofs.«165979_j56504589746323_1_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every offset of a one-element window, and of a whole-block load, is zero. -/
theorem hz4 : (![0, 0, 0, 0] : Fin 4 → Nat) = fun _ => 0 := funext fun a => by fin_cases a <;> rfl

/-- At a later point accumulator 0 is left at the running negated sum plus this block's negated sum: the one covering store's payload, whose
    loads read whole buffers. -/
theorem out_B_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) :
    out0_B_2 c i arg1 harg1 arg2 harg2 arg3 harg3 arg4 harg4 arg5 harg5 hc0 x0 x1 xo2 xo3 xo4 = k0_pay9 (k0_pay7 xo2) (k0_pay8 x0 x1) := by
  unfold out0_B_2
  rw [View.read_writes_eq_canon _ _ _ (cover0_B_2 c i arg1 harg1 arg2 harg2 arg3 harg3 arg4 harg4 arg5 harg5 hc0 x0 x1 xo2 xo3 xo4)]
  unfold kernelRun0_B
  dsimp only
  sl_unfold_words
  rw [View.canon_unit_zero hz4]
  simp only [View.readAt_eq_ld, harg1.read_unread, harg2.read_unread, harg3.read_unread, harg4.read_unread, harg5.read_unread,
    View.ld_unit_zero (S := S1x1x1x1) hz4, View.ld_unit_zero (S := S2x20x128x128) hz4]

/-- At a later point accumulator 1 is left at the running count of positives plus this block's: the one covering store's payload, whose
    loads read whole buffers. -/
theorem out_B_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) :
    out0_B_3 c i arg1 harg1 arg2 harg2 arg3 harg3 arg4 harg4 arg5 harg5 hc0 x0 x1 xo2 xo3 xo4 = k0_pay10 (k0_pay6 x1) xo3 := by
  unfold out0_B_3
  rw [View.read_writes_eq_canon _ _ _ (cover0_B_3 c i arg1 harg1 arg2 harg2 arg3 harg3 arg4 harg4 arg5 harg5 hc0 x0 x1 xo2 xo3 xo4)]
  unfold kernelRun0_B
  dsimp only
  sl_unfold_words
  rw [View.canon_unit_zero hz4]
  simp only [View.readAt_eq_ld, harg1.read_unread, harg2.read_unread, harg3.read_unread, harg4.read_unread, harg5.read_unread,
    View.ld_unit_zero (S := S1x1x1x1) hz4, View.ld_unit_zero (S := S2x20x128x128) hz4]

/-- At a later point accumulator 2 is left at the running count above the threshold plus this block's: the one covering store's payload, whose
    loads read whole buffers. -/
theorem out_B_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : ¬cond0_0 i)
    (x0 : Vec F S2x20x128x128 .f32) (x1 : Vec F S2x20x128x128 .f32) (xo2 : Vec F S1x1x1x1 .f32) (xo3 : Vec F S1x1x1x1 .f32) (xo4 : Vec F S1x1x1x1 .f32) :
    out0_B_4 c i arg1 harg1 arg2 harg2 arg3 harg3 arg4 harg4 arg5 harg5 hc0 x0 x1 xo2 xo3 xo4 = k0_pay1 (k0_pay11 xo4) (k0_pay12 (k0_pay5 x0)) := by
  unfold out0_B_4
  rw [View.read_writes_eq_canon _ _ _ (cover0_B_4 c i arg1 harg1 arg2 harg2 arg3 harg3 arg4 harg4 arg5 harg5 hc0 x0 x1 xo2 xo3 xo4)]
  unfold kernelRun0_B
  dsimp only
  sl_unfold_words
  rw [View.canon_unit_zero hz4]
  simp only [View.readAt_eq_ld, harg1.read_unread, harg2.read_unread, harg3.read_unread, harg4.read_unread, harg5.read_unread,
    View.ld_unit_zero (S := S1x1x1x1) hz4, View.ld_unit_zero (S := S2x20x128x128) hz4]

/-- At the first point accumulator 0 is stored a zero, read back, and left at that zero plus this block's contribution. -/
theorem out_A_2 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) :
    out0_A_2 c i arg1 harg1 arg2 harg2 arg3 harg3 arg4 harg4 arg5 harg5 hc0 x0 x1 = k0_pay9 (k0_pay7 (k0_pay2 (F := F))) (k0_pay8 x0 x1) := by
  unfold out0_A_2
  rw [View.read_writes_eq_canon _ _ _ (cover0_A_2 c i arg1 harg1 arg2 harg2 arg3 harg3 arg4 harg4 arg5 harg5 hc0 x0 x1)]
  unfold kernelRun0_A
  dsimp only
  sl_unfold_words
  rw [View.canon_cons_unit_zero (S := S1x1x1x1) hz4, View.readCov_unit_zero (S := S1x1x1x1) _ hz4]
  simp only [View.readAt_eq_ld, harg1.read_unread, harg2.read_unread, harg3.read_unread, harg4.read_unread, harg5.read_unread,
    View.ld_unit_zero (S := S1x1x1x1) hz4, View.ld_unit_zero (S := S2x20x128x128) hz4]

/-- At the first point accumulator 1 is stored a zero, read back, and left at that zero plus this block's contribution. -/
theorem out_A_3 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) :
    out0_A_3 c i arg1 harg1 arg2 harg2 arg3 harg3 arg4 harg4 arg5 harg5 hc0 x0 x1 = k0_pay10 (k0_pay6 x1) (k0_pay3 (F := F)) := by
  unfold out0_A_3
  rw [View.read_writes_eq_canon _ _ _ (cover0_A_3 c i arg1 harg1 arg2 harg2 arg3 harg3 arg4 harg4 arg5 harg5 hc0 x0 x1)]
  unfold kernelRun0_A
  dsimp only
  sl_unfold_words
  rw [View.canon_cons_unit_zero (S := S1x1x1x1) hz4, View.readCov_unit_zero (S := S1x1x1x1) _ hz4]
  simp only [View.readAt_eq_ld, harg1.read_unread, harg2.read_unread, harg3.read_unread, harg4.read_unread, harg5.read_unread,
    View.ld_unit_zero (S := S1x1x1x1) hz4, View.ld_unit_zero (S := S2x20x128x128) hz4]

/-- At the first point accumulator 2 is stored a zero, read back, and left at that zero plus this block's contribution. -/
theorem out_A_4 (c : Dev nD) (i : grid0.Coords) (arg1 : Memref sig .tc .vmem S2x20x128x128 .f32) (harg1 : arg1.IsWhole) (arg2 : Memref sig .tc .vmem S2x20x128x128 .f32) (harg2 : arg2.IsWhole) (arg3 : Memref sig .tc .vmem S1x1x1x1 .f32) (harg3 : arg3.IsWhole) (arg4 : Memref sig .tc .vmem S1x1x1x1 .f32) (harg4 : arg4.IsWhole) (arg5 : Memref sig .tc .vmem S1x1x1x1 .f32) (harg5 : arg5.IsWhole) (hc0 : cond0_0 i)
    (x0 : Vec F S2x20x128x128 .f32) (x1 : Vec F S2x20x128x128 .f32) :
    out0_A_4 c i arg1 harg1 arg2 harg2 arg3 harg3 arg4 harg4 arg5 harg5 hc0 x0 x1 = k0_pay1 (k0_pay11 (k0_pay4 (F := F))) (k0_pay12 (k0_pay5 x0)) := by
  unfold out0_A_4
  rw [View.read_writes_eq_canon _ _ _ (cover0_A_4 c i arg1 harg1 arg2 harg2 arg3 harg3 arg4 harg4 arg5 harg5 hc0 x0 x1)]
  unfold kernelRun0_A
  dsimp only
  sl_unfold_words
  rw [View.canon_cons_unit_zero (S := S1x1x1x1) hz4, View.readCov_unit_zero (S := S1x1x1x1) _ hz4]
  simp only [View.readAt_eq_ld, harg1.read_unread, harg2.read_unread, harg3.read_unread, harg4.read_unread, harg5.read_unread,
    View.ld_unit_zero (S := S1x1x1x1) hz4, View.ld_unit_zero (S := S2x20x128x128) hz4]

end Cert.KernelIdeal.Hand

end
-- ==== Proof.LibTotalSum.lean ====
/-
  General facts about TOTAL SUMS of arrays over the extended reals, at the exact ("ideal") reading of the operations.

  * a reshape (`shapeCast`) re-indexes an array along a bijection of index sets, so it keeps the sum over all indices;
  * an additive `multi_reduction` over any set of axes replaces each fibre of the projection by its sum, so it keeps the
    sum over all indices;
  * an array whose shape has every axis of size one has one index, and its value there is its sum over all indices;
  * a finite sum of (coercions of) reals is the coercion of the real sum, so where every term is a real, sums may be
    regrouped, negated and re-indexed as real sums.

  Together: a chain of additive reductions and reshapes ending in a one-element array computes the total sum of what it
  started from, whatever the order of the axes and the intermediate shapes.
-/
import Idealize.ShloMosaic.PureOps.Ideal.Laws

noncomputable section

namespace Cert.LibTotalSum

open Idealize.ShloMosaic

variable {φ : FTy}

/-- A reshape keeps the sum over all indices. -/
theorem sum_shapeCast {s t : Shape} (x : s.Idx → EReal) (h : s.ShapeCasts t) :
    ∑ j : t.Idx, shapeCast t x h j = ∑ i : s.Idx, x i := by
  unfold shapeCast
  exact Equiv.sum_comp (Shape.reshapeEquiv h) x

/-- An additive reduction over any axes keeps the sum over all indices: the fibres of the projection partition the source's
    indices. -/
theorem sum_multiReduction_add {s t : Shape} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- A shape whose axes all have size one has one index. -/
theorem idx_eq_of_size_one {t : Shape} (ht : ∀ b, t.size b = 1) (i j : t.Idx) : i = j :=
  funext fun b => Fin.ext (by have := (i b).isLt; have := (j b).isLt; have := ht b; omega)

/-- The value of a one-element array at its index is its sum over all indices. -/
theorem eq_sum_of_size_one {t : Shape} (ht : ∀ b, t.size b = 1) (v : t.Idx → EReal) (j : t.Idx) :
    v j = ∑ i : t.Idx, v i := by
  rw [Finset.sum_eq_single j (fun i _ hne => absurd (idx_eq_of_size_one ht i j) hne)
    (fun h => absurd (Finset.mem_univ j) h)]

/-- The coercion of a finite real sum. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- Where every term is a real, the sum is the coercion of the sum of the terms' real values. -/
theorem sum_eq_coe_sum {ι : Type*} (s : Finset ι) (f : ι → EReal) (r : ι → ℝ) (h : ∀ i ∈ s, f i = (r i : EReal)) :
    ∑ i ∈ s, f i = ((∑ i ∈ s, r i : ℝ) : EReal) := by
  rw [coe_sum]; exact Finset.sum_congr rfl h

end Cert.LibTotalSum

end
-- ==== Proof.LossConsts.lean ====
/-
  The float literals the two programs spell, as the reals their bit patterns denote over the extended reals.
  The lower clamp bound f32(1e-4) is 13743895 / 2^37, the upper clamp bound f32(1 - 1e-4) is 16775538 / 2^24 (both strictly
  between 0 and 1), the threshold f32(0.3) is 10066330 / 2^25, and 0, 1 and 2 are themselves.  One module states them
  all, so that the unfolding of a bit pattern happens in one place.
-/
import Idealize.ShloMosaic.PureOps.Ideal

noncomputable section

namespace Cert.LossConsts

open Idealize.ShloMosaic

/-- The lower clamp bound, as a real. -/
def lo : ℝ := 13743895 / 137438953472
/-- The upper clamp bound, as a real. -/
def hi : ℝ := 16775538 / 16777216
/-- The threshold of the fallback count, as a real. -/
def thr : ℝ := 10066330 / 33554432

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_lo : Ideal.ofBits .f32 0x38D1B717#32 = ((lo : ℝ) : EReal) := by
  unfold lo; simp [Ideal.ofBits, Ideal.ieee, -EReal.coe_mul]; norm_num

theorem ofBits_hi : Ideal.ofBits .f32 0x3F7FF972#32 = ((hi : ℝ) : EReal) := by
  unfold hi; simp [Ideal.ofBits, Ideal.ieee, -EReal.coe_mul]; norm_num

theorem ofBits_thr : Ideal.ofBits .f32 0x3E99999A#32 = ((thr : ℝ) : EReal) := by
  unfold thr; simp [Ideal.ofBits, Ideal.ieee, -EReal.coe_mul]; norm_num

theorem lo_pos : 0 < lo := by unfold lo; norm_num
theorem hi_pos : 0 < hi := by unfold hi; norm_num
theorem hi_lt_one : hi < 1 := by unfold hi; norm_num
theorem lo_le_hi : lo ≤ hi := by unfold lo hi; norm_num

end Cert.LossConsts

end
-- ==== Proof.LossAlgebra.lean ====
/-
  The focal-loss term of one heatmap element over the extended reals, as each program spells it, and the two facts the
  comparison of the programs rests on.  With p the sigmoid clamped to [f32(1e-4), f32(1 - 1e-4)] and g the target, the
  reference computes (pos + (2 neg - 1) p)^2 (neg + (2 pos - 1) g)^4 log(neg + (2 pos - 1) p) with pos = [g = 1] and
  neg = [g < 1]; the kernel computes the same with 1 - pos in place of neg.  Where g ≤ 1 these are one number, case by
  case (g = 1 or g < 1).  And where g is a real at most 1 that number is a real: p lies strictly between 0 and 1, so
  the logarithm's argument (p itself, or 1 - p) is positive.
-/
import Idealize.ShloMosaic.PureOps.Ideal
import proofs.«165979_j56504589746323_1_alg».proof.Proof.LossConsts

noncomputable section

namespace Cert.LossAlgebra

open Cert.LossConsts Idealize.ShloMosaic

/-! ## Being a real number -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The logarithm of a positive real is a real. -/
theorem IsReal.log {x : EReal} {r : ℝ} (hx : x = (r : EReal)) (hr : 0 < r) : IsReal (Ideal.log x) := by
  subst hx; exact ⟨Real.log r, by rw [Ideal.log_coe, if_neg (not_le.mpr hr)]⟩
/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-! ## The elementwise terms -/

/-- 1 where the target equals one, else 0. -/
def pos (g : EReal) : EReal := if g = 1 then 1 else 0
/-- 1 where the target is below one, else 0. -/
def neg (g : EReal) : EReal := if g < 1 then 1 else 0
/-- The probability clamped between the two bounds. -/
def clampP (s : EReal) : EReal := min (hi : EReal) (max (lo : EReal) s)
/-- 1 where the clamped probability exceeds the threshold, else 0. -/
def fb (s : EReal) : EReal := if (thr : EReal) < clampP s then 1 else 0

/-- The focal term as the kernel spells it, with `1 - pos` where the reference has `neg`. -/
def termK (s g : EReal) : EReal :=
  ((pos g - (((2 : ℝ) : EReal) * pos g - 1) * clampP s) * (pos g - (((2 : ℝ) : EReal) * pos g - 1) * clampP s)
    * ((((1 - pos g) + (((2 : ℝ) : EReal) * pos g - 1) * g) * ((1 - pos g) + (((2 : ℝ) : EReal) * pos g - 1) * g))
      * (((1 - pos g) + (((2 : ℝ) : EReal) * pos g - 1) * g) * ((1 - pos g) + (((2 : ℝ) : EReal) * pos g - 1) * g))))
    * Ideal.log ((1 - pos g) + (((2 : ℝ) : EReal) * pos g - 1) * clampP s)

/-- The focal term as the reference spells it. -/
def termR (s g : EReal) : EReal :=
  ((pos g + (((2 : ℝ) : EReal) * neg g - 1) * clampP s) * (pos g + (((2 : ℝ) : EReal) * neg g - 1) * clampP s)
    * (((neg g + (((2 : ℝ) : EReal) * pos g - 1) * g) * (neg g + (((2 : ℝ) : EReal) * pos g - 1) * g))
      * ((neg g + (((2 : ℝ) : EReal) * pos g - 1) * g) * (neg g + (((2 : ℝ) : EReal) * pos g - 1) * g))))
    * Ideal.log (neg g + (((2 : ℝ) : EReal) * pos g - 1) * clampP s)

theorem two_mul_one_sub_one : ((2 : ℝ) : EReal) * 1 - 1 = 1 := by
  rw [← EReal.coe_one, ← EReal.coe_mul, ← EReal.coe_sub]; norm_num
theorem two_mul_zero_sub_one : ((2 : ℝ) : EReal) * 0 - 1 = -1 := by
  rw [mul_zero, zero_sub]
theorem one_sub_one' : (1 : EReal) - 1 = 0 := by
  rw [← EReal.coe_one, ← EReal.coe_sub]; norm_num
theorem one_sub_zero' : (1 : EReal) - 0 = 1 := sub_zero 1

/-- Where the target is at most one the two spellings agree: `neg = 1 - pos` there. -/
theorem termK_eq_termR (s g : EReal) (hg : g ≤ 1) : termK s g = termR s g := by
  rcases hg.eq_or_lt with rfl | h
  · have hp : pos 1 = 1 := if_pos rfl
    have hn : neg 1 = 0 := if_neg (lt_irrefl _)
    unfold termK termR
    rw [hp, hn, two_mul_one_sub_one, two_mul_zero_sub_one, one_sub_one']
    simp only [one_mul, neg_mul, sub_eq_add_neg]
  · have hp : pos g = 0 := if_neg (ne_of_lt h)
    have hn : neg g = 1 := if_pos h
    unfold termK termR
    rw [hp, hn, two_mul_one_sub_one, two_mul_zero_sub_one, one_sub_zero']
    simp only [one_mul, neg_mul, sub_eq_add_neg, neg_neg]

/-- The clamped probability is a real between the two bounds. -/
theorem clampP_real (s : EReal) : ∃ p : ℝ, clampP s = (p : EReal) ∧ lo ≤ p ∧ p ≤ hi := by
  have h1 : clampP s ≤ (hi : EReal) := min_le_left _ _
  have h2 : (lo : EReal) ≤ clampP s := le_min (EReal.coe_le_coe_iff.mpr lo_le_hi) (le_max_left _ _)
  have ht : clampP s ≠ ⊤ := ne_of_lt (lt_of_le_of_lt h1 (EReal.coe_lt_top hi))
  have hb : clampP s ≠ ⊥ := ne_of_gt (lt_of_lt_of_le (EReal.bot_lt_coe lo) h2)
  refine ⟨(clampP s).toReal, (EReal.coe_toReal ht hb).symm, ?_, ?_⟩
  · have := h2; rw [← EReal.coe_toReal ht hb] at this; exact EReal.coe_le_coe_iff.mp this
  · have := h1; rw [← EReal.coe_toReal ht hb] at this; exact EReal.coe_le_coe_iff.mp this

/-- For a real target at most one, the kernel's focal term is a real number: the clamped probability lies strictly
    between 0 and 1, so the logarithm's argument is positive. -/
theorem termK_real (s : EReal) (γ : ℝ) (hγ : γ ≤ 1) : IsReal (termK s (γ : EReal)) := by
  obtain ⟨p, hp, hlo, hhi⟩ := clampP_real s
  have hp0 : 0 < p := lt_of_lt_of_le lo_pos hlo
  have hp1 : p < 1 := lt_of_le_of_lt hhi hi_lt_one
  rcases hγ.eq_or_lt with rfl | h
  · have hpos : pos ((1 : ℝ) : EReal) = 1 := if_pos EReal.coe_one
    unfold termK
    rw [hpos, two_mul_one_sub_one, one_sub_one', hp]
    refine IsReal.mul (IsReal.mul ?_ ?_) (IsReal.log (r := 0 + 1 * p) (by push_cast; rfl) (by linarith))
    · exact (IsReal.one.sub (IsReal.one.mul (IsReal.coe p))).mul (IsReal.one.sub (IsReal.one.mul (IsReal.coe p)))
    · exact ((IsReal.zero.add (IsReal.one.mul (IsReal.coe 1))).mul (IsReal.zero.add (IsReal.one.mul (IsReal.coe 1)))).mul
        ((IsReal.zero.add (IsReal.one.mul (IsReal.coe 1))).mul (IsReal.zero.add (IsReal.one.mul (IsReal.coe 1))))
  · have hne : ((γ : ℝ) : EReal) ≠ 1 := by
      intro e; rw [← EReal.coe_one, EReal.coe_eq_coe_iff] at e; exact (ne_of_lt h) e
    have hpos : pos ((γ : ℝ) : EReal) = 0 := if_neg hne
    unfold termK
    rw [hpos, two_mul_zero_sub_one, one_sub_zero', hp]
    refine IsReal.mul (IsReal.mul ?_ ?_) (IsReal.log (r := 1 + (-1) * p) (by push_cast; rfl) (by linarith))
    · exact (IsReal.zero.sub (IsReal.one.neg.mul (IsReal.coe p))).mul (IsReal.zero.sub (IsReal.one.neg.mul (IsReal.coe p)))
    · exact ((IsReal.one.add (IsReal.one.neg.mul (IsReal.coe γ))).mul (IsReal.one.add (IsReal.one.neg.mul (IsReal.coe γ)))).mul
        ((IsReal.one.add (IsReal.one.neg.mul (IsReal.coe γ))).mul (IsReal.one.add (IsReal.one.neg.mul (IsReal.coe γ))))

/-- The indicator of a positive is a real. -/
theorem pos_real (g : EReal) : IsReal (pos g) := by unfold pos; split <;> [exact IsReal.one; exact IsReal.zero]
/-- The indicator of a probability above the threshold is a real. -/
theorem fb_real (s : EReal) : IsReal (fb s) := by unfold fb; split <;> [exact IsReal.one; exact IsReal.zero]

end Cert.LossAlgebra

end
-- ==== Proof.BlockTotals.lean ====
/-
  What one grid point adds to each of the three one-element accumulators, read over the extended reals.

  The kernel body handles a block of raw predictions x0 and a block of targets x1, both of shape 2 x 20 x 128 x 128.
  Elementwise it forms the probability s = logistic x0 clamped between the two bounds, the indicator pos of a target
  equal to one, the focal term termK s g, and the indicator fb of a clamped probability above the threshold.  Each of
  the three is then summed by the same chain: an additive reduction over the last axis, a reshape that keeps that axis
  with size one, and so on over axes 2, 1 and 0, down to an array with one element.  A reshape and an additive
  reduction both keep the sum over all indices, and the one element of the last array is its own total, so the chain
  computes the sum of the elementwise values over the whole block.  The loss accumulator receives 0 minus that sum, the
  other two receive the sum; the three initial stores are the zero word.
-/
import proofs.«165979_j56504589746323_1_alg».proof.Proof.Gen.KernelIdeal.Skeleton
import proofs.«165979_j56504589746323_1_alg».proof.Proof.LibTotalSum
import proofs.«165979_j56504589746323_1_alg».proof.Proof.LossAlgebra
import Idealize.ShloMosaic.PureOps.Ideal.Laws
import Idealize.ShloMosaic.Lib.ValueIdx

set_option maxRecDepth 16384

noncomputable section

namespace Cert.KernelIdeal.BlockTotals

open Cert.KernelIdeal Cert.KernelIdeal.Gen Cert.LossAlgebra Cert.LossConsts Cert.LibTotalSum Idealize.ShloMosaic

/-! ## A truth value as a float -/

/-- The bit of a truth value, zero-extended to a 32-bit word and read as a signed integer, is the number 1 or 0. -/
theorem bool_word (b : Bool) :
    ((((BitVec.ofBool b).setWidth 32).toInt : ℝ) : EReal) = if b = true then 1 else 0 := by
  cases b
  · simp
  · simp

/-! ## The elementwise values at an index of the block -/

/-- The clamped probability: the maximum with the lower bound, then the minimum with the upper bound. -/
theorem pay5_apply (x0 : Vec Ideal S2x20x128x128 .f32) (y : S2x20x128x128.Idx) :
    k0_pay5 (F := Ideal) x0 y = clampP (Ideal.logistic (x0 y)) := by
  show min (Ideal.ofBits .f32 0x3F7FF972#32) (max (Ideal.ofBits .f32 0x38D1B717#32) (Ideal.logistic (x0 y))) = _
  rw [ofBits_hi, ofBits_lo]
  rfl

/-- The indicator of a target equal to one: the comparison's bit, widened and read as an integer. -/
theorem pay6_apply (x1 : Vec Ideal S2x20x128x128 .f32) (y : S2x20x128x128.Idx) :
    k0_pay6 (F := Ideal) x1 y = pos (x1 y) := by
  show ((((BitVec.ofBool (decide (x1 y = Ideal.ofBits .f32 0x3F800000#32))).setWidth 32).toInt : ℝ) : EReal) = _
  rw [bool_word, ofBits_one]
  unfold pos
  by_cases h : x1 y = 1
  · simp [h]
  · simp [h]

/-- The focal term over its five inputs: the literals two and one, the clamped probability p, the indicator q and the
    target g.  At the numbers 2 and 1, the clamped probability and the indicator of the target it is termK. -/
def term5 (two one p q g : EReal) : EReal :=
  ((q - (two * q - one) * p) * (q - (two * q - one) * p)
    * ((((one - q) + (two * q - one) * g) * ((one - q) + (two * q - one) * g))
      * (((one - q) + (two * q - one) * g) * ((one - q) + (two * q - one) * g))))
    * Ideal.log ((one - q) + (two * q - one) * p)

theorem term5_eq (s g : EReal) : term5 ((2 : ℝ) : EReal) 1 (clampP s) (pos g) g = termK s g := rfl

/-- The elementwise product the loss chain sums is the focal term of the probability and the target. -/
theorem term_apply (x0 x1 : Vec Ideal S2x20x128x128 .f32) (y : S2x20x128x128.Idx) :
    term5 (Ideal.ofBits .f32 0x40000000#32) (Ideal.ofBits .f32 0x3F800000#32)
        (k0_pay5 (F := Ideal) x0 y) (k0_pay6 (F := Ideal) x1 y) (x1 y)
      = termK (Ideal.logistic (x0 y)) (x1 y) := by
  rw [pay5_apply, pay6_apply, ofBits_two, ofBits_one]
  exact term5_eq _ _

/-- The indicator of a clamped probability above the threshold: the comparison's bit, widened and read as an integer. -/
theorem fbterm_apply (x0 : Vec Ideal S2x20x128x128 .f32) (y : S2x20x128x128.Idx) :
    ((((BitVec.ofBool (decide (Ideal.ofBits .f32 0x3E99999A#32 < k0_pay5 (F := Ideal) x0 y))).setWidth 32).toInt : ℝ) : EReal)
      = fb (Ideal.logistic (x0 y)) := by
  rw [bool_word, ofBits_thr, pay5_apply]
  unfold fb
  by_cases h : ((thr : ℝ) : EReal) < clampP (Ideal.logistic (x0 y))
  · simp [h]
  · simp [h]

/-! ## The four steps of the chain: an additive reduction over one axis, then the reshape that keeps the axis -/

/-- Sum over axis 3, kept as an axis of size one. -/
def red3 (v : FVec Ideal S2x20x128x128 .f32) : FVec Ideal S2x20x128x1 .f32 :=
  shapeCast S2x20x128x1
    (multiReduction .add [3] S2x20x128 v 0x00000000#32 Gen.reduces_S2x20x128x128_S2x20x128 (.inl rfl) rfl)
    Gen.shapeCasts_S2x20x128_S2x20x128x1

/-- Sum over axis 2, kept as an axis of size one. -/
def red2 (v : FVec Ideal S2x20x128x1 .f32) : FVec Ideal S2x20x1x1 .f32 :=
  shapeCast S2x20x1x1
    (multiReduction .add [2] S2x20x1 v 0x00000000#32 Gen.reduces_S2x20x128x1_S2x20x1 (.inl rfl) rfl)
    Gen.shapeCasts_S2x20x1_S2x20x1x1

/-- Sum over axis 1, kept as an axis of size one. -/
def red1 (v : FVec Ideal S2x20x1x1 .f32) : FVec Ideal S2x1x1x1 .f32 :=
  shapeCast S2x1x1x1
    (multiReduction .add [1] S2x1x1 v 0x00000000#32 Gen.reduces_S2x20x1x1_S2x1x1 (.inl rfl) rfl)
    Gen.shapeCasts_S2x1x1_S2x1x1x1

/-- Sum over axis 0, kept as an axis of size one. -/
def red0 (v : FVec Ideal S2x1x1x1 .f32) : FVec Ideal S1x1x1x1 .f32 :=
  shapeCast S1x1x1x1
    (multiReduction .add [0] S1x1x1 v 0x00000000#32 Gen.reduces_S2x1x1x1_S1x1x1 (.inl rfl) rfl)
    Gen.shapeCasts_S1x1x1_S1x1x1x1

/-- Each step keeps the sum over all indices: the reshape re-indexes, the reduction sums fibre by fibre. -/
theorem sum_red3 (v : FVec Ideal S2x20x128x128 .f32) : ∑ i, red3 v i = ∑ y, v y :=
  (sum_shapeCast _ _).trans (sum_multiReduction_add v _ _ _ _)

theorem sum_red2 (v : FVec Ideal S2x20x128x1 .f32) : ∑ i, red2 v i = ∑ y, v y :=
  (sum_shapeCast _ _).trans (sum_multiReduction_add v _ _ _ _)

theorem sum_red1 (v : FVec Ideal S2x20x1x1 .f32) : ∑ i, red1 v i = ∑ y, v y :=
  (sum_shapeCast _ _).trans (sum_multiReduction_add v _ _ _ _)

theorem sum_red0 (v : FVec Ideal S2x1x1x1 .f32) : ∑ i, red0 v i = ∑ y, v y :=
  (sum_shapeCast _ _).trans (sum_multiReduction_add v _ _ _ _)

/-- Every axis of the one-element shape has size one. -/
theorem size_one : ∀ b, S1x1x1x1.size b = 1 := by decide

/-- The last step lands in the one-element shape, so its value there is the total of what it was given. -/
theorem red0_total (v : FVec Ideal S2x1x1x1 .f32) (o : S1x1x1x1.Idx) : red0 v o = ∑ i, v i :=
  (eq_sum_of_size_one size_one (red0 v) o).trans (sum_red0 v)

/-- The identity reshape of a one-element array reads the array. -/
theorem cast_self_apply (acc : Vec Ideal S1x1x1x1 .f32) (o : S1x1x1x1.Idx) :
    shapeCast S1x1x1x1 acc Gen.shapeCasts_S1x1x1x1_S1x1x1x1 o = acc o :=
  congrArg acc (idx_eq_of_size_one size_one _ _)

/-! ## The payloads as chains of these steps (definitional unfolding) -/

theorem pay8_eq (x0 x1 : Vec Ideal S2x20x128x128 .f32) :
    k0_pay8 (F := Ideal) x0 x1
      = red3 (fun y => term5 (Ideal.ofBits .f32 0x40000000#32) (Ideal.ofBits .f32 0x3F800000#32)
          (k0_pay5 (F := Ideal) x0 y) (k0_pay6 (F := Ideal) x1 y) (x1 y)) := rfl

theorem pay9_eq (a : FVec Ideal S1x1x1x1 .f32) (b : FVec Ideal S2x20x128x1 .f32) (o : S1x1x1x1.Idx) :
    k0_pay9 (F := Ideal) a b o = (a o : EReal) + (Ideal.ofBits .f32 0x00000000#32 - red0 (red1 (red2 b)) o) := rfl

theorem pay10_eq (v13 : FVec Ideal S2x20x128x128 .f32) (acc : Vec Ideal S1x1x1x1 .f32) (o : S1x1x1x1.Idx) :
    k0_pay10 (F := Ideal) v13 acc o
      = (shapeCast S1x1x1x1 acc Gen.shapeCasts_S1x1x1x1_S1x1x1x1 o : EReal) + red0 (red1 (red2 (red3 v13))) o := rfl

theorem pay12_eq (v9 : FVec Ideal S2x20x128x128 .f32) :
    k0_pay12 (F := Ideal) v9
      = red2 (red3 (fun y =>
          ((((BitVec.ofBool (decide (Ideal.ofBits .f32 0x3E99999A#32 < v9 y))).setWidth 32).toInt : ℝ) : EReal))) := rfl

theorem pay1_eq (a : FVec Ideal S1x1x1x1 .f32) (b : FVec Ideal S2x20x1x1 .f32) (o : S1x1x1x1.Idx) :
    k0_pay1 (F := Ideal) a b o = (a o : EReal) + red0 (red1 b) o := rfl

/-! ## What one grid point adds to each accumulator -/

/-- The loss accumulator receives 0 minus the block's total of the focal term. -/
theorem pay_loss (acc : Vec Ideal S1x1x1x1 .f32) (x0 x1 : Vec Ideal S2x20x128x128 .f32) (o : S1x1x1x1.Idx) :
    k0_pay9 (F := Ideal) (k0_pay7 acc) (k0_pay8 x0 x1) o
      = (acc o : EReal) + (0 - ∑ y : S2x20x128x128.Idx, termK (Ideal.logistic (x0 y)) (x1 y)) := by
  have h7 : k0_pay7 (F := Ideal) acc o = acc o := cast_self_apply acc o
  have hsum : red0 (red1 (red2 (k0_pay8 (F := Ideal) x0 x1))) o
      = ∑ y : S2x20x128x128.Idx, termK (Ideal.logistic (x0 y)) (x1 y) := by
    rw [red0_total, sum_red1, sum_red2, pay8_eq, sum_red3]
    exact Finset.sum_congr rfl fun y _ => term_apply x0 x1 y
  rw [pay9_eq, h7, hsum, ofBits_zero]

/-- The positives' accumulator receives the block's count of targets equal to one. -/
theorem pay_pos (acc : Vec Ideal S1x1x1x1 .f32) (x1 : Vec Ideal S2x20x128x128 .f32) (o : S1x1x1x1.Idx) :
    k0_pay10 (F := Ideal) (k0_pay6 x1) acc o = (acc o : EReal) + ∑ y : S2x20x128x128.Idx, pos (x1 y) := by
  rw [pay10_eq, cast_self_apply, red0_total, sum_red1, sum_red2, sum_red3]
  exact congrArg _ (Finset.sum_congr rfl fun y _ => pay6_apply x1 y)

/-- The fallback accumulator receives the block's count of clamped probabilities above the threshold. -/
theorem pay_fb (acc : Vec Ideal S1x1x1x1 .f32) (x0 : Vec Ideal S2x20x128x128 .f32) (o : S1x1x1x1.Idx) :
    k0_pay1 (F := Ideal) (k0_pay11 acc) (k0_pay12 (k0_pay5 x0)) o
      = (acc o : EReal) + ∑ y : S2x20x128x128.Idx, fb (Ideal.logistic (x0 y)) := by
  have h11 : k0_pay11 (F := Ideal) acc o = acc o := cast_self_apply acc o
  rw [pay1_eq, h11, pay12_eq, red0_total, sum_red1, sum_red2, sum_red3]
  exact congrArg _ (Finset.sum_congr rfl fun y _ => fbterm_apply x0 y)

/-- The three initial stores are the number zero. -/
theorem pay_zero2 (o : S1x1x1x1.Idx) : k0_pay2 (F := Ideal) o = (0 : EReal) := by
  show Ideal.ofBits .f32 0x00000000#32 = 0
  exact ofBits_zero

theorem pay_zero3 (o : S1x1x1x1.Idx) : k0_pay3 (F := Ideal) o = (0 : EReal) := by
  show Ideal.ofBits .f32 0x00000000#32 = 0
  exact ofBits_zero

theorem pay_zero4 (o : S1x1x1x1.Idx) : k0_pay4 (F := Ideal) o = (0 : EReal) := by
  show Ideal.ofBits .f32 0x00000000#32 = 0
  exact ofBits_zero

end Cert.KernelIdeal.BlockTotals

end
-- ==== Proof.Accumulate.lean ====
/-
  The three accumulators after every grid point, as sums of the points' contributions.
  Point t contributes the negated sum of the focal terms of its block, the number of positives of its block, and the
  number of clamped probabilities of its block above the threshold.  The first point stores zero and adds its
  contribution; every later point adds its contribution to what the point before left.  By induction on the point, the
  accumulators after point n hold the sums of the contributions of points 0 … n; after the last point, of all 64.
-/
import proofs.«165979_j56504589746323_1_alg».proof.Proof.IdealPieces
import proofs.«165979_j56504589746323_1_alg».proof.Proof.IdealFinal
import proofs.«165979_j56504589746323_1_alg».proof.Proof.BlockTotals

set_option maxRecDepth 16384

noncomputable section

namespace Cert.KernelIdeal.Hand

open Cert.KernelIdeal Cert.KernelIdeal.Gen Cert.KernelIdeal.BlockTotals Cert.LossAlgebra
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- The block of raw predictions and the block of targets at point t. -/
abbrev predBlk (c : Dev nD) (t : Fin cfg0.N) : Vec Ideal S2x20x128x128 .f32 := iblk m c 0 t
abbrev tgtBlk (c : Dev nD) (t : Fin cfg0.N) : Vec Ideal S2x20x128x128 .f32 := iblk m c 1 t

/-- Point t's contribution to the loss accumulator: the negated sum of its block's focal terms. -/
def lossAt (c : Dev nD) (t : Fin cfg0.N) : EReal :=
  0 - ∑ y : S2x20x128x128.Idx, termK (Ideal.logistic (predBlk m c t y)) (tgtBlk m c t y)
/-- Point t's contribution to the count of positives. -/
def posAt (c : Dev nD) (t : Fin cfg0.N) : EReal := ∑ y : S2x20x128x128.Idx, pos (tgtBlk m c t y)
/-- Point t's contribution to the count of clamped probabilities above the threshold. -/
def fbAt (c : Dev nD) (t : Fin cfg0.N) : EReal := ∑ y : S2x20x128x128.Idx, fb (Ideal.logistic (predBlk m c t y))

/-- The first point leaves zero plus its contribution in each accumulator. -/
theorem outs_first (c : Dev nD) (t : Fin cfg0.N) (h0 : t.val % 64 = 0) (o : S1x1x1x1.Idx) :
    ((outsAt0 m c t.val t.isLt).1 o : EReal) = 0 + lossAt m c t
    ∧ ((outsAt0 m c t.val t.isLt).2.1 o : EReal) = 0 + posAt m c t
    ∧ ((outsAt0 m c t.val t.isLt).2.2 o : EReal) = 0 + fbAt m c t := by
  have e := outsAt0_A m c t h0
  have e1 : (outsAt0 m c t.val t.isLt).1 = out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) := congrArg Prod.fst e
  have e2 : (outsAt0 m c t.val t.isLt).2.1 = out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) := congrArg (fun p => p.2.1) e
  have e3 : (outsAt0 m c t.val t.isLt).2.2 = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) := congrArg (fun p => p.2.2) e
  refine ⟨?_, ?_, ?_⟩
  · rw [e1, out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)]
    exact (pay_loss (k0_pay2 (F := Ideal)) (iblk m c 0 t) (iblk m c 1 t) o).trans (by rw [pay_zero2]; rfl)
  · rw [e2, out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)]
    exact (pay_pos (k0_pay3 (F := Ideal)) (iblk m c 1 t) o).trans (by rw [pay_zero3]; rfl)
  · rw [e3, out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)]
    exact (pay_fb (k0_pay4 (F := Ideal)) (iblk m c 0 t) o).trans (by rw [pay_zero4]; rfl)

/-- A later point adds its contribution to what the point before left. -/
theorem outs_later (c : Dev nD) (t : Fin cfg0.N) (h0 : ¬t.val % 64 = 0) (o : S1x1x1x1.Idx) :
    ((outsAt0 m c t.val t.isLt).1 o : EReal) = ((outsAt0 m c (t.val - 1) (Nat.lt_of_le_of_lt (Nat.sub_le _ _) t.isLt)).1 o : EReal) + lossAt m c t
    ∧ ((outsAt0 m c t.val t.isLt).2.1 o : EReal) = ((outsAt0 m c (t.val - 1) (Nat.lt_of_le_of_lt (Nat.sub_le _ _) t.isLt)).2.1 o : EReal) + posAt m c t
    ∧ ((outsAt0 m c t.val t.isLt).2.2 o : EReal) = ((outsAt0 m c (t.val - 1) (Nat.lt_of_le_of_lt (Nat.sub_le _ _) t.isLt)).2.2 o : EReal) + fbAt m c t := by
  have e := outsAt0_B m c t h0
  have e1 : (outsAt0 m c t.val t.isLt).1 = out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 := congrArg Prod.fst e
  have e2 : (outsAt0 m c t.val t.isLt).2.1 = out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 := congrArg (fun p => p.2.1) e
  have e3 : (outsAt0 m c t.val t.isLt).2.2 = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 := congrArg (fun p => p.2.2) e
  refine ⟨?_, ?_, ?_⟩
  · rw [e1, out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]
    exact pay_loss (outsAt0 m c (t.val - 1) (Nat.lt_of_le_of_lt (Nat.sub_le _ _) t.isLt)).1 (iblk m c 0 t) (iblk m c 1 t) o
  · rw [e2, out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]
    exact pay_pos (outsAt0 m c (t.val - 1) (Nat.lt_of_le_of_lt (Nat.sub_le _ _) t.isLt)).2.1 (iblk m c 1 t) o
  · rw [e3, out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]
    exact pay_fb (outsAt0 m c (t.val - 1) (Nat.lt_of_le_of_lt (Nat.sub_le _ _) t.isLt)).2.2 (iblk m c 0 t) o

/-- The contributions by position, zero past the grid. -/
def lossN (c : Dev nD) (k : ℕ) : EReal := if h : k < cfg0.N then lossAt m c ⟨k, h⟩ else 0
def posN (c : Dev nD) (k : ℕ) : EReal := if h : k < cfg0.N then posAt m c ⟨k, h⟩ else 0
def fbN (c : Dev nD) (k : ℕ) : EReal := if h : k < cfg0.N then fbAt m c ⟨k, h⟩ else 0

/-- After point n each accumulator holds the sum of the contributions of points 0 … n. -/
theorem outsAt_sum (c : Dev nD) : ∀ (n : ℕ) (h : n < cfg0.N) (o : S1x1x1x1.Idx),
    ((outsAt0 m c n h).1 o : EReal) = ∑ k ∈ Finset.range (n + 1), lossN m c k
    ∧ ((outsAt0 m c n h).2.1 o : EReal) = ∑ k ∈ Finset.range (n + 1), posN m c k
    ∧ ((outsAt0 m c n h).2.2 o : EReal) = ∑ k ∈ Finset.range (n + 1), fbN m c k
  | 0, h, o => by
    obtain ⟨l1, l2, l3⟩ := outs_first m c ⟨0, h⟩ rfl o
    refine ⟨?_, ?_, ?_⟩
    · rw [Finset.sum_range_one]; unfold lossN; rw [dif_pos h]; exact l1.trans (zero_add _)
    · rw [Finset.sum_range_one]; unfold posN; rw [dif_pos h]; exact l2.trans (zero_add _)
    · rw [Finset.sum_range_one]; unfold fbN; rw [dif_pos h]; exact l3.trans (zero_add _)
  | n + 1, h, o => by
    have hN : cfg0.N = 64 := N_0
    have hB : ¬(⟨n + 1, h⟩ : Fin cfg0.N).val % 64 = 0 := by dsimp only; omega
    obtain ⟨l1, l2, l3⟩ := outs_later m c ⟨n + 1, h⟩ hB o
    obtain ⟨i1, i2, i3⟩ := outsAt_sum c n (Nat.lt_of_succ_lt h) o
    refine ⟨?_, ?_, ?_⟩
    · rw [Finset.sum_range_succ, ← i1]; unfold lossN; rw [dif_pos h]; exact l1
    · rw [Finset.sum_range_succ, ← i2]; unfold posN; rw [dif_pos h]; exact l2
    · rw [Finset.sum_range_succ, ← i3]; unfold fbN; rw [dif_pos h]; exact l3

/-- The sum of the contributions by position over the 64 positions is the sum over the grid's points. -/
theorem sum_range_eq (f : Fin cfg0.N → EReal) :
    ∑ k ∈ Finset.range (63 + 1), (if h : k < cfg0.N then f ⟨k, h⟩ else 0) = ∑ t : Fin cfg0.N, f t := by
  have hN : cfg0.N = 64 := N_0
  rw [show (63 + 1 : ℕ) = cfg0.N from hN.symm, ← Fin.sum_univ_eq_sum_range (fun k => if h : k < cfg0.N then f ⟨k, h⟩ else 0) cfg0.N]
  exact Finset.sum_congr rfl fun t _ => by rw [dif_pos t.isLt]

/-- When the region ends, the loss accumulator holds the sum over the points of their negated block sums, -/
theorem acc0_eq (c : Dev nD) (o : S1x1x1x1.Idx) : (acc0 m c o : EReal) = ∑ t : Fin cfg0.N, lossAt m c t :=
  (congrFun (acc0_outs m c) o).trans (((outsAt_sum m c tLast.val tLast.isLt o).1).trans (sum_range_eq (lossAt m c)))
/-- the positives' accumulator the sum of the blocks' counts of positives, -/
theorem acc1_eq (c : Dev nD) (o : S1x1x1x1.Idx) : (acc1 m c o : EReal) = ∑ t : Fin cfg0.N, posAt m c t :=
  (congrFun (acc1_outs m c) o).trans (((outsAt_sum m c tLast.val tLast.isLt o).2.1).trans (sum_range_eq (posAt m c)))
/-- and the third accumulator the sum of the blocks' counts above the threshold. -/
theorem acc2_eq (c : Dev nD) (o : S1x1x1x1.Idx) : (acc2 m c o : EReal) = ∑ t : Fin cfg0.N, fbAt m c t :=
  (congrFun (acc2_outs m c) o).trans (((outsAt_sum m c tLast.val tLast.isLt o).2.2).trans (sum_range_eq (fbAt m c)))

end Cert.KernelIdeal.Hand

end
-- ==== Proof.BlockCover.lean ====
/-
  The 64 blocks tile the array.  Both input windows stage a [128, 20, 128, 128] array in blocks of shape
  [2, 20, 128, 128] with index map t ↦ (t, 0, 0, 0): the block at grid point t is rows 2t and 2t + 1 of the first axis and
  everything of the other three.  Element y of that block sits at array index (2t + y₀, y₁, y₂, y₃); as t runs over the
  64 points and y over the block's indices, that index runs over every array index exactly once (the inverse sends j to
  the point j₀ / 2 and the block index (j₀ mod 2, j₁, j₂, j₃)).  Hence a sum over the points of sums over a block is the
  sum over the array.
-/
import proofs.«165979_j56504589746323_1_alg».proof.Proof.IdealRuns
import Idealize.ShloMosaic.Lib.Pipeline.Value
import Idealize.ShloMosaic.Lib.ValueIdx

set_option maxRecDepth 16384

noncomputable section

namespace Cert.KernelIdeal.BlockCover

open Cert.KernelIdeal Cert.KernelIdeal.Gen Cert.KernelIdeal.Hand
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-! ## Where a block's element sits in the array -/

/-- The array index of element `y` of the block at point `t` (through window 0's rectangle; window 1's is the same
    function of `t` and `y`: `emb1_eq`). -/
def E (t : Fin cfg0.N) (y : S2x20x128x128.Idx) : S128x20x128x128.Idx := ((cfg0.win 0).blk t).view.emb y

/-- The two index maps, decided over the 64 points: block index `(t, 0, 0, 0)` for both windows. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- On the first axis the block at point `t` starts at row `2 t`. -/
theorem E_val0 (t : Fin cfg0.N) (y : S2x20x128x128.Idx) : ((E t y) 0).val = 2 * t.val + (y 0).val := by
  obtain ⟨e0, -⟩ := idx_facts t
  show win0_0.index t (0 : Fin 4) * 2 + 1 * (y 0).val = _
  omega

/-- On the other axes the block is the whole axis: the coordinate is kept. -/
theorem E_val1 (t : Fin cfg0.N) (y : S2x20x128x128.Idx) : ((E t y) 1).val = (y 1).val := by
  obtain ⟨-, e1, -⟩ := idx_facts t
  show win0_0.index t (1 : Fin 4) * 20 + 1 * (y 1).val = _
  omega

theorem E_val2 (t : Fin cfg0.N) (y : S2x20x128x128.Idx) : ((E t y) 2).val = (y 2).val := by
  obtain ⟨-, -, e2, -⟩ := idx_facts t
  show win0_0.index t (2 : Fin 4) * 128 + 1 * (y 2).val = _
  omega

theorem E_val3 (t : Fin cfg0.N) (y : S2x20x128x128.Idx) : ((E t y) 3).val = (y 3).val := by
  obtain ⟨-, -, -, e3, -⟩ := idx_facts t
  show win0_0.index t (3 : Fin 4) * 128 + 1 * (y 3).val = _
  omega

/-- Window 1's block at point `t` sits in its array where window 0's does in its own. -/
theorem emb1_eq (t : Fin cfg0.N) (y : S2x20x128x128.Idx) : ((cfg0.win 1).blk t).view.emb y = E t y := by
  obtain ⟨e0, e1, e2, e3, f0, f1, f2, f3⟩ := idx_facts t
  funext a; apply Fin.ext
  match a with
  | ⟨0, _⟩ => show win0_1.index t (0 : Fin 4) * 2 + 1 * (y 0).val = win0_0.index t (0 : Fin 4) * 2 + 1 * (y 0).val; omega
  | ⟨1, _⟩ => show win0_1.index t (1 : Fin 4) * 20 + 1 * (y 1).val = win0_0.index t (1 : Fin 4) * 20 + 1 * (y 1).val; omega
  | ⟨2, _⟩ => show win0_1.index t (2 : Fin 4) * 128 + 1 * (y 2).val = win0_0.index t (2 : Fin 4) * 128 + 1 * (y 2).val; omega
  | ⟨3, _⟩ => show win0_1.index t (3 : Fin 4) * 128 + 1 * (y 3).val = win0_0.index t (3 : Fin 4) * 128 + 1 * (y 3).val; omega

/-- Window 0's block at point `t` reads the first argument array at `E t`. -/
theorem iblk0_apply (c : Dev nD) (t : Fin cfg0.N) (y : S2x20x128x128.Idx) :
    iblk m c 0 t y = m ((c.tc : Thread nD τ).loc main_arg0) (E t y) := rfl

/-- Window 1's block at point `t` reads the second argument array at `E t`. -/
theorem iblk1_apply (c : Dev nD) (t : Fin cfg0.N) (y : S2x20x128x128.Idx) :
    iblk m c 1 t y = m ((c.tc : Thread nD τ).loc main_arg1) (E t y) :=
  (show iblk m c 1 t y = m ((c.tc : Thread nD τ).loc main_arg1) (((cfg0.win 1).blk t).view.emb y) from rfl).trans
    (congrArg (m ((c.tc : Thread nD τ).loc main_arg1)) (emb1_eq t y))

/-! ## The blocks tile the array -/

/-- The point whose block holds array index `j`: half its row. -/
def tOf (j : S128x20x128x128.Idx) : Fin cfg0.N := ⟨(j 0).val / 2, by
  have h : (j 0).val < 128 := (j 0).isLt
  show (j 0).val / 2 < grid0.N
  rw [N_0]; omega⟩

/-- The place of array index `j` within that block: the row's parity, and the other three coordinates. -/
def yOf (j : S128x20x128x128.Idx) : S2x20x128x128.Idx := fun a =>
  match a with
  | ⟨0, _⟩ => ⟨(j 0).val % 2, Nat.mod_lt _ (by decide)⟩
  | ⟨1, _⟩ => ⟨(j 1).val, (j 1).isLt⟩
  | ⟨2, _⟩ => ⟨(j 2).val, (j 2).isLt⟩
  | ⟨3, _⟩ => ⟨(j 3).val, (j 3).isLt⟩

/-- `(t, y) ↦ E t y` is a bijection from points × block indices onto the array's indices. -/
def blockEquiv : Fin cfg0.N × S2x20x128x128.Idx ≃ S128x20x128x128.Idx where
  toFun p := E p.1 p.2
  invFun j := (tOf j, yOf j)
  left_inv := by
    rintro ⟨t, y⟩
    have h0 := E_val0 t y
    have h1 := E_val1 t y
    have h2 := E_val2 t y
    have h3 := E_val3 t y
    have hy : (y 0).val < 2 := (y 0).isLt
    refine Prod.ext (Fin.ext ?_) (funext fun a => Fin.ext ?_)
    · show ((E t y) 0).val / 2 = t.val
      omega
    · match a with
      | ⟨0, _⟩ => show ((E t y) 0).val % 2 = (y 0).val; omega
      | ⟨1, _⟩ => exact h1
      | ⟨2, _⟩ => exact h2
      | ⟨3, _⟩ => exact h3
  right_inv := by
    intro j
    funext a; apply Fin.ext
    match a with
    | ⟨0, _⟩ =>
      show ((E (tOf j) (yOf j)) 0).val = (j 0).val
      rw [E_val0]
      show 2 * ((j 0).val / 2) + (j 0).val % 2 = (j 0).val
      omega
    | ⟨1, _⟩ => show ((E (tOf j) (yOf j)) 1).val = (j 1).val; rw [E_val1]; rfl
    | ⟨2, _⟩ => show ((E (tOf j) (yOf j)) 2).val = (j 2).val; rw [E_val2]; rfl
    | ⟨3, _⟩ => show ((E (tOf j) (yOf j)) 3).val = (j 3).val; rw [E_val3]; rfl

/-- A sum over the points of sums over a block is the sum over the array. -/
theorem sum_blocks {M : Type*} [AddCommMonoid M] (g : S128x20x128x128.Idx → M) :
    ∑ t : Fin cfg0.N, ∑ y : S2x20x128x128.Idx, g (E t y) = ∑ j : S128x20x128x128.Idx, g j :=
  calc ∑ t : Fin cfg0.N, ∑ y : S2x20x128x128.Idx, g (E t y)
      = ∑ p : Fin cfg0.N × S2x20x128x128.Idx, g (E p.1 p.2) :=
        (Fintype.sum_prod_type' (fun t y => g (E t y))).symm
    _ = ∑ j : S128x20x128x128.Idx, g j := Fintype.sum_equiv blockEquiv _ _ (fun _ => rfl)

end Cert.KernelIdeal.BlockCover

end
-- ==== Proof.HmBridge.lean ====
/-
  From the accumulators to whole-array sums.  The 64 blocks tile the two heatmap arrays, so the sum over the points of a
  block sum is the sum over the array.  For the two counts this is a regrouping of one finite sum.  For the loss the
  kernel negates each block's sum before adding; where every target is a real number at most one every focal term is a
  real number, so the sum of the negated block sums is the negated total sum, and there the kernel's spelling of the
  focal term is the reference's.
-/
import proofs.«165979_j56504589746323_1_alg».proof.Proof.Accumulate
import proofs.«165979_j56504589746323_1_alg».proof.Proof.BlockCover

set_option maxRecDepth 16384

noncomputable section

namespace Cert.KernelIdeal.Hand

open Cert.KernelIdeal Cert.KernelIdeal.Gen Cert.KernelIdeal.BlockCover Cert.LossAlgebra Cert.LibTotalSum
open Idealize.ShloMosaic Idealize.ShloMosaic.TcCoe
open Idealize.SL Idealize.SL.Sem

variable (m : (ℓ : Loc nD τ sig) → Buf (Elt Ideal) ℓ)

/-- The raw predictions and the targets, as arrays of extended reals. -/
abbrev hmPred (c : Dev nD) : S128x20x128x128.Idx → EReal := m ((c.tc : Thread nD τ).loc main_arg0)
abbrev hmTgt (c : Dev nD) : S128x20x128x128.Idx → EReal := m ((c.tc : Thread nD τ).loc main_arg1)

/-- The blocks' counts of positives add up to the array's. -/
theorem pos_total (c : Dev nD) : ∑ t : Fin cfg0.N, posAt m c t = ∑ j : S128x20x128x128.Idx, pos (hmTgt m c j) := by
  unfold posAt
  simp only [tgtBlk, iblk1_apply]
  exact sum_blocks (fun j => pos (hmTgt m c j))

/-- The blocks' counts above the threshold add up to the array's. -/
theorem fb_total (c : Dev nD) :
    ∑ t : Fin cfg0.N, fbAt m c t = ∑ j : S128x20x128x128.Idx, fb (Ideal.logistic (hmPred m c j)) := by
  unfold fbAt
  simp only [predBlk, iblk0_apply]
  exact sum_blocks (fun j => fb (Ideal.logistic (hmPred m c j)))

/-- Where every target is a real number at most one, the sum of the negated block sums is the negated sum, over the
    whole array, of the focal terms as the reference spells them. -/
theorem loss_total (c : Dev nD) (hreal : ∀ j, ∃ γ : ℝ, hmTgt m c j = (γ : EReal) ∧ γ ≤ 1) :
    ∑ t : Fin cfg0.N, lossAt m c t
      = -(∑ j : S128x20x128x128.Idx, termR (Ideal.logistic (hmPred m c j)) (hmTgt m c j)) := by
  have hterm : ∀ j, ∃ r : ℝ, termK (Ideal.logistic (hmPred m c j)) (hmTgt m c j) = (r : EReal) := fun j => by
    obtain ⟨γ, hγ, hle⟩ := hreal j
    rw [hγ]; exact termK_real _ γ hle
  choose r hr using hterm
  have hl : ∀ t : Fin cfg0.N, lossAt m c t = ((-(∑ y : S2x20x128x128.Idx, r (E t y)) : ℝ) : EReal) := fun t => by
    unfold lossAt
    simp only [predBlk, tgtBlk, iblk0_apply, iblk1_apply]
    rw [sum_eq_coe_sum Finset.univ _ (fun y => r (E t y)) (fun y _ => hr (E t y)), zero_sub, ← EReal.coe_neg]
  have hR : ∑ j : S128x20x128x128.Idx, termR (Ideal.logistic (hmPred m c j)) (hmTgt m c j) = ((∑ j, r j : ℝ) : EReal) := by
    rw [coe_sum]
    refine Finset.sum_congr rfl fun j _ => ?_
    obtain ⟨γ, hγ, hle⟩ := hreal j
    rw [← hr j]
    refine (termK_eq_termR _ _ ?_).symm
    rw [hγ, ← EReal.coe_one]; exact EReal.coe_le_coe_iff.mpr hle
  rw [sum_eq_coe_sum Finset.univ _ _ (fun t _ => hl t), hR, ← EReal.coe_neg]
  congr 1
  rw [Finset.sum_neg_distrib, sum_blocks r]

end Cert.KernelIdeal.Hand

end
-- ==== Proof.RefTotals.lean ====
/-
  The reference's heatmap loss, read as plain sums over the extended reals.

  Elementwise, the reference computes from a raw prediction x and a target g: the sigmoid s = 1 / (1 + exp (-x)),
  the clamped probability p = min hi (max lo s), the indicators pos = [g = 1] and neg = [g < 1], the focal term
  (pos + (2 neg - 1) p)^2 (neg + (2 pos - 1) g)^4 log (neg + (2 pos - 1) p), and the indicator [thr < p].  Its three
  whole-array sums are then 0 plus the sum over every index of the focal term (negated), of pos, and of that last
  indicator; the heatmap loss is the negated focal sum divided by the positive count, or, where that count is 0, by
  the larger of the indicator count and 1.

  The second part reads the precondition on the inputs at the targets: each target is a real number at most one.
-/
import proofs.«165979_j56504589746323_1_alg».proof.Proof.RefRead
import proofs.«165979_j56504589746323_1_alg».proof.Proof.LossAlgebra
import proofs.«165979_j56504589746323_1_alg».proof.Proof.Gen.Pre_finite_inputs
import Idealize.ShloMosaic.PureOps.Ideal.Laws
import Idealize.ShloMosaic.Lib.ReduceAll

set_option maxRecDepth 16384

noncomputable section

namespace Cert.ReferenceIdeal.RefTotals

open Cert.ReferenceIdeal Cert.ReferenceIdeal.ReadP Cert.LossAlgebra Cert.LossConsts Idealize.ShloMosaic

/-! ## A truth value read as a number -/

/-- The unsigned read of a one-bit truth value is 1 where it holds and 0 where it does not. -/
theorem uitofp_ofBool (c : Prop) [Decidable c] :
    FloatOps.uitofp (F := Ideal) .f32 (BitVec.ofBool (decide c)) = if c then (1 : EReal) else 0 := by
  show ((((BitVec.ofBool (decide c)).toNat : ℕ) : ℝ) : EReal) = _
  by_cases h : c <;> simp [h]

/-- Equality, compared and read as a number. -/
theorem uitofp_cmp_oeq (a b : EReal) :
    FloatOps.uitofp (F := Ideal) .f32 (Ideal.cmp .oeq a b) = if a = b then (1 : EReal) else 0 :=
  uitofp_ofBool (a = b)

/-- "Less than", compared and read as a number. -/
theorem uitofp_cmp_olt (a b : EReal) :
    FloatOps.uitofp (F := Ideal) .f32 (Ideal.cmp .olt a b) = if a < b then (1 : EReal) else 0 :=
  uitofp_ofBool (a < b)

/-- "Greater than", compared and read as a number. -/
theorem uitofp_cmp_ogt (a b : EReal) :
    FloatOps.uitofp (F := Ideal) .f32 (Ideal.cmp .ogt a b) = if b < a then (1 : EReal) else 0 :=
  uitofp_ofBool (b < a)

/-! ## The elementwise values -/

/-- The sigmoid, spelt negate, exponential, one plus, one over. -/
theorem sigmoid_apply (x0 : (⟨S128x20x128x128, .f32⟩ : BufTy).Contents (Elt Ideal)) (j : S128x20x128x128.Idx) :
    val_main_v5 (F := Ideal) x0 j = Ideal.logistic (x0 j) := by
  rw [val_main_v5_apply, val_main_v4_apply, val_main_cst_0_apply, val_main_v3_apply, val_main_v2_apply,
    val_main_cst_apply, val_main_v1_apply, val_main_v0_apply]
  simp only [Ideal.ofBits_def, Ideal.hostDivf_def, Ideal.addf_def, Ideal.hostUnary_exp_def, Ideal.hostNegf_def,
    Ideal.negf_def, ofBits_one]
  rfl

/-- The clip: the larger of the lower bound and the sigmoid, then the smaller of the upper bound and that. -/
theorem clamp_apply (x0 : (⟨S128x20x128x128, .f32⟩ : BufTy).Contents (Elt Ideal)) (j : S128x20x128x128.Idx) :
    val_main_v6 (F := Ideal) x0 j = clampP (Ideal.logistic (x0 j)) := by
  rw [val_main_v6_apply, val_main_call0_v4_apply, val_main_call0_v3_apply, val_main_cst_2_apply,
    val_main_call0_v2_apply, val_main_call0_v1_apply, val_main_call0_v0_apply, val_main_cst_1_apply, sigmoid_apply]
  simp only [Ideal.ofBits_def, Ideal.minimumf_def, Ideal.maximumf_def, ofBits_lo, ofBits_hi]
  rfl

/-- The indicator of a target equal to one. -/
theorem pos_apply (x1 : (⟨S128x20x128x128, .f32⟩ : BufTy).Contents (Elt Ideal)) (j : S128x20x128x128.Idx) :
    val_main_v9 (F := Ideal) x1 j = pos (x1 j) := by
  rw [val_main_v9_apply, val_main_v8_apply, val_main_v7_apply, val_main_cst_3_apply]
  simp only [Ideal.ofBits_def, Ideal.cmpf_def, ofBits_one]
  exact uitofp_cmp_oeq (x1 j) 1

/-- The indicator of a target below one. -/
theorem neg_apply (x1 : (⟨S128x20x128x128, .f32⟩ : BufTy).Contents (Elt Ideal)) (j : S128x20x128x128.Idx) :
    val_main_v12 (F := Ideal) x1 j = neg (x1 j) := by
  rw [val_main_v12_apply, val_main_v11_apply, val_main_v10_apply, val_main_cst_4_apply]
  simp only [Ideal.ofBits_def, Ideal.cmpf_def, ofBits_one]
  exact uitofp_cmp_olt (x1 j) 1

/-- The indicator of a clamped probability above the threshold. -/
theorem fb_apply (x0 : (⟨S128x20x128x128, .f32⟩ : BufTy).Contents (Elt Ideal)) (j : S128x20x128x128.Idx) :
    val_main_v42 (F := Ideal) x0 j = fb (Ideal.logistic (x0 j)) := by
  rw [val_main_v42_apply, val_main_v41_apply, val_main_v40_apply, val_main_cst_13_apply, clamp_apply]
  simp only [Ideal.ofBits_def, Ideal.cmpf_def, ofBits_thr]
  exact uitofp_cmp_ogt (clampP (Ideal.logistic (x0 j))) (thr : EReal)

/-- The first factor's base: pos + (2 neg - 1) p. -/
theorem baseA_apply (x0 x1 : (⟨S128x20x128x128, .f32⟩ : BufTy).Contents (Elt Ideal)) (j : S128x20x128x128.Idx) :
    val_main_v18 (F := Ideal) x0 x1 j
      = pos (x1 j) + (((2 : ℝ) : EReal) * neg (x1 j) - 1) * clampP (Ideal.logistic (x0 j)) := by
  simp only [val_main_v18_apply, val_main_v17_apply, val_main_v16_apply, val_main_v15_apply, val_main_cst_6_apply,
    val_main_v14_apply, val_main_v13_apply, val_main_cst_5_apply, pos_apply, neg_apply, clamp_apply,
    Ideal.ofBits_def, Ideal.addf_def, Ideal.mulf_def, Ideal.subf_def, ofBits_one, ofBits_two]

/-- The second factor's base: neg + (2 pos - 1) g. -/
theorem baseB_apply (x1 : (⟨S128x20x128x128, .f32⟩ : BufTy).Contents (Elt Ideal)) (j : S128x20x128x128.Idx) :
    val_main_v25 (F := Ideal) x1 j = neg (x1 j) + (((2 : ℝ) : EReal) * pos (x1 j) - 1) * x1 j := by
  simp only [val_main_v25_apply, val_main_v24_apply, val_main_v23_apply, val_main_v22_apply, val_main_cst_8_apply,
    val_main_v21_apply, val_main_v20_apply, val_main_cst_7_apply, pos_apply, neg_apply,
    Ideal.ofBits_def, Ideal.addf_def, Ideal.mulf_def, Ideal.subf_def, ofBits_one, ofBits_two]

/-- The logarithm's argument: neg + (2 pos - 1) p. -/
theorem baseC_apply (x0 x1 : (⟨S128x20x128x128, .f32⟩ : BufTy).Contents (Elt Ideal)) (j : S128x20x128x128.Idx) :
    val_main_v33 (F := Ideal) x0 x1 j
      = neg (x1 j) + (((2 : ℝ) : EReal) * pos (x1 j) - 1) * clampP (Ideal.logistic (x0 j)) := by
  simp only [val_main_v33_apply, val_main_v32_apply, val_main_v31_apply, val_main_v30_apply, val_main_cst_10_apply,
    val_main_v29_apply, val_main_v28_apply, val_main_cst_9_apply, pos_apply, neg_apply, clamp_apply,
    Ideal.ofBits_def, Ideal.addf_def, Ideal.mulf_def, Ideal.subf_def, ofBits_one, ofBits_two]

/-- The focal term: the square of the first base, times the fourth power of the second (a square of a square), times
    the logarithm of the third. -/
theorem term_apply (x0 x1 : (⟨S128x20x128x128, .f32⟩ : BufTy).Contents (Elt Ideal)) (j : S128x20x128x128.Idx) :
    val_main_v36 (F := Ideal) x0 x1 j = termR (Ideal.logistic (x0 j)) (x1 j) := by
  simp only [val_main_v36_apply, val_main_v35_apply, val_main_v34_apply, val_main_v27_apply, val_main_v26_apply,
    val_main_v19_apply, baseA_apply, baseB_apply, baseC_apply, Ideal.mulf_def, Ideal.hostUnary_log_def]
  rfl

/-! ## The three sums and the quotient -/

/-- The negated focal sum. -/
theorem ref_loss (x0 x1 : (⟨S128x20x128x128, .f32⟩ : BufTy).Contents (Elt Ideal)) (i : S_.Idx) :
    val_main_v38 (F := Ideal) x0 x1 i
      = -((0 : EReal) + ∑ j : S128x20x128x128.Idx, termR (Ideal.logistic (x0 j)) (x1 j)) := by
  rw [val_main_v38_apply, val_main_v37_apply, val_main_cst_11_apply]
  simp only [Ideal.ofBits_def, Ideal.hostNegf_def, Ideal.negf_def, ofBits_zero, term_apply]

/-- The count of the targets equal to one. -/
theorem ref_pos (x1 : (⟨S128x20x128x128, .f32⟩ : BufTy).Contents (Elt Ideal)) (i : S_.Idx) :
    val_main_v39 (F := Ideal) x1 i = (0 : EReal) + ∑ j : S128x20x128x128.Idx, pos (x1 j) := by
  rw [val_main_v39_apply, val_main_cst_12_apply]
  simp only [Ideal.ofBits_def, ofBits_zero, pos_apply]

/-- The count of the clamped probabilities above the threshold. -/
theorem ref_fb (x0 : (⟨S128x20x128x128, .f32⟩ : BufTy).Contents (Elt Ideal)) (i : S_.Idx) :
    val_main_v43 (F := Ideal) x0 i = (0 : EReal) + ∑ j : S128x20x128x128.Idx, fb (Ideal.logistic (x0 j)) := by
  rw [val_main_v43_apply, val_main_cst_14_apply]
  simp only [Ideal.ofBits_def, ofBits_zero, fb_apply]

/-- The heatmap loss: the negated focal sum over the positive count, or, where that count is zero, over the larger of
    the threshold count and one. -/
theorem ref_hm (x0 x1 : (⟨S128x20x128x128, .f32⟩ : BufTy).Contents (Elt Ideal)) (i : S_.Idx) :
    val_main_v47 (F := Ideal) x0 x1 i
      = Ideal.div (val_main_v38 (F := Ideal) x0 x1 i)
          (Scalar.select (Ideal.cmp .oeq (val_main_v39 (F := Ideal) x1 i) (Ideal.ofBits .f32 0x00000000#32))
            (max (val_main_v43 (F := Ideal) x0 i) (Ideal.ofBits .f32 0x3F800000#32))
            (val_main_v39 (F := Ideal) x1 i)) := by
  rw [val_main_v47_apply, val_main_v46_apply, val_main_v45_apply, val_main_v44_apply, val_main_cst_15_apply,
    val_main_cst_16_apply]
  rfl

end Cert.ReferenceIdeal.RefTotals

/-! ## The precondition, read at the targets -/

namespace Cert.Pre_finite_inputs.Decode

open Idealize.ShloMosaic Cert.Pre_finite_inputs Cert.LossConsts

/-- The bit pattern of the positive infinity denotes the top of the extended reals. -/
theorem ofBits_inf : Ideal.ofBits .f32 0x7F800000#32 = ⊤ := by
  simp [Ideal.ofBits, Ideal.ieee]

/-- A decided proposition, as a one-bit word, is 1 exactly where it holds. -/
theorem ofBool_decide_eq_one (c : Prop) [Decidable c] : BitVec.ofBool (decide c) = 1#1 ↔ c := by
  by_cases hc : c <;> simp [hc]

/-- The scalar shape has one index. -/
instance : Subsingleton S_.Idx := ⟨fun a b => funext fun d => d.elim0⟩

/-- Under the precondition every target is a real number at most one: the precondition is a conjunction of seven
    "for all indices" statements, of which two speak of the targets — the absolute value is below infinity, so the
    target is neither infinity; and the target is at most one. -/
theorem target_real_le_one [Cert.Pre_finite_inputs.Facts]
    (a0 a1 : FVec Ideal Cert.Pre_finite_inputs.S128x20x128x128 .f32)
    (a2 : FVec Ideal Cert.Pre_finite_inputs.S128x2x128x128 .f32)
    (a3 : FVec Ideal Cert.Pre_finite_inputs.S128x128x2 .f32)
    (a4 : FVec Ideal Cert.Pre_finite_inputs.S128x2x128x128 .f32)
    (a5 : FVec Ideal Cert.Pre_finite_inputs.S128x128x2 .f32)
    (a6 a7 : IVec Cert.Pre_finite_inputs.S128x128 32)
    (h : Cert.Pre_finite_inputs.fn (F := Ideal) a0 a1 a2 a3 a4 a5 a6 a7 = fun _ => 1#1)
    (j : Cert.Pre_finite_inputs.S128x20x128x128.Idx) : ∃ γ : ℝ, a1 j = (γ : EReal) ∧ γ ≤ 1 := by
  have e := congrFun h (fun d => d.elim0)
  dsimp only [fn, fn_part1] at e
  change IntOp.andi (IntOp.andi (IntOp.andi (IntOp.andi (IntOp.andi (IntOp.andi _ _) _) _) _) _) _ = 1#1 at e
  simp only [IntOp.andi_eq_one] at e
  obtain ⟨⟨⟨⟨⟨⟨-, hfin⟩, -⟩, -⟩, -⟩, -⟩, hle⟩ := e
  -- the two conjuncts about the targets, read at the index j
  have f1 : BitVec.ofBool (decide (max (a1 j) (-(a1 j)) < Ideal.ofBits .f32 0x7F800000#32)) = 1#1 :=
    Host.reduce_andi_all _ _ _ _ _ hfin j
  have f2 : BitVec.ofBool (decide (a1 j ≤ Ideal.ofBits .f32 0x3F800000#32)) = 1#1 :=
    Host.reduce_andi_all _ _ _ _ _ hle j
  rw [ofBool_decide_eq_one, ofBits_inf] at f1
  rw [ofBool_decide_eq_one, ofBits_one] at f2
  have ht : a1 j ≠ ⊤ := fun c => by rw [c] at f1; simp at f1
  have hb : a1 j ≠ ⊥ := fun c => by rw [c] at f1; simp at f1
  refine ⟨(a1 j).toReal, (EReal.coe_toReal ht hb).symm, ?_⟩
  rw [← EReal.coe_toReal ht hb, ← EReal.coe_one, EReal.coe_le_coe_iff] at f2
  exact f2

end Cert.Pre_finite_inputs.Decode

end
-- ==== Proof.HmValue.lean ====
/-
  The kernel's heatmap loss is the reference's.  The first result divides what the loss accumulator holds by the count
  of positives or, when there are none, by the larger of the count above the threshold and one; the accumulators hold
  the negated total of the focal terms and the two total counts; and the reference divides the same three numbers.
-/
import proofs.«165979_j56504589746323_1_alg».proof.Proof.TailHm
import proofs.«165979_j56504589746323_1_alg».proof.Proof.HmBridge
import proofs.«165979_j56504589746323_1_alg».proof.Proof.RefTotals

set_option maxRecDepth 16384

noncomputable section

namespace Cert.KernelIdeal.Hand

open Cert.KernelIdeal Cert.KernelIdeal.Gen Cert.LossAlgebra Cert.ReferenceIdeal.RefTotals
open Idealize.ShloMosaic Idealize.ShloMosaic.TcCoe
open Idealize.SL Idealize.SL.Sem

variable (m : (ℓ : Loc nD τ sig) → Buf (Elt Ideal) ℓ)

/-- The heatmap loss of three one-element arrays, read at its one index. -/
theorem hmOf_apply (c : Dev nD) (a0 : Buf (Elt Ideal) ((c : Thread nD τ).loc main_v0_0)) (a1 : Buf (Elt Ideal) ((c : Thread nD τ).loc main_v0_1))
    (a2 : Buf (Elt Ideal) ((c : Thread nD τ).loc main_v0_2)) (i : S_.Idx) :
    hmOf (F := Ideal) c a0 a1 a2 i
      = Ideal.div (a0 (Shape.reshapeEquiv shapeCasts_S1x1x1x1_S_ i))
          (Scalar.select (Ideal.cmp .oeq (a1 (Shape.reshapeEquiv shapeCasts_S1x1x1x1_S_ i)) (Ideal.ofBits .f32 0x00000000#32))
            (max (a2 (Shape.reshapeEquiv shapeCasts_S1x1x1x1_S_ i)) (Ideal.ofBits .f32 0x3F800000#32)) (a1 (Shape.reshapeEquiv shapeCasts_S1x1x1x1_S_ i))) := rfl

/-- Where every target is a real number at most one, the kernel's first result is the reference's heatmap loss of the
    same two arrays. -/
theorem hm_eq (c : Dev nD) (hreal : ∀ j, ∃ γ : ℝ, hmTgt m c j = (γ : EReal) ∧ γ ≤ 1) :
    Pipeline.afterTail₀ cfgs (dats m) 0 (V0 m) tailOps c main_v7
      = Cert.ReferenceIdeal.ReadP.val_main_v47 (F := Ideal) (m ((c.tc : Thread nD τ).loc main_arg0)) (m ((c.tc : Thread nD τ).loc main_arg1)) := by
  rw [tail_hm]
  funext i
  rw [hmOf_apply, ref_hm, ref_loss, ref_pos, ref_fb, acc0_eq, acc1_eq, acc2_eq, loss_total m c hreal, pos_total, fb_total]
  simp only [zero_add]

end Cert.KernelIdeal.Hand

end
-- ==== Proof.TailWh.lean ====
/-
  The width-height regression loss after the region.  The later host lines that compute it read only the argument arrays
  (the prediction map, the targets, the mask and the indexes), which the region leaves as it found them, and they are,
  operation for operation, the lines by which the reference computes the same loss: so the kernel's result is the
  reference's function of the same four arrays.
-/
import proofs.«165979_j56504589746323_1_alg».proof.Proof.IdealFrame
import proofs.«165979_j56504589746323_1_alg».proof.Proof.RefRead
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ)

set_option maxHeartbeats 8000000 in
/-- The width-height loss is the reference's function of the four argument arrays it reads. -/
theorem tail_wh (c : Dev nD) :
    Pipeline.afterTail₀ cfgs (dats m) 0 (V0 m) tailOps c main_v31
      = Cert.ReferenceIdeal.ReadP.val_main_v71 (F := F) (m ((c.tc : Thread nD τ).loc main_arg2)) (m ((c.tc : Thread nD τ).loc main_arg3)) (m ((c.tc : Thread nD τ).loc main_arg6)) (m ((c.tc : Thread nD τ).loc main_arg7)) := by
  unfold Pipeline.afterTail₀
  simp only [tailOps, hostOps1, hostOps1_1, hostOps1_2, hostOps1_3, hostOps1_4, hostOps1_5, hostOps1_6, hostOps1_7, hostOps1_8, hostOps1_9, hostOps1_10,
    List.flatten_cons, List.flatten_nil, List.append_nil, List.cons_append, List.nil_append]
  after_results_simp
  simp only [Pipeline.withArrays_of_ne (cfgs 0).spec c (V0 m c) _ main_arg2 (by decide), Pipeline.withArrays_of_ne (cfgs 0).spec c (V0 m c) _ main_arg3 (by decide), Pipeline.withArrays_of_ne (cfgs 0).spec c (V0 m c) _ main_arg6 (by decide), Pipeline.withArrays_of_ne (cfgs 0).spec c (V0 m c) _ main_arg7 (by decide)]
  rfl

end Cert.KernelIdeal.Hand

end
-- ==== Proof.TailOff.lean ====
/-
  The offset regression loss after the region.  The later host lines that compute it read only the argument arrays
  (the prediction map, the targets, the mask and the indexes), which the region leaves as it found them, and they are,
  operation for operation, the lines by which the reference computes the same loss: so the kernel's result is the
  reference's function of the same four arrays.
-/
import proofs.«165979_j56504589746323_1_alg».proof.Proof.IdealFrame
import proofs.«165979_j56504589746323_1_alg».proof.Proof.RefRead
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ)

set_option maxHeartbeats 8000000 in
/-- The offset loss is the reference's function of the four argument arrays it reads. -/
theorem tail_off (c : Dev nD) :
    Pipeline.afterTail₀ cfgs (dats m) 0 (V0 m) tailOps c main_v55
      = Cert.ReferenceIdeal.ReadP.val_main_v95 (F := F) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  simp only [tailOps, hostOps1, hostOps1_1, hostOps1_2, hostOps1_3, hostOps1_4, hostOps1_5, hostOps1_6, hostOps1_7, hostOps1_8, hostOps1_9, hostOps1_10,
    List.flatten_cons, List.flatten_nil, List.append_nil, List.cons_append, List.nil_append]
  after_results_simp
  simp only [Pipeline.withArrays_of_ne (cfgs 0).spec c (V0 m c) _ main_arg4 (by decide), Pipeline.withArrays_of_ne (cfgs 0).spec c (V0 m c) _ main_arg5 (by decide), Pipeline.withArrays_of_ne (cfgs 0).spec c (V0 m c) _ main_arg6 (by decide), Pipeline.withArrays_of_ne (cfgs 0).spec c (V0 m c) _ main_arg7 (by decide)]
  rfl

end Cert.KernelIdeal.Hand

end
-- ==== Proof.TailTotal.lean ====
/-
  The total loss after the region: one times the heatmap loss, plus a tenth (the float nearest to it) times the
  width-height loss, plus one times the offset loss, each read where the earlier lines left it.
-/
import proofs.«165979_j56504589746323_1_alg».proof.Proof.IdealFrame
import proofs.«165979_j56504589746323_1_alg».proof.Proof.RefRead
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ)

/-- The weighted total of three scalar losses, as both programs spell it. -/
def totalOf (h w o : (⟨S_, .f32⟩ : BufTy).Contents (Elt F)) : (⟨S_, .f32⟩ : BufTy).Contents (Elt F) :=
  addf (addf (mulf (constant S_ .f32 0x3F800000#32) h) (mulf (constant S_ .f32 0x3DCCCCCD#32) w)) (mulf (constant S_ .f32 0x3F800000#32) o)

set_option maxHeartbeats 16000000 in
/-- The fourth result is the weighted total of the first three. -/
theorem tail_total (c : Dev nD) :
    Pipeline.afterTail₀ cfgs (dats m) 0 (V0 m) tailOps c main_v60
      = totalOf (F := F) (Pipeline.afterTail₀ cfgs (dats m) 0 (V0 m) tailOps c main_v7)
          (Pipeline.afterTail₀ cfgs (dats m) 0 (V0 m) tailOps c main_v31) (Pipeline.afterTail₀ cfgs (dats m) 0 (V0 m) tailOps c main_v55) := by
  unfold totalOf Pipeline.afterTail₀
  simp only [tailOps, hostOps1, hostOps1_1, hostOps1_2, hostOps1_3, hostOps1_4, hostOps1_5, hostOps1_6, hostOps1_7, hostOps1_8, hostOps1_9, hostOps1_10,
    List.flatten_cons, List.flatten_nil, List.append_nil, List.cons_append, List.nil_append]
  after_results_simp

end Cert.KernelIdeal.Hand

end
-- ==== Proof.Results.lean ====
/-
  The four results of the two programs, paired.  From memories that agree on the eight argument arrays, and where every
  heatmap target is a real number at most one: the heatmap losses agree (the accumulated sums are the reference's
  sums); the two regression losses agree because both programs compute them by the same host operations from the
  same arrays; and the total is the same weighted sum of the three on both sides.
-/
import proofs.«165979_j56504589746323_1_alg».proof.Proof.HmValue
import proofs.«165979_j56504589746323_1_alg».proof.Proof.TailWh
import proofs.«165979_j56504589746323_1_alg».proof.Proof.TailOff
import proofs.«165979_j56504589746323_1_alg».proof.Proof.TailTotal

set_option maxRecDepth 16384

noncomputable section

namespace Cert.KernelIdeal.Hand

open Cert.KernelIdeal Cert.KernelIdeal.Gen Cert.ReferenceIdeal.ReadP
open Idealize.ShloMosaic Idealize.ShloMosaic.TcCoe
open Idealize.SL Idealize.SL.Sem

/-- The reference's total is the weighted total of its three losses. -/
theorem ref_total (x0 x1 : (⟨Cert.ReferenceIdeal.S128x20x128x128, .f32⟩ : BufTy).Contents (Elt Ideal))
    (x2 : (⟨Cert.ReferenceIdeal.S128x2x128x128, .f32⟩ : BufTy).Contents (Elt Ideal)) (x3 : (⟨Cert.ReferenceIdeal.S128x128x2, .f32⟩ : BufTy).Contents (Elt Ideal))
    (x4 : (⟨Cert.ReferenceIdeal.S128x2x128x128, .f32⟩ : BufTy).Contents (Elt Ideal)) (x5 : (⟨Cert.ReferenceIdeal.S128x128x2, .f32⟩ : BufTy).Contents (Elt Ideal))
    (x6 x7 : (⟨Cert.ReferenceIdeal.S128x128, .i32⟩ : BufTy).Contents (Elt Ideal)) :
    val_main_v100 (F := Ideal) x0 x1 x2 x3 x4 x5 x6 x7
      = totalOf (F := Ideal) (val_main_v47 (F := Ideal) x0 x1) (val_main_v71 (F := Ideal) x2 x3 x6 x7) (val_main_v95 (F := Ideal) x4 x5 x6 x7) := rfl

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's four results are the kernel's. -/
theorem results_eq (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7))
    (hreal : ∀ j, ∃ γ : ℝ, hmTgt m c j = (γ : EReal) ∧ γ ≤ 1) :
    Cert.ReferenceIdeal.ValueP.res_main_v47 m' c = Pipeline.afterTail₀ cfgs (dats m) 0 (V0 m) tailOps c main_v7
    ∧ Cert.ReferenceIdeal.ValueP.res_main_v71 m' c = Pipeline.afterTail₀ cfgs (dats m) 0 (V0 m) tailOps c main_v31
    ∧ Cert.ReferenceIdeal.ValueP.res_main_v95 m' c = Pipeline.afterTail₀ cfgs (dats m) 0 (V0 m) tailOps c main_v55
    ∧ Cert.ReferenceIdeal.ValueP.res_main_v100 m' c = Pipeline.afterTail₀ cfgs (dats m) 0 (V0 m) tailOps c main_v60 := by
  obtain ⟨h0, h1, h2, h3, h4, h5, h6, h7⟩ := hagree
  have e0 : Cert.ReferenceIdeal.ValueP.res_main_v47 m' c = Pipeline.afterTail₀ cfgs (dats m) 0 (V0 m) tailOps c main_v7 :=
    (val_main_v47_eq m' c).trans (by rw [h0, h1]; exact (hm_eq m c hreal).symm)
  have e1 : Cert.ReferenceIdeal.ValueP.res_main_v71 m' c = Pipeline.afterTail₀ cfgs (dats m) 0 (V0 m) tailOps c main_v31 :=
    (val_main_v71_eq m' c).trans (by rw [h2, h3, h6, h7]; exact (tail_wh m c).symm)
  have e2 : Cert.ReferenceIdeal.ValueP.res_main_v95 m' c = Pipeline.afterTail₀ cfgs (dats m) 0 (V0 m) tailOps c main_v55 :=
    (val_main_v95_eq m' c).trans (by rw [h4, h5, h6, h7]; exact (tail_off m c).symm)
  refine ⟨e0, e1, e2, ?_⟩
  rw [val_main_v100_eq, ref_total, ← val_main_v47_eq, ← val_main_v71_eq, ← val_main_v95_eq, e0, e1, e2]
  exact (tail_total m c).symm

end Cert.KernelIdeal.Hand

end
-- ==== Proof.lean ====
/-
  The certificate of the CenterNet-style loss kernel against its jnp reference.

  The kernel computes the heatmap focal loss in one pipelined region over 64 blocks of two images each, keeping three
  one-element accumulators (the negated sum of the focal terms, the number of positives, the number of clamped
  probabilities above 0.3), and leaves the two small gather-based smooth-L1 losses and the final arithmetic to host
  operations after the region; the reference computes everything on the host.

  Frames.  Each program runs to the end, faults nowhere and leaves its eight argument arrays unchanged: for the kernel (as
  printed, and idealized) by the launch theorem for a region followed by host lines, over proof data that name what the
  three accumulators hold after every grid point; for the reference by its run read back.

  Preserves.  The idealization rewrote no operation: nothing to show.

  Algebraic.  The precondition makes every float input finite and every heatmap target at most one.  Where the target is
  at most one, the kernel's `1 - pos` is the reference's `neg`, so the two focal terms are one number, and it is a real
  number because the clamped probability lies strictly between 0 and 1; hence the kernel's sum of negated block sums is
  the reference's negated total sum, and the two counts are regrouped sums of the same zeros and ones.  The remaining host
  arithmetic is the same on both sides.
-/
import proofs.«165979_j56504589746323_1_alg».proof.Defs
import proofs.«165979_j56504589746323_1_alg».proof.Proof.Gen.Kernel
import proofs.«165979_j56504589746323_1_alg».proof.Proof.Gen.KernelIdeal
import proofs.«165979_j56504589746323_1_alg».proof.Proof.Gen.ReferenceIdeal
import proofs.«165979_j56504589746323_1_alg».proof.Proof.Gen.Pre_finite_inputs
import proofs.«165979_j56504589746323_1_alg».proof.Proof.BitsFrame
import proofs.«165979_j56504589746323_1_alg».proof.Proof.IdealFrame
import proofs.«165979_j56504589746323_1_alg».proof.Proof.RefRun
import proofs.«165979_j56504589746323_1_alg».proof.Proof.ValueRun
import proofs.«165979_j56504589746323_1_alg».proof.Proof.Results
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Hand.frame m ρ

/-- The idealized kernel runs and keeps its arguments. -/
theorem frame_ki : Cert.frame_KernelIdeal := fun m ρ _ => Cert.KernelIdeal.Hand.frame m ρ

/-- The idealized reference runs and keeps its arguments: its run read back, the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The idealization rewrote nothing. -/
theorem preserves : Cert.preserves_Kernel_KernelIdeal := trivial

/-- The precondition makes every heatmap target a real number at most one. -/
theorem targets_real (m : (ℓ : Loc Cert.KernelIdeal.nD Cert.KernelIdeal.τ Cert.KernelIdeal.sig) → Buf (Elt Ideal) ℓ) (hpre : Cert.Pre_KernelIdeal m)
    (c : Dev Cert.KernelIdeal.nD) (j : Cert.KernelIdeal.S128x20x128x128.Idx) :
    ∃ γ : ℝ, Cert.KernelIdeal.Hand.hmTgt m c j = (γ : EReal) ∧ γ ≤ 1 :=
  Cert.Pre_finite_inputs.Decode.target_real_le_one _ _ _ _ _ _ _ _ (hpre c) j

/-- From memories agreeing on the arguments both idealized programs run, and end with equal results: the kernel's four
    results are named by its run, and the reference's run ends at the same four values. -/
theorem algebraic : Cert.algebraic_KernelIdeal_ReferenceIdeal := fun m ρ m' ρ' hpre hagree =>
  ⟨fun c => Pipeline.afterTail₀ Cert.KernelIdeal.cfgs (Cert.KernelIdeal.Hand.dats m) 0 (Cert.KernelIdeal.Hand.V0 m) Cert.KernelIdeal.Hand.tailOps c Cert.KernelIdeal.main_v7,
    fun c => Pipeline.afterTail₀ Cert.KernelIdeal.cfgs (Cert.KernelIdeal.Hand.dats m) 0 (Cert.KernelIdeal.Hand.V0 m) Cert.KernelIdeal.Hand.tailOps c Cert.KernelIdeal.main_v31,
    fun c => Pipeline.afterTail₀ Cert.KernelIdeal.cfgs (Cert.KernelIdeal.Hand.dats m) 0 (Cert.KernelIdeal.Hand.V0 m) Cert.KernelIdeal.Hand.tailOps c Cert.KernelIdeal.main_v55,
    fun c => Pipeline.afterTail₀ Cert.KernelIdeal.cfgs (Cert.KernelIdeal.Hand.dats m) 0 (Cert.KernelIdeal.Hand.V0 m) Cert.KernelIdeal.Hand.tailOps c Cert.KernelIdeal.main_v60,
    Cert.KernelIdeal.Hand.value_run m ρ,
    (θ_run Cert.ReferenceIdeal.defs _ _).mono (fun _ h c =>
      have e := Cert.KernelIdeal.Hand.results_eq m m' c (hagree c) (targets_real m hpre c)
      ⟨(h c).1.trans e.1, (h c).2.1.trans e.2.1, (h c).2.2.1.trans e.2.2.1, (h c).2.2.2.1.trans e.2.2.2, (h c).2.2.2.2⟩)
      (Cert.ReferenceIdeal.ValueP.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
